-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v244)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v244) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v330) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4x800000 : Shape := ⟨2, ![4, 800000]⟩
abbrev S3x4x128x32 : Shape := ⟨4, ![3, 4, 128, 32]⟩
abbrev S3x4x32 : Shape := ⟨3, ![3, 4, 32]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x800000 : S_.BroadcastsInDim S4x800000 (![] : Fin 0 → Fin S4x800000.rank)
  reducesTo_S4x800000_S_d0_1 : S4x800000.ReducesTo [0, 1] S_
  bcast_S_S3x4x128x32 : S_.BroadcastsInDim S3x4x128x32 (![] : Fin 0 → Fin S3x4x128x32.rank)
  reducesTo_S3x4x128x32_S_d0_1_2_3 : S3x4x128x32.ReducesTo [0, 1, 2, 3] S_
  bcast_S_S3x4x32 : S_.BroadcastsInDim S3x4x32 (![] : Fin 0 → Fin S3x4x32.rank)
  reducesTo_S3x4x32_S_d0_1_2 : S3x4x32.ReducesTo [0, 1, 2] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S128x40 .f32) (main_arg5 : FVec F S40 .f32) (main_v13 : IVec S_ 1) (main_v16 : IVec S3x4x32 1) : IVec S_ 1 :=
  let main_c_5 : IVec S_ 1 := constantI S_ 1 1#1
  let main_v17 : IVec S_ 1 := (fun x v => Host.reduce IntOp.andi x v reducesTo_S3x4x32_S_d0_1_2 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x128 .f32) (main_arg1 : FVec F S4x800000 .f32) (main_arg2 : FVec F S3x4x128x32 .f32) (main_arg3 : FVec F S3x4x32 .f32) (main_arg4 : FVec F S128x40 .f32) (main_arg5 : FVec F S40 .f32) (main_arg6 : IVec S4x800000 32) (main_arg7 : IVec S4x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x800000 .f32 := Host.absf main_arg1
  let main_cst_0 : FVec F S_ .f32 := constant S_ .f32 0x7F800000#32
  let main_v5 : FVec F S4x800000 .f32 := broadcastInDim S4x800000 ![] bcast_S_S4x800000 main_cst_0
  let main_v6 : IVec S4x800000 1 := cmpf .olt main_v4 main_v5
  let main_c_1 : IVec S_ 1 := constantI S_ 1 1#1
  let main_v7 : IVec S_ 1 := (fun x v => Host.reduce IntOp.andi x v reducesTo_S4x800000_S_d0_1 h_S_) main_v6 main_c_1
  let main_v8 : IVec S_ 1 := andi main_v3 main_v7
  let main_v9 : FVec F S3x4x128x32 .f32 := Host.absf main_arg2
  let main_cst_2 : FVec F S_ .f32 := constant S_ .f32 0x7F800000#32
  let main_v10 : FVec F S3x4x128x32 .f32 := broadcastInDim S3x4x128x32 ![] bcast_S_S3x4x128x32 main_cst_2
  let main_v11 : IVec S3x4x128x32 1 := cmpf .olt main_v9 main_v10
  let main_c_3 : IVec S_ 1 := constantI S_ 1 1#1
  let main_v12 : IVec S_ 1 := (fun x v => Host.reduce IntOp.andi x v reducesTo_S3x4x128x32_S_d0_1_2_3 h_S_) main_v11 main_c_3
  let main_v13 : IVec S_ 1 := andi main_v8 main_v12
  let main_v14 : FVec F S3x4x32 .f32 := Host.absf main_arg3
  let main_cst_4 : FVec F S_ .f32 := constant S_ .f32 0x7F800000#32
  let main_v15 : FVec F S3x4x32 .f32 := broadcastInDim S3x4x32 ![] bcast_S_S3x4x32 main_cst_4
  let main_v16 : IVec S3x4x32 1 := cmpf .olt main_v14 main_v15
  fn_part1 (F := F) main_arg4 main_arg5 main_v13 main_v16
-- ==== Kernel.lean ====
abbrev S50000x128 : Shape := ⟨2, ![50000, 128]⟩
abbrev S4x800000 : Shape := ⟨2, ![4, 800000]⟩
abbrev S3x4x128x32 : Shape := ⟨4, ![3, 4, 128, 32]⟩
abbrev S3x4x32 : Shape := ⟨3, ![3, 4, 32]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x4x128x32 : Shape := ⟨4, ![1, 4, 128, 32]⟩
abbrev S4x128x32 : Shape := ⟨3, ![4, 128, 32]⟩
abbrev S1x4x32 : Shape := ⟨3, ![1, 4, 32]⟩
abbrev S4x32 : Shape := ⟨2, ![4, 32]⟩
abbrev S2000x128 : Shape := ⟨2, ![2000, 128]⟩
abbrev S1x128x32 : Shape := ⟨3, ![1, 128, 32]⟩
abbrev S128x32 : Shape := ⟨2, ![128, 32]⟩
abbrev S2000x32 : Shape := ⟨2, ![2000, 32]⟩
abbrev S1x32 : Shape := ⟨2, ![1, 32]⟩
abbrev S32 : Shape := ⟨1, ![32]⟩
abbrev S1x40 : Shape := ⟨2, ![1, 40]⟩
abbrev S50000x40 : Shape := ⟨2, ![50000, 40]⟩
abbrev S5000x128 : Shape := ⟨2, ![5000, 128]⟩
abbrev S5000x40 : Shape := ⟨2, ![5000, 40]⟩

abbrev nBuf : Space → Nat
  | .hbm => 289
  | .vmem => 42
  | .smem => 0
  | _ => 0

abbrev hbmTy0_0 (i : Nat) : BufTy := match i % 128 with
  | 0 => ⟨S50000x128, .f32⟩
  | 1 => ⟨S4x800000, .f32⟩
  | 2 => ⟨S3x4x128x32, .f32⟩
  | 3 => ⟨S3x4x32, .f32⟩
  | 4 => ⟨S128x40, .f32⟩
  | 5 => ⟨S40, .f32⟩
  | 6 => ⟨S4x800000, .i32⟩
  | 7 => ⟨S4x800000, .i32⟩
  | 8 => ⟨S1x800000, .f32⟩
  | 9 => ⟨S800000, .f32⟩
  | 10 => ⟨S1x800000, .i32⟩
  | 11 => ⟨S800000, .i32⟩
  | 12 => ⟨S1x800000, .i32⟩
  | 13 => ⟨S800000, .i32⟩
  | 14 => ⟨S800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S1x800000, .f32⟩
  | 31 => ⟨S800000, .f32⟩
  | 32 => ⟨S1x800000, .i32⟩
  | 33 => ⟨S800000, .i32⟩
  | 34 => ⟨S1x800000, .i32⟩
  | 35 => ⟨S800000, .i32⟩
  | 36 => ⟨S800000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S1x800000, .f32⟩
  | 53 => ⟨S800000, .f32⟩
  | 54 => ⟨S1x800000, .i32⟩
  | 55 => ⟨S800000, .i32⟩
  | 56 => ⟨S1x800000, .i32⟩
  | 57 => ⟨S800000, .i32⟩
  | 58 => ⟨S800000x1, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S1x800000, .f32⟩
  | 75 => ⟨S800000, .f32⟩
  | 76 => ⟨S1x800000, .i32⟩
  | 77 => ⟨S800000, .i32⟩
  | 78 => ⟨S1x800000, .i32⟩
  | 79 => ⟨S800000, .i32⟩
  | 80 => ⟨S800000x1, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x128, .f32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S1x4x128x32, .f32⟩
  | 97 => ⟨S4x128x32, .f32⟩
  | 98 => ⟨S1x4x32, .f32⟩
  | 99 => ⟨S4x32, .f32⟩
  | 100 => ⟨S50000x128, .f32⟩
  | 101 => ⟨S1x800000, .f32⟩
  | 102 => ⟨S800000, .f32⟩
  | 103 => ⟨S1x800000, .i32⟩
  | 104 => ⟨S800000, .i32⟩
  | 105 => ⟨S1x800000, .i32⟩
  | 106 => ⟨S800000, .i32⟩
  | 107 => ⟨S800000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S1x800000, .f32⟩
  | 124 => ⟨S800000, .f32⟩
  | 125 => ⟨S1x800000, .i32⟩
  | 126 => ⟨S800000, .i32⟩
  | 127 => ⟨S1x800000, .i32⟩
  | _ => ⟨S50000x128, .f32⟩

abbrev hbmTy0_1 (i : Nat) : BufTy := match i % 128 with
  | 0 => ⟨S800000, .i32⟩
  | 1 => ⟨S800000x1, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S800000x128, .f32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S1x800000, .f32⟩
  | 18 => ⟨S800000, .f32⟩
  | 19 => ⟨S1x800000, .i32⟩
  | 20 => ⟨S800000, .i32⟩
  | 21 => ⟨S1x800000, .i32⟩
  | 22 => ⟨S800000, .i32⟩
  | 23 => ⟨S800000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S1x800000, .f32⟩
  | 40 => ⟨S800000, .f32⟩
  | 41 => ⟨S1x800000, .i32⟩
  | 42 => ⟨S800000, .i32⟩
  | 43 => ⟨S1x800000, .i32⟩
  | 44 => ⟨S800000, .i32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S1x4x128x32, .f32⟩
  | 62 => ⟨S4x128x32, .f32⟩
  | 63 => ⟨S1x4x32, .f32⟩
  | 64 => ⟨S4x32, .f32⟩
  | 65 => ⟨S50000x128, .f32⟩
  | 66 => ⟨S1x800000, .f32⟩
  | 67 => ⟨S800000, .f32⟩
  | 68 => ⟨S1x800000, .i32⟩
  | 69 => ⟨S800000, .i32⟩
  | 70 => ⟨S1x800000, .i32⟩
  | 71 => ⟨S800000, .i32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S800000x128, .f32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S1x800000, .f32⟩
  | 89 => ⟨S800000, .f32⟩
  | 90 => ⟨S1x800000, .i32⟩
  | 91 => ⟨S800000, .i32⟩
  | 92 => ⟨S1x800000, .i32⟩
  | 93 => ⟨S800000, .i32⟩
  | 94 => ⟨S800000x1, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S1x800000, .f32⟩
  | 111 => ⟨S800000, .f32⟩
  | 112 => ⟨S1x800000, .i32⟩
  | 113 => ⟨S800000, .i32⟩
  | 114 => ⟨S1x800000, .i32⟩
  | 115 => ⟨S800000, .i32⟩
  | 116 => ⟨S800000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x128, .f32⟩
  | 127 => ⟨S800000x128, .f32⟩
  | _ => ⟨S50000x128, .f32⟩

abbrev hbmTy0_2 (i : Nat) : BufTy := match i % 128 with
  | 0 => ⟨S_, .f32⟩
  | 1 => ⟨S50000x128, .f32⟩
  | 2 => ⟨S800000x1, .i32⟩
  | 3 => ⟨S50000x128, .f32⟩
  | 4 => ⟨S1x800000, .f32⟩
  | 5 => ⟨S800000, .f32⟩
  | 6 => ⟨S1x800000, .i32⟩
  | 7 => ⟨S800000, .i32⟩
  | 8 => ⟨S1x800000, .i32⟩
  | 9 => ⟨S800000, .i32⟩
  | 10 => ⟨S800000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x128, .f32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S1x4x128x32, .f32⟩
  | 27 => ⟨S4x128x32, .f32⟩
  | 28 => ⟨S1x4x32, .f32⟩
  | 29 => ⟨S4x32, .f32⟩
  | 30 => ⟨S50000x128, .f32⟩
  | 31 => ⟨S1x40, .f32⟩
  | 32 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S4x128x32, .f32⟩
  | .local _ .vmem, ⟨9, _⟩ => ⟨S4x32, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S4x128x32, .f32⟩
  | .local _ .vmem, ⟨21, _⟩ => ⟨S4x32, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S4x128x32, .f32⟩
  | .local _ .vmem, ⟨33, _⟩ => ⟨S4x32, .f32⟩
  | .local _ .vmem, ⟨34, _⟩ => ⟨S2000x128, .f32⟩
  | .local _ .vmem, ⟨35, _⟩ => ⟨S2000x128, .f32⟩
  | .local _ .vmem, ⟨36, _⟩ => ⟨S5000x128, .f32⟩
  | .local _ .vmem, ⟨37, _⟩ => ⟨S5000x128, .f32⟩
  | .local _ .vmem, ⟨38, _⟩ => ⟨S128x40, .f32⟩
  | .local _ .vmem, ⟨39, _⟩ => ⟨S1x40, .f32⟩
  | .local _ .vmem, ⟨40, _⟩ => ⟨S5000x40, .f32⟩
  | .local _ .vmem, ⟨41, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_4 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_7 : Ref sig .tc := ⟨.hbm, 81, rfl⟩
abbrev main_v64 : Ref sig .tc := ⟨.hbm, 82, rfl⟩
abbrev main_v65 : Ref sig .tc := ⟨.hbm, 83, rfl⟩
abbrev main_c_8 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c_10 : Ref sig .tc := ⟨.hbm, 108, rfl⟩
abbrev main_v88 : Ref sig .tc := ⟨.hbm, 109, rfl⟩
abbrev main_v89 : Ref sig .tc := ⟨.hbm, 110, rfl⟩
abbrev main_c_11 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_12 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_c_13 : Ref sig .tc := ⟨.hbm, 130, rfl⟩
abbrev main_v107 : Ref sig .tc := ⟨.hbm, 131, rfl⟩
abbrev main_v108 : Ref sig .tc := ⟨.hbm, 132, rfl⟩
abbrev main_c_14 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_15 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_c_16 : Ref sig .tc := ⟨.hbm, 152, rfl⟩
abbrev main_v126 : Ref sig .tc := ⟨.hbm, 153, rfl⟩
abbrev main_v127 : Ref sig .tc := ⟨.hbm, 154, rfl⟩
abbrev main_c_17 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_18 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_c_19 : Ref sig .tc := ⟨.hbm, 174, rfl⟩
abbrev main_v145 : Ref sig .tc := ⟨.hbm, 175, rfl⟩
abbrev main_v146 : Ref sig .tc := ⟨.hbm, 176, rfl⟩
abbrev main_c_20 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_cst_21 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_c_22 : Ref sig .tc := ⟨.hbm, 201, rfl⟩
abbrev main_v169 : Ref sig .tc := ⟨.hbm, 202, rfl⟩
abbrev main_v170 : Ref sig .tc := ⟨.hbm, 203, rfl⟩
abbrev main_c_23 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_cst_24 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_c_25 : Ref sig .tc := ⟨.hbm, 223, rfl⟩
abbrev main_v188 : Ref sig .tc := ⟨.hbm, 224, rfl⟩
abbrev main_v189 : Ref sig .tc := ⟨.hbm, 225, rfl⟩
abbrev main_c_26 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_cst_27 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_c_28 : Ref sig .tc := ⟨.hbm, 245, rfl⟩
abbrev main_v207 : Ref sig .tc := ⟨.hbm, 246, rfl⟩
abbrev main_v208 : Ref sig .tc := ⟨.hbm, 247, rfl⟩
abbrev main_c_29 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_cst_30 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_c_31 : Ref sig .tc := ⟨.hbm, 267, rfl⟩
abbrev main_v226 : Ref sig .tc := ⟨.hbm, 268, rfl⟩
abbrev main_v227 : Ref sig .tc := ⟨.hbm, 269, rfl⟩
abbrev main_c_32 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_cst_33 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x128x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4x128x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S4x800000_S1x800000_0_0 : S4x800000.Slices ![0, 0] S1x800000
  shapeCasts_S1x800000_S800000 : S1x800000.ShapeCasts S800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x800000_S1x800000_1_0 : S4x800000.Slices ![1, 0] S1x800000
  slices_S4x800000_S1x800000_2_0 : S4x800000.Slices ![2, 0] S1x800000
  slices_S4x800000_S1x800000_3_0 : S4x800000.Slices ![3, 0] S1x800000
  slices_S3x4x128x32_S1x4x128x32_0_0_0_0 : S3x4x128x32.Slices ![0, 0, 0, 0] S1x4x128x32
  shapeCasts_S1x4x128x32_S4x128x32 : S1x4x128x32.ShapeCasts S4x128x32
  slices_S3x4x32_S1x4x32_0_0_0 : S3x4x32.Slices ![0, 0, 0] S1x4x32
  shapeCasts_S1x4x32_S4x32 : S1x4x32.ShapeCasts S4x32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S4x128x32_S1x128x32_0_0_0 : ∀ a, (![0, 0, 0] : Fin 3 → Nat) a + S1x128x32.size a ≤ S4x128x32.size a
  h_S1x128x32 : 0 < S1x128x32.numel
  shapeCasts_S1x128x32_S128x32 : S1x128x32.ShapeCasts S128x32
  inb_S4x32_S1x32_0_0 : ∀ a, (![0, 0] : Fin 2 → Nat) a + S1x32.size a ≤ S4x32.size a
  h_S1x32 : 0 < S1x32.numel
  shapeCasts_S1x32_S32 : S1x32.ShapeCasts S32
  shapeCasts_S32_S1x32 : S32.ShapeCasts S1x32
  broadcasts_S1x32_S2000x32 : S1x32.Broadcasts S2000x32
  inb_S4x128x32_S1x128x32_1_0_0 : ∀ a, (![1, 0, 0] : Fin 3 → Nat) a + S1x128x32.size a ≤ S4x128x32.size a
  inb_S4x32_S1x32_1_0 : ∀ a, (![1, 0] : Fin 2 → Nat) a + S1x32.size a ≤ S4x32.size a
  inb_S4x128x32_S1x128x32_2_0_0 : ∀ a, (![2, 0, 0] : Fin 3 → Nat) a + S1x128x32.size a ≤ S4x128x32.size a
  inb_S4x32_S1x32_2_0 : ∀ a, (![2, 0] : Fin 2 → Nat) a + S1x32.size a ≤ S4x32.size a
  inb_S4x128x32_S1x128x32_3_0_0 : ∀ a, (![3, 0, 0] : Fin 3 → Nat) a + S1x128x32.size a ≤ S4x128x32.size a
  inb_S4x32_S1x32_3_0 : ∀ a, (![3, 0] : Fin 2 → Nat) a + S1x32.size a ≤ S4x32.size a
  concatenates_S2000x32_S2000x32_S2000x32_S2000x32_S2000x128_d1 : Shape.Concatenates [S2000x32, S2000x32, S2000x32, S2000x32] S2000x128 1
  slices_S3x4x128x32_S1x4x128x32_1_0_0_0 : S3x4x128x32.Slices ![1, 0, 0, 0] S1x4x128x32
  slices_S3x4x32_S1x4x32_1_0_0 : S3x4x32.Slices ![1, 0, 0] S1x4x32
  slices_S3x4x128x32_S1x4x128x32_2_0_0_0 : S3x4x128x32.Slices ![2, 0, 0, 0] S1x4x128x32
  slices_S3x4x32_S1x4x32_2_0_0 : S3x4x32.Slices ![2, 0, 0] S1x4x32
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x32_S2000x32_1_0_0_1_n_n_wf : DotDims.WF S2000x128 S128x32 S2000x32 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x32.size a ≤ S4x128x32.size a
  hwx0_4 : ∀ i : grid0.Coords, EltTy.bits .f32 = 32 ∨ (Rect.block (s := S4x128x32) S4x128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32.size a ≤ S4x32.size a
  hwx0_5 : ∀ i : grid0.Coords, EltTy.bits .f32 = 32 ∨ (Rect.block (s := S4x32) S4x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128x32.size a ≤ S4x128x32.size a
  hwx1_4 : ∀ i : grid1.Coords, EltTy.bits .f32 = 32 ∨ (Rect.block (s := S4x128x32) S4x128x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x32.size a ≤ S4x32.size a
  hwx1_5 : ∀ i : grid1.Coords, EltTy.bits .f32 = 32 ∨ (Rect.block (s := S4x32) S4x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x128x32.size a ≤ S4x128x32.size a
  hwx2_4 : ∀ i : grid2.Coords, EltTy.bits .f32 = 32 ∨ (Rect.block (s := S4x128x32) S4x128x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x32.size a ≤ S4x32.size a
  hwx2_5 : ∀ i : grid2.Coords, EltTy.bits .f32 = 32 ∨ (Rect.block (s := S4x32) S4x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S50000x40.size a
  hwx3_3 : ∀ i : grid3.Coords, EltTy.bits .f32 = 32 ∨ (Rect.block (s := S50000x40) S5000x40.size (cc3_transform_3 i) (hinb3_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v77) S4x128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v79) S4x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v80) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v99) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v118) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v137) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v156) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v158) S4x128x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v160) S4x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v161) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v180) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v199) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v218) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v237) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v239) S4x128x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v241) S4x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v242) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v242) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v243) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v244) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S4x800000 : Shape := ⟨2, ![4, 800000]⟩
abbrev S3x4x128x32 : Shape := ⟨4, ![3, 4, 128, 32]⟩
abbrev S3x4x32 : Shape := ⟨3, ![3, 4, 32]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x1x128x32 : Shape := ⟨4, ![1, 1, 128, 32]⟩
abbrev S128x32 : Shape := ⟨2, ![128, 32]⟩
abbrev S50000x32 : Shape := ⟨2, ![50000, 32]⟩
abbrev S1x1x32 : Shape := ⟨3, ![1, 1, 32]⟩
abbrev S32 : Shape := ⟨1, ![32]⟩
abbrev S1x32 : Shape := ⟨2, ![1, 32]⟩
abbrev S50000x40 : Shape := ⟨2, ![50000, 40]⟩
abbrev S1x40 : Shape := ⟨2, ![1, 40]⟩

abbrev nBuf : Space → Nat
  | .hbm => 375
  | .vmem => 0
  | .smem => 0
  | _ => 0

abbrev hbmTy0_0 (i : Nat) : BufTy := match i % 128 with
  | 0 => ⟨S50000x128, .f32⟩
  | 1 => ⟨S4x800000, .f32⟩
  | 2 => ⟨S3x4x128x32, .f32⟩
  | 3 => ⟨S3x4x32, .f32⟩
  | 4 => ⟨S128x40, .f32⟩
  | 5 => ⟨S40, .f32⟩
  | 6 => ⟨S4x800000, .i32⟩
  | 7 => ⟨S4x800000, .i32⟩
  | 8 => ⟨S1x800000, .f32⟩
  | 9 => ⟨S800000, .f32⟩
  | 10 => ⟨S1x800000, .i32⟩
  | 11 => ⟨S800000, .i32⟩
  | 12 => ⟨S1x800000, .i32⟩
  | 13 => ⟨S800000, .i32⟩
  | 14 => ⟨S800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S1x1x128x32, .f32⟩
  | 31 => ⟨S128x32, .f32⟩
  | 32 => ⟨S50000x32, .f32⟩
  | 33 => ⟨S1x1x32, .f32⟩
  | 34 => ⟨S32, .f32⟩
  | 35 => ⟨S1x32, .f32⟩
  | 36 => ⟨S50000x32, .f32⟩
  | 37 => ⟨S50000x32, .f32⟩
  | 38 => ⟨S1x800000, .f32⟩
  | 39 => ⟨S800000, .f32⟩
  | 40 => ⟨S1x800000, .i32⟩
  | 41 => ⟨S800000, .i32⟩
  | 42 => ⟨S1x800000, .i32⟩
  | 43 => ⟨S800000, .i32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S1x1x128x32, .f32⟩
  | 61 => ⟨S128x32, .f32⟩
  | 62 => ⟨S50000x32, .f32⟩
  | 63 => ⟨S1x1x32, .f32⟩
  | 64 => ⟨S32, .f32⟩
  | 65 => ⟨S1x32, .f32⟩
  | 66 => ⟨S50000x32, .f32⟩
  | 67 => ⟨S50000x32, .f32⟩
  | 68 => ⟨S1x800000, .f32⟩
  | 69 => ⟨S800000, .f32⟩
  | 70 => ⟨S1x800000, .i32⟩
  | 71 => ⟨S800000, .i32⟩
  | 72 => ⟨S1x800000, .i32⟩
  | 73 => ⟨S800000, .i32⟩
  | 74 => ⟨S800000x1, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S1x1x128x32, .f32⟩
  | 91 => ⟨S128x32, .f32⟩
  | 92 => ⟨S50000x32, .f32⟩
  | 93 => ⟨S1x1x32, .f32⟩
  | 94 => ⟨S32, .f32⟩
  | 95 => ⟨S1x32, .f32⟩
  | 96 => ⟨S50000x32, .f32⟩
  | 97 => ⟨S50000x32, .f32⟩
  | 98 => ⟨S1x800000, .f32⟩
  | 99 => ⟨S800000, .f32⟩
  | 100 => ⟨S1x800000, .i32⟩
  | 101 => ⟨S800000, .i32⟩
  | 102 => ⟨S1x800000, .i32⟩
  | 103 => ⟨S800000, .i32⟩
  | 104 => ⟨S800000x1, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1x1x128x32, .f32⟩
  | 121 => ⟨S128x32, .f32⟩
  | 122 => ⟨S50000x32, .f32⟩
  | 123 => ⟨S1x1x32, .f32⟩
  | 124 => ⟨S32, .f32⟩
  | 125 => ⟨S1x32, .f32⟩
  | 126 => ⟨S50000x32, .f32⟩
  | 127 => ⟨S50000x32, .f32⟩
  | _ => ⟨S50000x128, .f32⟩

abbrev hbmTy0_1 (i : Nat) : BufTy := match i % 128 with
  | 0 => ⟨S50000x128, .f32⟩
  | 1 => ⟨S1x800000, .f32⟩
  | 2 => ⟨S800000, .f32⟩
  | 3 => ⟨S1x800000, .i32⟩
  | 4 => ⟨S800000, .i32⟩
  | 5 => ⟨S1x800000, .i32⟩
  | 6 => ⟨S800000, .i32⟩
  | 7 => ⟨S800000x1, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S800000x128, .f32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S1x1x128x32, .f32⟩
  | 24 => ⟨S128x32, .f32⟩
  | 25 => ⟨S50000x32, .f32⟩
  | 26 => ⟨S1x1x32, .f32⟩
  | 27 => ⟨S32, .f32⟩
  | 28 => ⟨S1x32, .f32⟩
  | 29 => ⟨S50000x32, .f32⟩
  | 30 => ⟨S50000x32, .f32⟩
  | 31 => ⟨S1x800000, .f32⟩
  | 32 => ⟨S800000, .f32⟩
  | 33 => ⟨S1x800000, .i32⟩
  | 34 => ⟨S800000, .i32⟩
  | 35 => ⟨S1x800000, .i32⟩
  | 36 => ⟨S800000, .i32⟩
  | 37 => ⟨S800000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1x1x128x32, .f32⟩
  | 54 => ⟨S128x32, .f32⟩
  | 55 => ⟨S50000x32, .f32⟩
  | 56 => ⟨S1x1x32, .f32⟩
  | 57 => ⟨S32, .f32⟩
  | 58 => ⟨S1x32, .f32⟩
  | 59 => ⟨S50000x32, .f32⟩
  | 60 => ⟨S50000x32, .f32⟩
  | 61 => ⟨S1x800000, .f32⟩
  | 62 => ⟨S800000, .f32⟩
  | 63 => ⟨S1x800000, .i32⟩
  | 64 => ⟨S800000, .i32⟩
  | 65 => ⟨S1x800000, .i32⟩
  | 66 => ⟨S800000, .i32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S1x1x128x32, .f32⟩
  | 84 => ⟨S128x32, .f32⟩
  | 85 => ⟨S50000x32, .f32⟩
  | 86 => ⟨S1x1x32, .f32⟩
  | 87 => ⟨S32, .f32⟩
  | 88 => ⟨S1x32, .f32⟩
  | 89 => ⟨S50000x32, .f32⟩
  | 90 => ⟨S50000x32, .f32⟩
  | 91 => ⟨S1x800000, .f32⟩
  | 92 => ⟨S800000, .f32⟩
  | 93 => ⟨S1x800000, .i32⟩
  | 94 => ⟨S800000, .i32⟩
  | 95 => ⟨S1x800000, .i32⟩
  | 96 => ⟨S800000, .i32⟩
  | 97 => ⟨S800000x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x128, .f32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S1x1x128x32, .f32⟩
  | 114 => ⟨S128x32, .f32⟩
  | 115 => ⟨S50000x32, .f32⟩
  | 116 => ⟨S1x1x32, .f32⟩
  | 117 => ⟨S32, .f32⟩
  | 118 => ⟨S1x32, .f32⟩
  | 119 => ⟨S50000x32, .f32⟩
  | 120 => ⟨S50000x32, .f32⟩
  | 121 => ⟨S50000x128, .f32⟩
  | 122 => ⟨S1x800000, .f32⟩
  | 123 => ⟨S800000, .f32⟩
  | 124 => ⟨S1x800000, .i32⟩
  | 125 => ⟨S800000, .i32⟩
  | 126 => ⟨S1x800000, .i32⟩
  | 127 => ⟨S800000, .i32⟩
  | _ => ⟨S50000x128, .f32⟩

abbrev hbmTy0_2 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S1x1x128x32, .f32⟩
  | 17 => ⟨S128x32, .f32⟩
  | 18 => ⟨S50000x32, .f32⟩
  | 19 => ⟨S1x1x32, .f32⟩
  | 20 => ⟨S32, .f32⟩
  | 21 => ⟨S1x32, .f32⟩
  | 22 => ⟨S50000x32, .f32⟩
  | 23 => ⟨S50000x32, .f32⟩
  | 24 => ⟨S1x800000, .f32⟩
  | 25 => ⟨S800000, .f32⟩
  | 26 => ⟨S1x800000, .i32⟩
  | 27 => ⟨S800000, .i32⟩
  | 28 => ⟨S1x800000, .i32⟩
  | 29 => ⟨S800000, .i32⟩
  | 30 => ⟨S800000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x128, .f32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S1x1x128x32, .f32⟩
  | 47 => ⟨S128x32, .f32⟩
  | 48 => ⟨S50000x32, .f32⟩
  | 49 => ⟨S1x1x32, .f32⟩
  | 50 => ⟨S32, .f32⟩
  | 51 => ⟨S1x32, .f32⟩
  | 52 => ⟨S50000x32, .f32⟩
  | 53 => ⟨S50000x32, .f32⟩
  | 54 => ⟨S1x800000, .f32⟩
  | 55 => ⟨S800000, .f32⟩
  | 56 => ⟨S1x800000, .i32⟩
  | 57 => ⟨S800000, .i32⟩
  | 58 => ⟨S1x800000, .i32⟩
  | 59 => ⟨S800000, .i32⟩
  | 60 => ⟨S800000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S1x1x128x32, .f32⟩
  | 77 => ⟨S128x32, .f32⟩
  | 78 => ⟨S50000x32, .f32⟩
  | 79 => ⟨S1x1x32, .f32⟩
  | 80 => ⟨S32, .f32⟩
  | 81 => ⟨S1x32, .f32⟩
  | 82 => ⟨S50000x32, .f32⟩
  | 83 => ⟨S50000x32, .f32⟩
  | 84 => ⟨S1x800000, .f32⟩
  | 85 => ⟨S800000, .f32⟩
  | 86 => ⟨S1x800000, .i32⟩
  | 87 => ⟨S800000, .i32⟩
  | 88 => ⟨S1x800000, .i32⟩
  | 89 => ⟨S800000, .i32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S1x1x128x32, .f32⟩
  | 107 => ⟨S128x32, .f32⟩
  | 108 => ⟨S50000x32, .f32⟩
  | 109 => ⟨S1x1x32, .f32⟩
  | 110 => ⟨S32, .f32⟩
  | 111 => ⟨S1x32, .f32⟩
  | 112 => ⟨S50000x32, .f32⟩
  | 113 => ⟨S50000x32, .f32⟩
  | 114 => ⟨S50000x128, .f32⟩
  | 115 => ⟨S50000x40, .f32⟩
  | 116 => ⟨S1x40, .f32⟩
  | 117 => ⟨S50000x40, .f32⟩
  | 118 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_1 : Ref sig .tc := ⟨.hbm, 45, rfl⟩
abbrev main_v34 : Ref sig .tc := ⟨.hbm, 46, rfl⟩
abbrev main_v35 : Ref sig .tc := ⟨.hbm, 47, rfl⟩
abbrev main_c_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_c_4 : Ref sig .tc := ⟨.hbm, 75, rfl⟩
abbrev main_v61 : Ref sig .tc := ⟨.hbm, 76, rfl⟩
abbrev main_v62 : Ref sig .tc := ⟨.hbm, 77, rfl⟩
abbrev main_c_5 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_c_7 : Ref sig .tc := ⟨.hbm, 105, rfl⟩
abbrev main_v88 : Ref sig .tc := ⟨.hbm, 106, rfl⟩
abbrev main_v89 : Ref sig .tc := ⟨.hbm, 107, rfl⟩
abbrev main_c_8 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_9 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_c_10 : Ref sig .tc := ⟨.hbm, 136, rfl⟩
abbrev main_v116 : Ref sig .tc := ⟨.hbm, 137, rfl⟩
abbrev main_v117 : Ref sig .tc := ⟨.hbm, 138, rfl⟩
abbrev main_c_11 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_12 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_c_13 : Ref sig .tc := ⟨.hbm, 166, rfl⟩
abbrev main_v143 : Ref sig .tc := ⟨.hbm, 167, rfl⟩
abbrev main_v144 : Ref sig .tc := ⟨.hbm, 168, rfl⟩
abbrev main_c_14 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_cst_15 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_c_16 : Ref sig .tc := ⟨.hbm, 196, rfl⟩
abbrev main_v170 : Ref sig .tc := ⟨.hbm, 197, rfl⟩
abbrev main_v171 : Ref sig .tc := ⟨.hbm, 198, rfl⟩
abbrev main_c_17 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_cst_18 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_c_19 : Ref sig .tc := ⟨.hbm, 226, rfl⟩
abbrev main_v197 : Ref sig .tc := ⟨.hbm, 227, rfl⟩
abbrev main_v198 : Ref sig .tc := ⟨.hbm, 228, rfl⟩
abbrev main_c_20 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_cst_21 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_c_22 : Ref sig .tc := ⟨.hbm, 257, rfl⟩
abbrev main_v225 : Ref sig .tc := ⟨.hbm, 258, rfl⟩
abbrev main_v226 : Ref sig .tc := ⟨.hbm, 259, rfl⟩
abbrev main_c_23 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_cst_24 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_c_25 : Ref sig .tc := ⟨.hbm, 287, rfl⟩
abbrev main_v252 : Ref sig .tc := ⟨.hbm, 288, rfl⟩
abbrev main_v253 : Ref sig .tc := ⟨.hbm, 289, rfl⟩
abbrev main_c_26 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_cst_27 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_c_28 : Ref sig .tc := ⟨.hbm, 317, rfl⟩
abbrev main_v279 : Ref sig .tc := ⟨.hbm, 318, rfl⟩
abbrev main_v280 : Ref sig .tc := ⟨.hbm, 319, rfl⟩
abbrev main_c_29 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_cst_30 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_c_31 : Ref sig .tc := ⟨.hbm, 347, rfl⟩
abbrev main_v306 : Ref sig .tc := ⟨.hbm, 348, rfl⟩
abbrev main_v307 : Ref sig .tc := ⟨.hbm, 349, rfl⟩
abbrev main_c_32 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_cst_33 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩

abbrev nD : Nat := 1
abbrev τ : Topo := Topo.v7x

variable {F : FTy → Type} [FloatOps F]

class Facts₀ : Prop where
  slices_S4x800000_S1x800000_0_0 : S4x800000.Slices ![0, 0] S1x800000
  shapeCasts_S1x800000_S800000 : S1x800000.ShapeCasts S800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x4x128x32_S1x1x128x32_0_0_0_0 : S3x4x128x32.Slices ![0, 0, 0, 0] S1x1x128x32
  shapeCasts_S1x1x128x32_S128x32 : S1x1x128x32.ShapeCasts S128x32
  slices_S3x4x32_S1x1x32_0_0_0 : S3x4x32.Slices ![0, 0, 0] S1x1x32
  shapeCasts_S1x1x32_S32 : S1x1x32.ShapeCasts S32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  slices_S4x800000_S1x800000_1_0 : S4x800000.Slices ![1, 0] S1x800000
  slices_S3x4x128x32_S1x1x128x32_0_1_0_0 : S3x4x128x32.Slices ![0, 1, 0, 0] S1x1x128x32
  slices_S3x4x32_S1x1x32_0_1_0 : S3x4x32.Slices ![0, 1, 0] S1x1x32
  slices_S4x800000_S1x800000_2_0 : S4x800000.Slices ![2, 0] S1x800000
  slices_S3x4x128x32_S1x1x128x32_0_2_0_0 : S3x4x128x32.Slices ![0, 2, 0, 0] S1x1x128x32
  slices_S3x4x32_S1x1x32_0_2_0 : S3x4x32.Slices ![0, 2, 0] S1x1x32
  slices_S4x800000_S1x800000_3_0 : S4x800000.Slices ![3, 0] S1x800000
  slices_S3x4x128x32_S1x1x128x32_0_3_0_0 : S3x4x128x32.Slices ![0, 3, 0, 0] S1x1x128x32
  slices_S3x4x32_S1x1x32_0_3_0 : S3x4x32.Slices ![0, 3, 0] S1x1x32
  concatenates_S50000x32_S50000x32_S50000x32_S50000x32_S50000x128_d1 : Shape.Concatenates [S50000x32, S50000x32, S50000x32, S50000x32] S50000x128 1
  slices_S3x4x128x32_S1x1x128x32_1_0_0_0 : S3x4x128x32.Slices ![1, 0, 0, 0] S1x1x128x32
  slices_S3x4x32_S1x1x32_1_0_0 : S3x4x32.Slices ![1, 0, 0] S1x1x32
  slices_S3x4x128x32_S1x1x128x32_1_1_0_0 : S3x4x128x32.Slices ![1, 1, 0, 0] S1x1x128x32
  slices_S3x4x32_S1x1x32_1_1_0 : S3x4x32.Slices ![1, 1, 0] S1x1x32
  slices_S3x4x128x32_S1x1x128x32_1_2_0_0 : S3x4x128x32.Slices ![1, 2, 0, 0] S1x1x128x32
  slices_S3x4x32_S1x1x32_1_2_0 : S3x4x32.Slices ![1, 2, 0] S1x1x32
  slices_S3x4x128x32_S1x1x128x32_1_3_0_0 : S3x4x128x32.Slices ![1, 3, 0, 0] S1x1x128x32
  slices_S3x4x32_S1x1x32_1_3_0 : S3x4x32.Slices ![1, 3, 0] S1x1x32
  slices_S3x4x128x32_S1x1x128x32_2_0_0_0 : S3x4x128x32.Slices ![2, 0, 0, 0] S1x1x128x32
  slices_S3x4x32_S1x1x32_2_0_0 : S3x4x32.Slices ![2, 0, 0] S1x1x32
  slices_S3x4x128x32_S1x1x128x32_2_1_0_0 : S3x4x128x32.Slices ![2, 1, 0, 0] S1x1x128x32
  slices_S3x4x32_S1x1x32_2_1_0 : S3x4x32.Slices ![2, 1, 0] S1x1x32
  slices_S3x4x128x32_S1x1x128x32_2_2_0_0 : S3x4x128x32.Slices ![2, 2, 0, 0] S1x1x128x32
  slices_S3x4x32_S1x1x32_2_2_0 : S3x4x32.Slices ![2, 2, 0] S1x1x32
  slices_S3x4x128x32_S1x1x128x32_2_3_0_0 : S3x4x128x32.Slices ![2, 3, 0, 0] S1x1x128x32
  slices_S3x4x32_S1x1x32_2_3_0 : S3x4x32.Slices ![2, 3, 0] S1x1x32
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.RunMain.lean ====
/-
  The kernel program's run with its result named: every weakly fair execution of @main ends with the result buffer
  holding what the last boundary of the run holds there (the classifier region's output array after its pipeline),
  and with the argument arrays as launched. The run is the generated frame's: host stretch, region, host stretch,
  region, … over the buffer contents at each boundary; only the final state is read at one more buffer.
-/
import proofs.«127566_j19559281066123_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents beside the unchanged arguments. -/
theorem run_main : θ_run defs (onTc (τ := τ) (main (F := F))) ⟨m, fun _ => 0, ρ⟩ (fun r => ∀ c : Dev nD,
      r.2.mem ((c.tc : Thread nD τ).loc main_v244) = W8 m ρ c (Proc.devRef .tc main_v244)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v244 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.HostKeep.lean ====
/-
  The argument arrays through the kernel program's run: no host operation writes an argument, and no region of the
  first three has an argument among its windows, so at every boundary of the run an argument's buffer still holds
  what it held at launch. (The classifier's output of the previous layer is likewise untouched by the one host
  operation between the last layer and the classifier.)
-/
import proofs.«127566_j19559281066123_1_alg».proof.Proof.Gen.KernelIdeal.Frame
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

/-! ## A host stretch leaves every argument alone, from any contents -/

theorem keep0_arg1 (U : Valuation τ sig (Elt F)) :
    StableHlo.after hostOps0 U (Proc.devRef .tc main_arg1) = U (Proc.devRef .tc main_arg1) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep0_arg2 (U : Valuation τ sig (Elt F)) :
    StableHlo.after hostOps0 U (Proc.devRef .tc main_arg2) = U (Proc.devRef .tc main_arg2) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep0_arg3 (U : Valuation τ sig (Elt F)) :
    StableHlo.after hostOps0 U (Proc.devRef .tc main_arg3) = U (Proc.devRef .tc main_arg3) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep0_arg4 (U : Valuation τ sig (Elt F)) :
    StableHlo.after hostOps0 U (Proc.devRef .tc main_arg4) = U (Proc.devRef .tc main_arg4) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep0_arg5 (U : Valuation τ sig (Elt F)) :
    StableHlo.after hostOps0 U (Proc.devRef .tc main_arg5) = U (Proc.devRef .tc main_arg5) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep0_arg6 (U : Valuation τ sig (Elt F)) :
    StableHlo.after hostOps0 U (Proc.devRef .tc main_arg6) = U (Proc.devRef .tc main_arg6) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep0_arg7 (U : Valuation τ sig (Elt F)) :
    StableHlo.after hostOps0 U (Proc.devRef .tc main_arg7) = U (Proc.devRef .tc main_arg7) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep1_arg1 (U : Valuation τ sig (Elt F)) :
    StableHlo.after hostOps1 U (Proc.devRef .tc main_arg1) = U (Proc.devRef .tc main_arg1) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep1_arg2 (U : Valuation τ sig (Elt F)) :
    StableHlo.after hostOps1 U (Proc.devRef .tc main_arg2) = U (Proc.devRef .tc main_arg2) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep1_arg3 (U : Valuation τ sig (Elt F)) :
    StableHlo.after hostOps1 U (Proc.devRef .tc main_arg3) = U (Proc.devRef .tc main_arg3) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep1_arg4 (U : Valuation τ sig (Elt F)) :
    StableHlo.after hostOps1 U (Proc.devRef .tc main_arg4) = U (Proc.devRef .tc main_arg4) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep1_arg5 (U : Valuation τ sig (Elt F)) :
    StableHlo.after hostOps1 U (Proc.devRef .tc main_arg5) = U (Proc.devRef .tc main_arg5) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep1_arg6 (U : Valuation τ sig (Elt F)) :
    StableHlo.after hostOps1 U (Proc.devRef .tc main_arg6) = U (Proc.devRef .tc main_arg6) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep1_arg7 (U : Valuation τ sig (Elt F)) :
    StableHlo.after hostOps1 U (Proc.devRef .tc main_arg7) = U (Proc.devRef .tc main_arg7) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep2_arg1 (U : Valuation τ sig (Elt F)) :
    StableHlo.after hostOps2 U (Proc.devRef .tc main_arg1) = U (Proc.devRef .tc main_arg1) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep2_arg2 (U : Valuation τ sig (Elt F)) :
    StableHlo.after hostOps2 U (Proc.devRef .tc main_arg2) = U (Proc.devRef .tc main_arg2) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep2_arg3 (U : Valuation τ sig (Elt F)) :
    StableHlo.after hostOps2 U (Proc.devRef .tc main_arg3) = U (Proc.devRef .tc main_arg3) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep2_arg4 (U : Valuation τ sig (Elt F)) :
    StableHlo.after hostOps2 U (Proc.devRef .tc main_arg4) = U (Proc.devRef .tc main_arg4) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep2_arg5 (U : Valuation τ sig (Elt F)) :
    StableHlo.after hostOps2 U (Proc.devRef .tc main_arg5) = U (Proc.devRef .tc main_arg5) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep2_arg6 (U : Valuation τ sig (Elt F)) :
    StableHlo.after hostOps2 U (Proc.devRef .tc main_arg6) = U (Proc.devRef .tc main_arg6) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep2_arg7 (U : Valuation τ sig (Elt F)) :
    StableHlo.after hostOps2 U (Proc.devRef .tc main_arg7) = U (Proc.devRef .tc main_arg7) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep3_arg4 (U : Valuation τ sig (Elt F)) :
    StableHlo.after hostOps3 U (Proc.devRef .tc main_arg4) = U (Proc.devRef .tc main_arg4) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
theorem keep3_v242 (U : Valuation τ sig (Elt F)) :
    StableHlo.after hostOps3 U (Proc.devRef .tc main_v242) = U (Proc.devRef .tc main_v242) := by
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

/-! ## So each argument is as launched at the boundaries after regions 0, 1 and 2 -/

variable (m : (ℓ : Loc nD τ sig) → Buf (Elt F) ℓ) (ρ : Dev nD → PrngReg)

theorem W2_arg1 (c : Dev nD) : W2 m ρ c (Proc.devRef .tc main_arg1) = m ((c : Thread nD τ).loc main_arg1) :=
  (W2_of_ne m ρ c main_arg1 (by decide)).trans ((keep0_arg1 (W0 m ρ c)).trans rfl)
theorem W4_arg1 (c : Dev nD) : W4 m ρ c (Proc.devRef .tc main_arg1) = m ((c : Thread nD τ).loc main_arg1) :=
  (W4_of_ne m ρ c main_arg1 (by decide)).trans ((keep1_arg1 (W2 m ρ c)).trans (W2_arg1 m ρ c))
theorem W6_arg1 (c : Dev nD) : W6 m ρ c (Proc.devRef .tc main_arg1) = m ((c : Thread nD τ).loc main_arg1) :=
  (W6_of_ne m ρ c main_arg1 (by decide)).trans ((keep2_arg1 (W4 m ρ c)).trans (W4_arg1 m ρ c))
theorem W2_arg2 (c : Dev nD) : W2 m ρ c (Proc.devRef .tc main_arg2) = m ((c : Thread nD τ).loc main_arg2) :=
  (W2_of_ne m ρ c main_arg2 (by decide)).trans ((keep0_arg2 (W0 m ρ c)).trans rfl)
theorem W4_arg2 (c : Dev nD) : W4 m ρ c (Proc.devRef .tc main_arg2) = m ((c : Thread nD τ).loc main_arg2) :=
  (W4_of_ne m ρ c main_arg2 (by decide)).trans ((keep1_arg2 (W2 m ρ c)).trans (W2_arg2 m ρ c))
theorem W6_arg2 (c : Dev nD) : W6 m ρ c (Proc.devRef .tc main_arg2) = m ((c : Thread nD τ).loc main_arg2) :=
  (W6_of_ne m ρ c main_arg2 (by decide)).trans ((keep2_arg2 (W4 m ρ c)).trans (W4_arg2 m ρ c))
theorem W2_arg3 (c : Dev nD) : W2 m ρ c (Proc.devRef .tc main_arg3) = m ((c : Thread nD τ).loc main_arg3) :=
  (W2_of_ne m ρ c main_arg3 (by decide)).trans ((keep0_arg3 (W0 m ρ c)).trans rfl)
theorem W4_arg3 (c : Dev nD) : W4 m ρ c (Proc.devRef .tc main_arg3) = m ((c : Thread nD τ).loc main_arg3) :=
  (W4_of_ne m ρ c main_arg3 (by decide)).trans ((keep1_arg3 (W2 m ρ c)).trans (W2_arg3 m ρ c))
theorem W6_arg3 (c : Dev nD) : W6 m ρ c (Proc.devRef .tc main_arg3) = m ((c : Thread nD τ).loc main_arg3) :=
  (W6_of_ne m ρ c main_arg3 (by decide)).trans ((keep2_arg3 (W4 m ρ c)).trans (W4_arg3 m ρ c))
theorem W2_arg4 (c : Dev nD) : W2 m ρ c (Proc.devRef .tc main_arg4) = m ((c : Thread nD τ).loc main_arg4) :=
  (W2_of_ne m ρ c main_arg4 (by decide)).trans ((keep0_arg4 (W0 m ρ c)).trans rfl)
theorem W4_arg4 (c : Dev nD) : W4 m ρ c (Proc.devRef .tc main_arg4) = m ((c : Thread nD τ).loc main_arg4) :=
  (W4_of_ne m ρ c main_arg4 (by decide)).trans ((keep1_arg4 (W2 m ρ c)).trans (W2_arg4 m ρ c))
theorem W6_arg4 (c : Dev nD) : W6 m ρ c (Proc.devRef .tc main_arg4) = m ((c : Thread nD τ).loc main_arg4) :=
  (W6_of_ne m ρ c main_arg4 (by decide)).trans ((keep2_arg4 (W4 m ρ c)).trans (W4_arg4 m ρ c))
theorem W2_arg5 (c : Dev nD) : W2 m ρ c (Proc.devRef .tc main_arg5) = m ((c : Thread nD τ).loc main_arg5) :=
  (W2_of_ne m ρ c main_arg5 (by decide)).trans ((keep0_arg5 (W0 m ρ c)).trans rfl)
theorem W4_arg5 (c : Dev nD) : W4 m ρ c (Proc.devRef .tc main_arg5) = m ((c : Thread nD τ).loc main_arg5) :=
  (W4_of_ne m ρ c main_arg5 (by decide)).trans ((keep1_arg5 (W2 m ρ c)).trans (W2_arg5 m ρ c))
theorem W6_arg5 (c : Dev nD) : W6 m ρ c (Proc.devRef .tc main_arg5) = m ((c : Thread nD τ).loc main_arg5) :=
  (W6_of_ne m ρ c main_arg5 (by decide)).trans ((keep2_arg5 (W4 m ρ c)).trans (W4_arg5 m ρ c))
theorem W2_arg6 (c : Dev nD) : W2 m ρ c (Proc.devRef .tc main_arg6) = m ((c : Thread nD τ).loc main_arg6) :=
  (W2_of_ne m ρ c main_arg6 (by decide)).trans ((keep0_arg6 (W0 m ρ c)).trans rfl)
theorem W4_arg6 (c : Dev nD) : W4 m ρ c (Proc.devRef .tc main_arg6) = m ((c : Thread nD τ).loc main_arg6) :=
  (W4_of_ne m ρ c main_arg6 (by decide)).trans ((keep1_arg6 (W2 m ρ c)).trans (W2_arg6 m ρ c))
theorem W6_arg6 (c : Dev nD) : W6 m ρ c (Proc.devRef .tc main_arg6) = m ((c : Thread nD τ).loc main_arg6) :=
  (W6_of_ne m ρ c main_arg6 (by decide)).trans ((keep2_arg6 (W4 m ρ c)).trans (W4_arg6 m ρ c))
theorem W2_arg7 (c : Dev nD) : W2 m ρ c (Proc.devRef .tc main_arg7) = m ((c : Thread nD τ).loc main_arg7) :=
  (W2_of_ne m ρ c main_arg7 (by decide)).trans ((keep0_arg7 (W0 m ρ c)).trans rfl)
theorem W4_arg7 (c : Dev nD) : W4 m ρ c (Proc.devRef .tc main_arg7) = m ((c : Thread nD τ).loc main_arg7) :=
  (W4_of_ne m ρ c main_arg7 (by decide)).trans ((keep1_arg7 (W2 m ρ c)).trans (W2_arg7 m ρ c))
theorem W6_arg7 (c : Dev nD) : W6 m ρ c (Proc.devRef .tc main_arg7) = m ((c : Thread nD τ).loc main_arg7) :=
  (W6_of_ne m ρ c main_arg7 (by decide)).trans ((keep2_arg7 (W4 m ρ c)).trans (W4_arg7 m ρ c))

end Cert.KernelIdeal.RunValue

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.Spec.lean ====
/-
  One layer of the multi-hop network, and its classifier, as functions of whole arrays.

  A layer takes four aggregated feature arrays `A 0 … A 3` of `R` rows and 128 columns (one per hop), the layer's
  four weight matrices stacked as `[4, 128, 32]` and its four biases stacked as `[4, 32]`. Column `c` of the
  result belongs to hop `c / 32` and is lane `c % 32` of that hop's dense step: row `r` of the result at that
  column is `(∑ t, A (c / 32) (r, t) · W (c / 32, t, c % 32)) + b (c / 32, c % 32)`. The classifier is one more dense
  step, `(∑ t, H (r, t) · W (t, n)) + b (0, n)`, with its bias held as a one-row array.

  Both are stated by rows over `DenseRows.affine`, so that a block of rows of a layer is the layer of the blocks.
-/
import Idealize.ShloMosaic.Lib.ValueIdx
import Idealize.ShloMosaic.PureOps.Ideal
import proofs.«127566_j19559281066123_1_alg».proof.Proof.LibDenseRows

noncomputable section

namespace Cert.HopLayer

open Idealize.ShloMosaic Idealize.ShloMosaic.ValueIdx Cert.DenseRows

/-- The hop a column of the concatenated result belongs to. -/
def colHop (c : Fin 128) : Fin 4 := ⟨c.val / 32, Nat.div_lt_of_lt_mul c.isLt⟩

/-- The lane of that hop's 32 outputs a column holds. -/
def colLane (c : Fin 128) : Fin 32 := ⟨c.val % 32, Nat.mod_lt _ (by decide)⟩

/-- A column is 32 times its hop plus its lane. -/
theorem col_split (c : Fin 128) : c.val = 32 * (colHop c).val + (colLane c).val := by
  show c.val = 32 * (c.val / 32) + c.val % 32
  exact (Nat.div_add_mod c.val 32).symm

/-- The hop and lane of the column `32 k + j`. -/
theorem colHop_of (c : Fin 128) (k : Fin 4) (j : Fin 32) (h : c.val = 32 * k.val + j.val) : colHop c = k := by
  apply Fin.ext; show c.val / 32 = k.val; have := j.isLt; omega
theorem colLane_of (c : Fin 128) (k : Fin 4) (j : Fin 32) (h : c.val = 32 * k.val + j.val) : colLane c = j := by
  apply Fin.ext; show c.val % 32 = j.val; have := j.isLt; omega

/-- Hop `k`'s weight matrix out of a layer's stacked weights. -/
def slab (Wl : FVec Ideal ⟨3, ![4, 128, 32]⟩ .f32) (k : Fin 4) : Fin 128 → Fin 32 → EReal := fun t j => Wl (ix3 k t j)

/-- Hop `k`'s bias out of a layer's stacked biases. -/
def bias (bl : FVec Ideal ⟨2, ![4, 32]⟩ .f32) (k : Fin 4) : Fin 32 → EReal := fun j => bl (ix2 k j)

/-- One layer on `R` rows: column `c` of row `r` is lane `c % 32` of hop `c / 32`'s dense step on row `r` of that
    hop's aggregated features. -/
def layer {R : ℕ} (A : Fin 4 → FVec Ideal ⟨2, ![R, 128]⟩ .f32) (Wl : FVec Ideal ⟨3, ![4, 128, 32]⟩ .f32)
    (bl : FVec Ideal ⟨2, ![4, 32]⟩ .f32) : FVec Ideal ⟨2, ![R, 128]⟩ .f32 :=
  fun i => affine (row (A (colHop (i 1))) (i 0)) (slab Wl (colHop (i 1))) (bias bl (colHop (i 1))) (colLane (i 1))

theorem layer_apply {R : ℕ} (A : Fin 4 → FVec Ideal ⟨2, ![R, 128]⟩ .f32) (Wl : FVec Ideal ⟨3, ![4, 128, 32]⟩ .f32)
    (bl : FVec Ideal ⟨2, ![4, 32]⟩ .f32) (r : Fin R) (c : Fin 128) :
    layer A Wl bl (ix2 r c)
      = affine (row (A (colHop c)) r) (slab Wl (colHop c)) (bias bl (colHop c)) (colLane c) := rfl

/-- One layer stated over the network's whole weight and bias arguments, `[3, 4, 128, 32]` and `[3, 4, 32]`, at layer
    `l`: hop `k`'s matrix is `W (l, k, ·, ·)` and its bias `b (l, k, ·)`. -/
def layerAt {R : ℕ} (l : Fin 3) (A : Fin 4 → FVec Ideal ⟨2, ![R, 128]⟩ .f32) (W : FVec Ideal ⟨4, ![3, 4, 128, 32]⟩ .f32)
    (b : FVec Ideal ⟨3, ![3, 4, 32]⟩ .f32) : FVec Ideal ⟨2, ![R, 128]⟩ .f32 :=
  fun i => affine (row (A (colHop (i 1))) (i 0)) (fun t j => W (ix4 l (colHop (i 1)) t j))
    (fun j => b (ix3 l (colHop (i 1)) j)) (colLane (i 1))

theorem layerAt_apply {R : ℕ} (l : Fin 3) (A : Fin 4 → FVec Ideal ⟨2, ![R, 128]⟩ .f32)
    (W : FVec Ideal ⟨4, ![3, 4, 128, 32]⟩ .f32) (b : FVec Ideal ⟨3, ![3, 4, 32]⟩ .f32) (r : Fin R) (c : Fin 128) :
    layerAt l A W b (ix2 r c)
      = affine (row (A (colHop c)) r) (fun t j => W (ix4 l (colHop c) t j)) (fun j => b (ix3 l (colHop c) j))
          (colLane c) := rfl

/-- The classifier on `R` rows: one dense step with a one-row bias. -/
def classify {R : ℕ} (H : FVec Ideal ⟨2, ![R, 128]⟩ .f32) (Wc : FVec Ideal ⟨2, ![128, 40]⟩ .f32)
    (bc : FVec Ideal ⟨2, ![1, 40]⟩ .f32) : FVec Ideal ⟨2, ![R, 40]⟩ .f32 :=
  fun i => affine (row H (i 0)) (mat Wc) (row bc (0 : Fin 1)) (i 1)

theorem classify_apply {R : ℕ} (H : FVec Ideal ⟨2, ![R, 128]⟩ .f32) (Wc : FVec Ideal ⟨2, ![128, 40]⟩ .f32)
    (bc : FVec Ideal ⟨2, ![1, 40]⟩ .f32) (r : Fin R) (n : Fin 40) :
    classify H Wc bc (ix2 r n) = affine (row H r) (mat Wc) (row bc (0 : Fin 1)) n := rfl

/-- Two arrays of two axes that agree at every `(r, c)` are equal. -/
theorem ext_ix2 {α : Type} {R N : ℕ} (f g : (⟨2, ![R, N]⟩ : Shape).Idx → α)
    (h : ∀ (r : Fin R) (c : Fin N), f (ix2 r c) = g (ix2 r c)) : f = g :=
  funext fun i => by rw [eq_ix2 i]; exact h _ _

end Cert.HopLayer

end
-- ==== Proof.Net.lean ====
/-
  The network both programs compute, as one function of the eight arguments.

  Per layer and hop `k` the current features `h` are aggregated sparsely: the rows `h[src_k[e]]` are gathered per edge
  (a negative index wrapped once by the number of rows), scaled by the edge's value `val_k[e]`, and added into row
  `dst_k[e]` of a zero array. This chain of host operations is the same text in the kernel program and in the
  reference, for every layer, so it is carried as ONE function (`agg`) of the edge arrays and the features and never
  opened. A layer is `HopLayer.layerAt l` of the four aggregations with the weights and biases; the network is three
  layers and the classifier `HopLayer.classify`, its bias vector held as one row.
-/
import proofs.«127566_j19559281066123_1_alg».proof.KernelIdeal
import proofs.«127566_j19559281066123_1_alg».proof.Proof.Gen.KernelIdeal
import proofs.«127566_j19559281066123_1_alg».proof.Proof.Spec

set_option maxRecDepth 16384

noncomputable section

namespace Cert.KernelIdeal.RunValue

open Cert.KernelIdeal Cert.KernelIdeal.Gen Idealize.ShloMosaic

/-- Hop `k`'s aggregation (`o = ![k, 0]` selects row `k` of the edge arrays): gather the source rows of `h`, scale each
    by its edge value, scatter-add into the destination rows of a zero array. -/
def agg {F : FTy → Type} [FloatOps F] (o : Fin 2 → Nat) (hs : S4x800000.Slices o S1x800000)
    (val : (⟨S4x800000, .f32⟩ : BufTy).Contents (Elt F)) (src dst : (⟨S4x800000, .i32⟩ : BufTy).Contents (Elt F))
    (h : (⟨S50000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0
      (shapeCast S800000 (extractStridedSlice S1x800000 o dst hs) shapeCasts_S1x800000_S800000))
    (mulf
      (broadcastInDim S800000x128 ![0, 1] bcast_S800000x1_S800000x128_0_1
        (broadcastInDim S800000x1 ![0] bcast_S800000_S800000x1_0
          (shapeCast S800000 (extractStridedSlice S1x800000 o val hs) shapeCasts_S1x800000_S800000)))
      (Host.gather gather_S50000x128_S800000x1_S800000x128_1_0_n_n_0_1_1128 h
        (broadcastInDim S800000x1 ![0] bcast_S800000_S800000x1_0
          (select
            (cmpi .slt (shapeCast S800000 (extractStridedSlice S1x800000 o src hs) shapeCasts_S1x800000_S800000)
              (broadcastInDim S800000 ![] bcast_S_S800000 (constantI S_ 32 0#32)))
            (addi (shapeCast S800000 (extractStridedSlice S1x800000 o src hs) shapeCasts_S1x800000_S800000)
              (broadcastInDim S800000 ![] bcast_S_S800000 (constantI S_ 32 50000#32)))
            (shapeCast S800000 (extractStridedSlice S1x800000 o src hs) shapeCasts_S1x800000_S800000)))))

/-- The four hops' aggregations of the features `h`. -/
def aggs (val : (⟨S4x800000, .f32⟩ : BufTy).Contents (Elt Ideal)) (src dst : (⟨S4x800000, .i32⟩ : BufTy).Contents (Elt Ideal))
    (h : (⟨S50000x128, .f32⟩ : BufTy).Contents (Elt Ideal)) : Fin 4 → FVec Ideal ⟨2, ![50000, 128]⟩ .f32 :=
  ![agg (F := Ideal) ![0, 0] slices_S4x800000_S1x800000_0_0 val src dst h,
    agg (F := Ideal) ![1, 0] slices_S4x800000_S1x800000_1_0 val src dst h,
    agg (F := Ideal) ![2, 0] slices_S4x800000_S1x800000_2_0 val src dst h,
    agg (F := Ideal) ![3, 0] slices_S4x800000_S1x800000_3_0 val src dst h]

/-- Layer `l` of the network on the features `h`. -/
def netLayer (l : Fin 3) (val : (⟨S4x800000, .f32⟩ : BufTy).Contents (Elt Ideal))
    (src dst : (⟨S4x800000, .i32⟩ : BufTy).Contents (Elt Ideal))
    (W : (⟨S3x4x128x32, .f32⟩ : BufTy).Contents (Elt Ideal)) (b : (⟨S3x4x32, .f32⟩ : BufTy).Contents (Elt Ideal))
    (h : (⟨S50000x128, .f32⟩ : BufTy).Contents (Elt Ideal)) : FVec Ideal ⟨2, ![50000, 128]⟩ .f32 :=
  Cert.HopLayer.layerAt l (aggs val src dst h) W b

/-- The network: three layers, then the classifier with its bias as one row. -/
def net (x : (⟨S50000x128, .f32⟩ : BufTy).Contents (Elt Ideal)) (val : (⟨S4x800000, .f32⟩ : BufTy).Contents (Elt Ideal))
    (W : (⟨S3x4x128x32, .f32⟩ : BufTy).Contents (Elt Ideal)) (b : (⟨S3x4x32, .f32⟩ : BufTy).Contents (Elt Ideal))
    (Wc : (⟨S128x40, .f32⟩ : BufTy).Contents (Elt Ideal)) (bc : (⟨S40, .f32⟩ : BufTy).Contents (Elt Ideal))
    (src dst : (⟨S4x800000, .i32⟩ : BufTy).Contents (Elt Ideal)) : FVec Ideal ⟨2, ![50000, 40]⟩ .f32 :=
  Cert.HopLayer.classify (netLayer 2 val src dst W b (netLayer 1 val src dst W b (netLayer 0 val src dst W b x))) Wc
    (shapeCast S1x40 bc shapeCasts_S40_S1x40)

end Cert.KernelIdeal.RunValue

end
-- ==== Proof.HostReads0a.lean ====
/-
  What the host stretch before layer 0's kernel computes, read buffer by buffer from any entry contents: hops 0 and 1's aggregations and the layer's weight and bias slices.
  An aggregation's buffer holds `agg` (one chain of host operations: gather, scale, scatter-add) of the edge arrays
  and of the features the stretch starts from; the weight and bias windows hold the layer's slices of the arguments.
-/
import proofs.«127566_j19559281066123_1_alg».proof.Proof.Gen.KernelIdeal.Frame
import proofs.«127566_j19559281066123_1_alg».proof.Proof.Net
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

set_option maxHeartbeats 20000000 in
theorem read0_agg0 (U : Valuation τ sig (Elt F)) :
    StableHlo.after hostOps0 U (Proc.devRef .tc main_v18)
      = agg ![0, 0] slices_S4x800000_S1x800000_0_0 (U (Proc.devRef .tc main_arg1)) (U (Proc.devRef .tc main_arg6))
          (U (Proc.devRef .tc main_arg7)) (U (Proc.devRef .tc main_arg0)) := by
  after_results; rfl

set_option maxHeartbeats 20000000 in
theorem read0_agg1 (U : Valuation τ sig (Elt F)) :
    StableHlo.after hostOps0 U (Proc.devRef .tc main_v37)
      = agg ![1, 0] slices_S4x800000_S1x800000_1_0 (U (Proc.devRef .tc main_arg1)) (U (Proc.devRef .tc main_arg6))
          (U (Proc.devRef .tc main_arg7)) (U (Proc.devRef .tc main_arg0)) := by
  after_results; rfl

theorem read0_w (U : Valuation τ sig (Elt F)) :
    StableHlo.after hostOps0 U (Proc.devRef .tc main_v77)
      = shapeCast S4x128x32 (extractStridedSlice S1x4x128x32 ![0, 0, 0, 0] (U (Proc.devRef .tc main_arg2)) slices_S3x4x128x32_S1x4x128x32_0_0_0_0) shapeCasts_S1x4x128x32_S4x128x32 := by
  after_results; rfl

theorem read0_b (U : Valuation τ sig (Elt F)) :
    StableHlo.after hostOps0 U (Proc.devRef .tc main_v79)
      = shapeCast S4x32 (extractStridedSlice S1x4x32 ![0, 0, 0] (U (Proc.devRef .tc main_arg3)) slices_S3x4x32_S1x4x32_0_0_0) shapeCasts_S1x4x32_S4x32 := by
  after_results; rfl

end Cert.KernelIdeal.RunValue

end
-- ==== Proof.HostReads0b.lean ====
/-
  What the host stretch before layer 0's kernel computes, read buffer by buffer from any entry contents: hops 2 and 3's aggregations.
  An aggregation's buffer holds `agg` (one chain of host operations: gather, scale, scatter-add) of the edge arrays
  and of the features the stretch starts from; the weight and bias windows hold the layer's slices of the arguments.
-/
import proofs.«127566_j19559281066123_1_alg».proof.Proof.Gen.KernelIdeal.Frame
import proofs.«127566_j19559281066123_1_alg».proof.Proof.Net
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

set_option maxHeartbeats 20000000 in
theorem read0_agg2 (U : Valuation τ sig (Elt F)) :
    StableHlo.after hostOps0 U (Proc.devRef .tc main_v56)
      = agg ![2, 0] slices_S4x800000_S1x800000_2_0 (U (Proc.devRef .tc main_arg1)) (U (Proc.devRef .tc main_arg6))
          (U (Proc.devRef .tc main_arg7)) (U (Proc.devRef .tc main_arg0)) := by
  after_results; rfl

set_option maxHeartbeats 20000000 in
theorem read0_agg3 (U : Valuation τ sig (Elt F)) :
    StableHlo.after hostOps0 U (Proc.devRef .tc main_v75)
      = agg ![3, 0] slices_S4x800000_S1x800000_3_0 (U (Proc.devRef .tc main_arg1)) (U (Proc.devRef .tc main_arg6))
          (U (Proc.devRef .tc main_arg7)) (U (Proc.devRef .tc main_arg0)) := by
  after_results; rfl

end Cert.KernelIdeal.RunValue

end
-- ==== Proof.HostReads1a.lean ====
/-
  What the host stretch before layer 1's kernel computes, read buffer by buffer from any entry contents: hops 0 and 1's aggregations and the layer's weight and bias slices.
  An aggregation's buffer holds `agg` (one chain of host operations: gather, scale, scatter-add) of the edge arrays
  and of the features the stretch starts from; the weight and bias windows hold the layer's slices of the arguments.
-/
import proofs.«127566_j19559281066123_1_alg».proof.Proof.Gen.KernelIdeal.Frame
import proofs.«127566_j19559281066123_1_alg».proof.Proof.Net
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

set_option maxHeartbeats 20000000 in
theorem read1_agg0 (U : Valuation τ sig (Elt F)) :
    StableHlo.after hostOps1 U (Proc.devRef .tc main_v99)
      = agg ![0, 0] slices_S4x800000_S1x800000_0_0 (U (Proc.devRef .tc main_arg1)) (U (Proc.devRef .tc main_arg6))
          (U (Proc.devRef .tc main_arg7)) (U (Proc.devRef .tc main_v80)) := by
  after_results; rfl

set_option maxHeartbeats 20000000 in
theorem read1_agg1 (U : Valuation τ sig (Elt F)) :
    StableHlo.after hostOps1 U (Proc.devRef .tc main_v118)
      = agg ![1, 0] slices_S4x800000_S1x800000_1_0 (U (Proc.devRef .tc main_arg1)) (U (Proc.devRef .tc main_arg6))
          (U (Proc.devRef .tc main_arg7)) (U (Proc.devRef .tc main_v80)) := by
  after_results; rfl

theorem read1_w (U : Valuation τ sig (Elt F)) :
    StableHlo.after hostOps1 U (Proc.devRef .tc main_v158)
      = shapeCast S4x128x32 (extractStridedSlice S1x4x128x32 ![1, 0, 0, 0] (U (Proc.devRef .tc main_arg2)) slices_S3x4x128x32_S1x4x128x32_1_0_0_0) shapeCasts_S1x4x128x32_S4x128x32 := by
  after_results; rfl

theorem read1_b (U : Valuation τ sig (Elt F)) :
    StableHlo.after hostOps1 U (Proc.devRef .tc main_v160)
      = shapeCast S4x32 (extractStridedSlice S1x4x32 ![1, 0, 0] (U (Proc.devRef .tc main_arg3)) slices_S3x4x32_S1x4x32_1_0_0) shapeCasts_S1x4x32_S4x32 := by
  after_results; rfl

end Cert.KernelIdeal.RunValue

end
-- ==== Proof.HostReads1b.lean ====
/-
  What the host stretch before layer 1's kernel computes, read buffer by buffer from any entry contents: hops 2 and 3's aggregations.
  An aggregation's buffer holds `agg` (one chain of host operations: gather, scale, scatter-add) of the edge arrays
  and of the features the stretch starts from; the weight and bias windows hold the layer's slices of the arguments.
-/
import proofs.«127566_j19559281066123_1_alg».proof.Proof.Gen.KernelIdeal.Frame
import proofs.«127566_j19559281066123_1_alg».proof.Proof.Net
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

set_option maxHeartbeats 20000000 in
theorem read1_agg2 (U : Valuation τ sig (Elt F)) :
    StableHlo.after hostOps1 U (Proc.devRef .tc main_v137)
      = agg ![2, 0] slices_S4x800000_S1x800000_2_0 (U (Proc.devRef .tc main_arg1)) (U (Proc.devRef .tc main_arg6))
          (U (Proc.devRef .tc main_arg7)) (U (Proc.devRef .tc main_v80)) := by
  after_results; rfl

set_option maxHeartbeats 20000000 in
theorem read1_agg3 (U : Valuation τ sig (Elt F)) :
    StableHlo.after hostOps1 U (Proc.devRef .tc main_v156)
      = agg ![3, 0] slices_S4x800000_S1x800000_3_0 (U (Proc.devRef .tc main_arg1)) (U (Proc.devRef .tc main_arg6))
          (U (Proc.devRef .tc main_arg7)) (U (Proc.devRef .tc main_v80)) := by
  after_results; rfl

end Cert.KernelIdeal.RunValue

end
-- ==== Proof.HostReads2a.lean ====
/-
  What the host stretch before layer 2's kernel computes, read buffer by buffer from any entry contents: hops 0 and 1's aggregations and the layer's weight and bias slices.
  An aggregation's buffer holds `agg` (one chain of host operations: gather, scale, scatter-add) of the edge arrays
  and of the features the stretch starts from; the weight and bias windows hold the layer's slices of the arguments.
-/
import proofs.«127566_j19559281066123_1_alg».proof.Proof.Gen.KernelIdeal.Frame
import proofs.«127566_j19559281066123_1_alg».proof.Proof.Net
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

set_option maxHeartbeats 20000000 in
theorem read2_agg0 (U : Valuation τ sig (Elt F)) :
    StableHlo.after hostOps2 U (Proc.devRef .tc main_v180)
      = agg ![0, 0] slices_S4x800000_S1x800000_0_0 (U (Proc.devRef .tc main_arg1)) (U (Proc.devRef .tc main_arg6))
          (U (Proc.devRef .tc main_arg7)) (U (Proc.devRef .tc main_v161)) := by
  after_results; rfl

set_option maxHeartbeats 20000000 in
theorem read2_agg1 (U : Valuation τ sig (Elt F)) :
    StableHlo.after hostOps2 U (Proc.devRef .tc main_v199)
      = agg ![1, 0] slices_S4x800000_S1x800000_1_0 (U (Proc.devRef .tc main_arg1)) (U (Proc.devRef .tc main_arg6))
          (U (Proc.devRef .tc main_arg7)) (U (Proc.devRef .tc main_v161)) := by
  after_results; rfl

theorem read2_w (U : Valuation τ sig (Elt F)) :
    StableHlo.after hostOps2 U (Proc.devRef .tc main_v239)
      = shapeCast S4x128x32 (extractStridedSlice S1x4x128x32 ![2, 0, 0, 0] (U (Proc.devRef .tc main_arg2)) slices_S3x4x128x32_S1x4x128x32_2_0_0_0) shapeCasts_S1x4x128x32_S4x128x32 := by
  after_results; rfl

theorem read2_b (U : Valuation τ sig (Elt F)) :
    StableHlo.after hostOps2 U (Proc.devRef .tc main_v241)
      = shapeCast S4x32 (extractStridedSlice S1x4x32 ![2, 0, 0] (U (Proc.devRef .tc main_arg3)) slices_S3x4x32_S1x4x32_2_0_0) shapeCasts_S1x4x32_S4x32 := by
  after_results; rfl

end Cert.KernelIdeal.RunValue

end
-- ==== Proof.HostReads2b.lean ====
/-
  What the host stretch before layer 2's kernel computes, read buffer by buffer from any entry contents: hops 2 and 3's aggregations, and the classifier's bias row after the one host operation before it.
  An aggregation's buffer holds `agg` (one chain of host operations: gather, scale, scatter-add) of the edge arrays
  and of the features the stretch starts from; the weight and bias windows hold the layer's slices of the arguments.
-/
import proofs.«127566_j19559281066123_1_alg».proof.Proof.Gen.KernelIdeal.Frame
import proofs.«127566_j19559281066123_1_alg».proof.Proof.Net
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

set_option maxHeartbeats 20000000 in
theorem read2_agg2 (U : Valuation τ sig (Elt F)) :
    StableHlo.after hostOps2 U (Proc.devRef .tc main_v218)
      = agg ![2, 0] slices_S4x800000_S1x800000_2_0 (U (Proc.devRef .tc main_arg1)) (U (Proc.devRef .tc main_arg6))
          (U (Proc.devRef .tc main_arg7)) (U (Proc.devRef .tc main_v161)) := by
  after_results; rfl

set_option maxHeartbeats 20000000 in
theorem read2_agg3 (U : Valuation τ sig (Elt F)) :
    StableHlo.after hostOps2 U (Proc.devRef .tc main_v237)
      = agg ![3, 0] slices_S4x800000_S1x800000_3_0 (U (Proc.devRef .tc main_arg1)) (U (Proc.devRef .tc main_arg6))
          (U (Proc.devRef .tc main_arg7)) (U (Proc.devRef .tc main_v161)) := by
  after_results; rfl

theorem read3_bias (U : Valuation τ sig (Elt F)) :
    StableHlo.after hostOps3 U (Proc.devRef .tc main_v243)
      = shapeCast S1x40 (U (Proc.devRef .tc main_arg5)) shapeCasts_S40_S1x40 := by
  after_results; rfl

end Cert.KernelIdeal.RunValue

end
-- ==== Proof.Concat4.lean ====
/-
  A concatenation of four arrays of `R` rows and 32 columns along the column axis, read at `(r, c)`: column `c`
  falls in piece `c / 32`, at that piece's column `c % 32`.
-/
import Idealize.ShloMosaic.Lib.Pipeline.Value
import proofs.«127566_j19559281066123_1_alg».proof.Proof.Spec

noncomputable section

namespace Cert.HopLayer

open Idealize.ShloMosaic Idealize.ShloMosaic.ValueIdx

theorem concat4_apply {α : Type} {R : ℕ} (x0 x1 x2 x3 : (⟨2, ![R, 32]⟩ : Shape).Idx → α)
    (h : Shape.Concatenates [(⟨2, ![R, 32]⟩ : Shape), ⟨2, ![R, 32]⟩, ⟨2, ![R, 32]⟩, ⟨2, ![R, 32]⟩] ⟨2, ![R, 128]⟩ 1)
    (r : Fin R) (c : Fin 128) :
    concatenate ⟨2, ![R, 128]⟩ 1 [⟨⟨2, ![R, 32]⟩, x0⟩, ⟨⟨2, ![R, 32]⟩, x1⟩, ⟨⟨2, ![R, 32]⟩, x2⟩, ⟨⟨2, ![R, 32]⟩, x3⟩] h (ix2 r c)
      = (![x0, x1, x2, x3] (colHop c)) (ix2 r (colLane c)) := by
  -- the column is 32 times its hop plus its lane
  have hs := col_split c
  have hR : (⟨2, ![R, 32]⟩ : Shape).rank = (⟨2, ![R, 128]⟩ : Shape).rank := rfl
  -- off the column axis the piece is read at the same row
  have hi : ∀ b : Fin (⟨2, ![R, 32]⟩ : Shape).rank, b.cast hR ≠ (1 : Fin 2) →
      ((ix2 r (colLane c)) b).val = ((ix2 r c) (b.cast hR)).val := by
    intro b hb
    match b, hb with
    | ⟨0, _⟩, _ => rfl
    | ⟨1, _⟩, hb => exact absurd rfl hb
  generalize colHop c = k at hs ⊢
  -- hop by hop: piece k starts at column 32 k, the extents of the pieces before it
  match k, hs with
  | ⟨0, _⟩, hs =>
    exact concatenate_apply_piece (t := ⟨2, ![R, 128]⟩) 1
      [⟨⟨2, ![R, 32]⟩, x0⟩, ⟨⟨2, ![R, 32]⟩, x1⟩, ⟨⟨2, ![R, 32]⟩, x2⟩, ⟨⟨2, ![R, 32]⟩, x3⟩] h (ix2 r c) 0
      (by show 0 < 4; omega) _ x0 rfl hR 0 rfl (ix2 r (colLane c)) hi
      (by show 0 + (colLane c).val = c.val; simp at hs; omega)
  | ⟨1, _⟩, hs =>
    exact concatenate_apply_piece (t := ⟨2, ![R, 128]⟩) 1
      [⟨⟨2, ![R, 32]⟩, x0⟩, ⟨⟨2, ![R, 32]⟩, x1⟩, ⟨⟨2, ![R, 32]⟩, x2⟩, ⟨⟨2, ![R, 32]⟩, x3⟩] h (ix2 r c) 1
      (by show 1 < 4; omega) _ x1 rfl hR 32 rfl (ix2 r (colLane c)) hi
      (by show 32 + (colLane c).val = c.val; simp at hs; omega)
  | ⟨2, _⟩, hs =>
    exact concatenate_apply_piece (t := ⟨2, ![R, 128]⟩) 1
      [⟨⟨2, ![R, 32]⟩, x0⟩, ⟨⟨2, ![R, 32]⟩, x1⟩, ⟨⟨2, ![R, 32]⟩, x2⟩, ⟨⟨2, ![R, 32]⟩, x3⟩] h (ix2 r c) 2
      (by show 2 < 4; omega) _ x2 rfl hR 64 rfl (ix2 r (colLane c)) hi
      (by show 64 + (colLane c).val = c.val; simp at hs; omega)
  | ⟨3, _⟩, hs =>
    exact concatenate_apply_piece (t := ⟨2, ![R, 128]⟩) 1
      [⟨⟨2, ![R, 32]⟩, x0⟩, ⟨⟨2, ![R, 32]⟩, x1⟩, ⟨⟨2, ![R, 32]⟩, x2⟩, ⟨⟨2, ![R, 32]⟩, x3⟩] h (ix2 r c) 3
      (by show 3 < 4; omega) _ x3 rfl hR 96 rfl (ix2 r (colLane c)) hi
      (by show 96 + (colLane c).val = c.val; simp at hs; omega)

end Cert.HopLayer

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«127566_j19559281066123_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.BodyValue.lean ====
/-
  What each kernel body leaves in its output block, as a function of its input blocks: the three layer kernels leave
  one layer (`HopLayer.layer`) of the four feature blocks, the stacked weights and the stacked biases; the classifier
  kernel leaves `HopLayer.classify` of its feature block, weight matrix and one-row bias.
-/
import proofs.«127566_j19559281066123_1_alg».proof.Proof.Gen.KernelIdeal.Frame
import proofs.«127566_j19559281066123_1_alg».proof.Proof.Spec
import proofs.«127566_j19559281066123_1_alg».proof.Proof.Concat4
import proofs.«127566_j19559281066123_1_alg».proof.Proof.LibBlockRows

set_option maxRecDepth 16384

noncomputable section

namespace Cert.KernelIdeal.BodyValue

open Cert.KernelIdeal Cert.KernelIdeal.Gen Idealize.ShloMosaic Idealize.ShloMosaic.ValueIdx

open Cert.DenseRows Cert.HopLayer

/-- The zero offsets of a whole-block access are the constant zero function. -/
theorem zeros2 : (![0, 0] : Fin 2 → Nat) = fun _ => 0 := funext fun a => by fin_cases a <;> rfl

/-- A `[1, 128, 32]` slab viewed as `[128, 32]` (and changed of float format, the identity on the extended reals), as a
    matrix: entry `(t, j)` is the slab's `(0, t, j)`. -/
theorem mat_slabCast (w : FVec Ideal S1x128x32 .f32) :
    mat (truncf .bf16 (shapeCast S128x32 w shapeCasts_S1x128x32_S128x32) bitsLt_bf16_f32 : FVec Ideal S128x32 .bf16)
      = fun t j => w (ix3 (0 : Fin 1) t j) := by
  funext t j
  show shapeCast S128x32 w shapeCasts_S1x128x32_S128x32 (ix2 t j) = _
  refine (shapeCast_dropUnit_apply ![128, 32] w shapeCasts_S1x128x32_S128x32 (ix2 t j)).trans ?_
  refine congrArg w (funext fun a => ?_)
  match a with
  | ⟨0, _⟩ => rfl
  | ⟨1, _⟩ => rfl
  | ⟨2, _⟩ => rfl

/-- A one-row bias `[1, 32]` viewed as `[32]`, as a vector: entry `j` is the row's `(0, j)`. -/
theorem vec_biasCast (b : FVec Ideal S1x32 .f32) :
    vec (shapeCast S32 b shapeCasts_S1x32_S32) = fun j => b (ix2 (0 : Fin 1) j) := by
  funext j
  show shapeCast S32 b shapeCasts_S1x32_S32 (ix1 j) = _
  refine (shapeCast_dropUnit_apply ![32] b shapeCasts_S1x32_S32 (ix1 j)).trans ?_
  refine congrArg b (funext fun a => ?_)
  match a with
  | ⟨0, _⟩ => rfl
  | ⟨1, _⟩ => rfl

/-- One hop's dense step as the body spells it, by rows: the feature block times the slab, accumulated into zeros, plus the
    one-row bias spread over the rows, is `affine` of the feature row, the slab's matrix and the bias row. -/
theorem hop_row (a : FVec Ideal S2000x128 .f32) (w : FVec Ideal S1x128x32 .f32) (b : FVec Ideal S1x32 .f32) (r : Fin 2000) :
    row (addf
        (matmul dot_S2000x128_S128x32_S2000x32_1_0_0_1_n_n none
          (truncf .bf16 (shapeCast S2000x128 a shapeCasts_S2000x128_S2000x128) bitsLt_bf16_f32 : FVec Ideal S2000x128 .bf16)
          (truncf .bf16 (shapeCast S128x32 w shapeCasts_S1x128x32_S128x32) bitsLt_bf16_f32 : FVec Ideal S128x32 .bf16)
          (constant (F := Ideal) S2000x32 .f32 0x00000000#32))
        (broadcastTo S2000x32 (shapeCast S1x32 (shapeCast S32 b shapeCasts_S1x32_S32) shapeCasts_S32_S1x32)
          broadcasts_S1x32_S2000x32)) r
      = affine (row a r) (fun t j => w (ix3 (0 : Fin 1) t j)) (fun j => b (ix2 (0 : Fin 1) j)) := by
  refine (row_matmul_bias dot_S2000x128_S128x32_S2000x32_1_0_0_1_n_n rfl none _ _
    (shapeCast S32 b shapeCasts_S1x32_S32) shapeCasts_S32_S1x32 broadcasts_S1x32_S2000x32 r).trans ?_
  rw [mat_slabCast, vec_biasCast, row_truncf, row_shapeCast_self]

/-- One hop's dense step as the body spells it: the feature block (viewed at its own shape and changed of format) times the
    `[1, 128, 32]` slab viewed as `[128, 32]`, accumulated into zeros, plus the one-row bias viewed as `[32]`, back as one
    row, and spread over the rows. -/
def hop (a : FVec Ideal S2000x128 .f32) (w : FVec Ideal S1x128x32 .f32) (b : FVec Ideal S1x32 .f32) :
    FVec Ideal S2000x32 .f32 :=
  addf
    (matmul dot_S2000x128_S128x32_S2000x32_1_0_0_1_n_n none
      (truncf .bf16 (shapeCast S2000x128 a shapeCasts_S2000x128_S2000x128) bitsLt_bf16_f32 : FVec Ideal S2000x128 .bf16)
      (truncf .bf16 (shapeCast S128x32 w shapeCasts_S1x128x32_S128x32) bitsLt_bf16_f32 : FVec Ideal S128x32 .bf16)
      (constant (F := Ideal) S2000x32 .f32 0x00000000#32))
    (broadcastTo S2000x32 (shapeCast S1x32 (shapeCast S32 b shapeCasts_S1x32_S32) shapeCasts_S32_S1x32)
      broadcasts_S1x32_S2000x32)

/-- The `[1, 128, 32]` slab of the stacked weights loaded at hop `k` (offsets `(k, 0, 0)`) is, as a matrix, hop `k`'s
    weight matrix. -/
theorem ld_slab (x4 : Vec Ideal S4x128x32 .f32) (off : Fin 3 → Nat)
    (inb : ∀ a, off a + S1x128x32.size a ≤ S4x128x32.size a) (k : Fin 4)
    (h0 : off 0 = k.val) (h1 : off 1 = 0) (h2 : off 2 = 0) :
    (fun (t : Fin 128) (j : Fin 32) =>
        View.ld x4 (Rect.unit (s := S4x128x32) off S1x128x32.size inb) (ix3 (0 : Fin 1) t j)) = slab x4 k := by
  funext t j
  refine congrArg x4 (funext fun a => Fin.ext ?_)
  match a with
  | ⟨0, _⟩ => show off 0 + 1 * 0 = k.val; omega
  | ⟨1, _⟩ => show off 1 + 1 * t.val = t.val; omega
  | ⟨2, _⟩ => show off 2 + 1 * j.val = j.val; omega

/-- The `[1, 32]` row of the stacked biases loaded at hop `k` (offsets `(k, 0)`) is hop `k`'s bias. -/
theorem ld_biasRow (x5 : Vec Ideal S4x32 .f32) (off : Fin 2 → Nat)
    (inb : ∀ a, off a + S1x32.size a ≤ S4x32.size a) (k : Fin 4) (h0 : off 0 = k.val) (h1 : off 1 = 0) :
    (fun (j : Fin 32) => View.ld x5 (Rect.unit (s := S4x32) off S1x32.size inb) (ix2 (0 : Fin 1) j)) = bias x5 k := by
  funext j
  refine congrArg x5 (funext fun a => Fin.ext ?_)
  match a with
  | ⟨0, _⟩ => show off 0 + 1 * 0 = k.val; omega
  | ⟨1, _⟩ => show off 1 + 1 * j.val = j.val; omega

/-- Hop `k` of a layer kernel's body on its loads — the whole feature block, the slab and the bias row at hop `k` —, by
    rows: `affine` of the feature row, hop `k`'s weight matrix and hop `k`'s bias. -/
theorem hop_of_loads (a : Vec Ideal S2000x128 .f32) (x4 : Vec Ideal S4x128x32 .f32) (x5 : Vec Ideal S4x32 .f32)
    (offw : Fin 3 → Nat) (inbw : ∀ a, offw a + S1x128x32.size a ≤ S4x128x32.size a)
    (offb : Fin 2 → Nat) (inbb : ∀ a, offb a + S1x32.size a ≤ S4x32.size a) (k : Fin 4)
    (hw0 : offw 0 = k.val) (hw1 : offw 1 = 0) (hw2 : offw 2 = 0) (hb0 : offb 0 = k.val) (hb1 : offb 1 = 0)
    (r : Fin 2000) :
    row (hop (View.ld a (Rect.unit (s := S2000x128) ![0, 0] S2000x128.size inb_S2000x128_S2000x128_0_0))
          (View.ld x4 (Rect.unit (s := S4x128x32) offw S1x128x32.size inbw))
          (View.ld x5 (Rect.unit (s := S4x32) offb S1x32.size inbb))) r
      = affine (row a r) (slab x4 k) (bias x5 k) := by
  refine (hop_row _ _ _ r).trans ?_
  rw [ld_slab x4 offw inbw k hw0 hw1 hw2, ld_biasRow x5 offb inbb k hb0 hb1,
    View.ld_unit_zero (S := S2000x128) zeros2 inb_S2000x128_S2000x128_0_0 a]

/-- Layer kernel 0's output payload at `(r, c)`: the concatenation reads hop `c / 32`'s piece at lane `c % 32`; the third
    piece is the sum the body forms of the product and the spread bias. -/
theorem pay1_apply_0 (v11 v23 v30 v34 : FVec Ideal S2000x32 .f32) (v36 : Vec Ideal S2000x128 .f32)
    (v39 : Vec Ideal S1x128x32 .f32) (v43 : Vec Ideal S1x32 .f32) (r : Fin 2000) (c : Fin 128) :
    k0_pay1 (F := Ideal) v11 v23 v30 v34 v36 v39 v43 (ix2 r c)
      = (![v11, v23, addf v30 v34, hop v36 v39 v43] (colHop c)) (ix2 r (colLane c)) :=
  concat4_apply v11 v23 (addf v30 v34) (hop v36 v39 v43)
    concatenates_S2000x32_S2000x32_S2000x32_S2000x32_S2000x128_d1 r c

theorem out0_eq (x0 x1 x2 x3 : Vec Ideal S2000x128 .f32) (x4 : Vec Ideal S4x128x32 .f32) (x5 : Vec Ideal S4x32 .f32) :
    out0_6 (F := Ideal) x0 x1 x2 x3 x4 x5 = Cert.HopLayer.layer ![x0, x1, x2, x3] x4 x5 := by
  unfold out0_6
  rw [View.canon_unit_zero (S := S2000x128) zeros2]
  refine ext_ix2 _ _ fun r c => ?_
  refine (pay1_apply_0 _ _ _ _ _ _ _ r c).trans ?_
  rw [layer_apply]
  generalize colHop c = k
  generalize colLane c = j
  -- hop by hop: the piece is that hop's dense step on that hop's loads
  match k with
  | ⟨0, _⟩ =>
    show row (hop (View.ld x0 r0_0) (View.ld x4 r0_1) (View.ld x5 r0_2)) r j
      = affine (row x0 r) (slab x4 0) (bias x5 0) j
    exact congrFun (hop_of_loads x0 x4 x5 ![0, 0, 0] inb_S4x128x32_S1x128x32_0_0_0 ![0, 0] inb_S4x32_S1x32_0_0 0
      rfl rfl rfl rfl rfl r) j
  | ⟨1, _⟩ =>
    show row (hop (View.ld x1 r0_0) (View.ld x4 r0_3) (View.ld x5 r0_4)) r j
      = affine (row x1 r) (slab x4 1) (bias x5 1) j
    exact congrFun (hop_of_loads x1 x4 x5 ![1, 0, 0] inb_S4x128x32_S1x128x32_1_0_0 ![1, 0] inb_S4x32_S1x32_1_0 1
      rfl rfl rfl rfl rfl r) j
  | ⟨2, _⟩ =>
    show row (hop (View.ld x2 r0_0) (View.ld x4 r0_5) (View.ld x5 r0_6)) r j
      = affine (row x2 r) (slab x4 2) (bias x5 2) j
    exact congrFun (hop_of_loads x2 x4 x5 ![2, 0, 0] inb_S4x128x32_S1x128x32_2_0_0 ![2, 0] inb_S4x32_S1x32_2_0 2
      rfl rfl rfl rfl rfl r) j
  | ⟨3, _⟩ =>
    show row (hop (View.ld x3 r0_0) (View.ld x4 r0_7) (View.ld x5 r0_8)) r j
      = affine (row x3 r) (slab x4 3) (bias x5 3) j
    exact congrFun (hop_of_loads x3 x4 x5 ![3, 0, 0] inb_S4x128x32_S1x128x32_3_0_0 ![3, 0] inb_S4x32_S1x32_3_0 3
      rfl rfl rfl rfl rfl r) j

/-- Layer kernel 1's output payload at `(r, c)`: the concatenation reads hop `c / 32`'s piece at lane `c % 32`; the third
    piece is the sum the body forms of the product and the spread bias. -/
theorem pay1_apply_1 (v11 v23 v30 v34 : FVec Ideal S2000x32 .f32) (v36 : Vec Ideal S2000x128 .f32)
    (v39 : Vec Ideal S1x128x32 .f32) (v43 : Vec Ideal S1x32 .f32) (r : Fin 2000) (c : Fin 128) :
    k1_pay1 (F := Ideal) v11 v23 v30 v34 v36 v39 v43 (ix2 r c)
      = (![v11, v23, addf v30 v34, hop v36 v39 v43] (colHop c)) (ix2 r (colLane c)) :=
  concat4_apply v11 v23 (addf v30 v34) (hop v36 v39 v43)
    concatenates_S2000x32_S2000x32_S2000x32_S2000x32_S2000x128_d1 r c

theorem out1_eq (x0 x1 x2 x3 : Vec Ideal S2000x128 .f32) (x4 : Vec Ideal S4x128x32 .f32) (x5 : Vec Ideal S4x32 .f32) :
    out1_6 (F := Ideal) x0 x1 x2 x3 x4 x5 = Cert.HopLayer.layer ![x0, x1, x2, x3] x4 x5 := by
  unfold out1_6
  rw [View.canon_unit_zero (S := S2000x128) zeros2]
  refine ext_ix2 _ _ fun r c => ?_
  refine (pay1_apply_1 _ _ _ _ _ _ _ r c).trans ?_
  rw [layer_apply]
  generalize colHop c = k
  generalize colLane c = j
  -- hop by hop: the piece is that hop's dense step on that hop's loads
  match k with
  | ⟨0, _⟩ =>
    show row (hop (View.ld x0 r1_0) (View.ld x4 r1_1) (View.ld x5 r1_2)) r j
      = affine (row x0 r) (slab x4 0) (bias x5 0) j
    exact congrFun (hop_of_loads x0 x4 x5 ![0, 0, 0] inb_S4x128x32_S1x128x32_0_0_0 ![0, 0] inb_S4x32_S1x32_0_0 0
      rfl rfl rfl rfl rfl r) j
  | ⟨1, _⟩ =>
    show row (hop (View.ld x1 r1_0) (View.ld x4 r1_3) (View.ld x5 r1_4)) r j
      = affine (row x1 r) (slab x4 1) (bias x5 1) j
    exact congrFun (hop_of_loads x1 x4 x5 ![1, 0, 0] inb_S4x128x32_S1x128x32_1_0_0 ![1, 0] inb_S4x32_S1x32_1_0 1
      rfl rfl rfl rfl rfl r) j
  | ⟨2, _⟩ =>
    show row (hop (View.ld x2 r1_0) (View.ld x4 r1_5) (View.ld x5 r1_6)) r j
      = affine (row x2 r) (slab x4 2) (bias x5 2) j
    exact congrFun (hop_of_loads x2 x4 x5 ![2, 0, 0] inb_S4x128x32_S1x128x32_2_0_0 ![2, 0] inb_S4x32_S1x32_2_0 2
      rfl rfl rfl rfl rfl r) j
  | ⟨3, _⟩ =>
    show row (hop (View.ld x3 r1_0) (View.ld x4 r1_7) (View.ld x5 r1_8)) r j
      = affine (row x3 r) (slab x4 3) (bias x5 3) j
    exact congrFun (hop_of_loads x3 x4 x5 ![3, 0, 0] inb_S4x128x32_S1x128x32_3_0_0 ![3, 0] inb_S4x32_S1x32_3_0 3
      rfl rfl rfl rfl rfl r) j

/-- Layer kernel 2's output payload at `(r, c)`: the concatenation reads hop `c / 32`'s piece at lane `c % 32`; the third
    piece is the sum the body forms of the product and the spread bias. -/
theorem pay1_apply_2 (v11 v23 v30 v34 : FVec Ideal S2000x32 .f32) (v36 : Vec Ideal S2000x128 .f32)
    (v39 : Vec Ideal S1x128x32 .f32) (v43 : Vec Ideal S1x32 .f32) (r : Fin 2000) (c : Fin 128) :
    k2_pay1 (F := Ideal) v11 v23 v30 v34 v36 v39 v43 (ix2 r c)
      = (![v11, v23, addf v30 v34, hop v36 v39 v43] (colHop c)) (ix2 r (colLane c)) :=
  concat4_apply v11 v23 (addf v30 v34) (hop v36 v39 v43)
    concatenates_S2000x32_S2000x32_S2000x32_S2000x32_S2000x128_d1 r c

theorem out2_eq (x0 x1 x2 x3 : Vec Ideal S2000x128 .f32) (x4 : Vec Ideal S4x128x32 .f32) (x5 : Vec Ideal S4x32 .f32) :
    out2_6 (F := Ideal) x0 x1 x2 x3 x4 x5 = Cert.HopLayer.layer ![x0, x1, x2, x3] x4 x5 := by
  unfold out2_6
  rw [View.canon_unit_zero (S := S2000x128) zeros2]
  refine ext_ix2 _ _ fun r c => ?_
  refine (pay1_apply_2 _ _ _ _ _ _ _ r c).trans ?_
  rw [layer_apply]
  generalize colHop c = k
  generalize colLane c = j
  -- hop by hop: the piece is that hop's dense step on that hop's loads
  match k with
  | ⟨0, _⟩ =>
    show row (hop (View.ld x0 r2_0) (View.ld x4 r2_1) (View.ld x5 r2_2)) r j
      = affine (row x0 r) (slab x4 0) (bias x5 0) j
    exact congrFun (hop_of_loads x0 x4 x5 ![0, 0, 0] inb_S4x128x32_S1x128x32_0_0_0 ![0, 0] inb_S4x32_S1x32_0_0 0
      rfl rfl rfl rfl rfl r) j
  | ⟨1, _⟩ =>
    show row (hop (View.ld x1 r2_0) (View.ld x4 r2_3) (View.ld x5 r2_4)) r j
      = affine (row x1 r) (slab x4 1) (bias x5 1) j
    exact congrFun (hop_of_loads x1 x4 x5 ![1, 0, 0] inb_S4x128x32_S1x128x32_1_0_0 ![1, 0] inb_S4x32_S1x32_1_0 1
      rfl rfl rfl rfl rfl r) j
  | ⟨2, _⟩ =>
    show row (hop (View.ld x2 r2_0) (View.ld x4 r2_5) (View.ld x5 r2_6)) r j
      = affine (row x2 r) (slab x4 2) (bias x5 2) j
    exact congrFun (hop_of_loads x2 x4 x5 ![2, 0, 0] inb_S4x128x32_S1x128x32_2_0_0 ![2, 0] inb_S4x32_S1x32_2_0 2
      rfl rfl rfl rfl rfl r) j
  | ⟨3, _⟩ =>
    show row (hop (View.ld x3 r2_0) (View.ld x4 r2_7) (View.ld x5 r2_8)) r j
      = affine (row x3 r) (slab x4 3) (bias x5 3) j
    exact congrFun (hop_of_loads x3 x4 x5 ![3, 0, 0] inb_S4x128x32_S1x128x32_3_0_0 ![3, 0] inb_S4x32_S1x32_3_0 3
      rfl rfl rfl rfl rfl r) j

/-- The classifier kernel's payload by rows: the feature block times the weight matrix, accumulated into zeros, plus the
    one-row bias spread over the rows, is `affine` of the feature row, the weight matrix and the bias row. -/
theorem clf_row (a : FVec Ideal S5000x128 .f32) (w : FVec Ideal S128x40 .f32) (b : FVec Ideal S1x40 .f32) (r : Fin 5000) :
    row (k3_pay1 (F := Ideal) a w b) r = affine (row a r) (mat w) (row b (0 : Fin 1)) := by
  refine (Cert.LibBlockRows.row_matmul_rowbias dot_S5000x128_S128x40_S5000x40_1_0_0_1_n_n rfl none _ _
    (shapeCast S1x40 b shapeCasts_S1x40_S1x40) broadcasts_S1x40_S5000x40 r).trans ?_
  rw [row_truncf, row_shapeCast_self, row_shapeCast_self]
  rfl

theorem out3_eq (x0 : Vec Ideal S5000x128 .f32) (x1 : Vec Ideal S128x40 .f32) (x2 : Vec Ideal S1x40 .f32) :
    out3_3 (F := Ideal) x0 x1 x2 = Cert.HopLayer.classify x0 x1 x2 := by
  unfold out3_3
  rw [View.canon_unit_zero (S := S5000x40) zeros2]
  refine ext_ix2 _ _ fun r n => ?_
  rw [classify_apply, View.ld_unit_zero (S := S5000x128) zeros2 inb_S5000x128_S5000x128_0_0 x0,
    View.ld_unit_zero (S := S128x40) zeros2 inb_S128x40_S128x40_0_0 x1,
    View.ld_unit_zero (S := S1x40) zeros2 inb_S1x40_S1x40_0_0 x2]
  exact congrFun (clf_row x0 x1 x2 r) n

end Cert.KernelIdeal.BodyValue

end
-- ==== Proof.RegionValue.lean ====
/-
  Each region's output array after its pipeline, as one function of the arrays the region finds on entry: the blocks
  of rows tile the array, and each block is the body's function of the input blocks of the same rows.
-/
import proofs.«127566_j19559281066123_1_alg».proof.Proof.Gen.KernelIdeal.Frame
import proofs.«127566_j19559281066123_1_alg».proof.Proof.Spec
import proofs.«127566_j19559281066123_1_alg».proof.Proof.BodyValue
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- A row of a layer depends on the same row of each of its four feature arrays alone: if row `y` of every `a k` is
    row `r` of `A k`, row `y` of the layer of the `a k` is row `r` of the layer of the `A k`. -/
theorem layer_row {R B : ℕ} (A : Fin 4 → FVec Ideal ⟨2, ![R, 128]⟩ .f32) (a : Fin 4 → FVec Ideal ⟨2, ![B, 128]⟩ .f32)
    (Wl : FVec Ideal ⟨3, ![4, 128, 32]⟩ .f32) (bl : FVec Ideal ⟨2, ![4, 32]⟩ .f32) (y : Fin B) (r : Fin R)
    (h : ∀ (k : Fin 4) (q : Fin 128), a k (ix2 y q) = A k (ix2 r q)) (q : Fin 128) :
    Cert.HopLayer.layer a Wl bl (ix2 y q) = Cert.HopLayer.layer A Wl bl (ix2 r q) := by
  rw [Cert.HopLayer.layer_apply, Cert.HopLayer.layer_apply]
  have e : Cert.DenseRows.row (a (Cert.HopLayer.colHop q)) y = Cert.DenseRows.row (A (Cert.HopLayer.colHop q)) r :=
    funext fun k => h _ k
  rw [e]

/-! ## The first layer's region -/

section

variable (V : (c : Dev nD) → (b : Ref sig .tc) → Buf (Elt Ideal) ((c : Thread nD τ).loc b))

/-- The block indices of the first layer's windows at grid point `t`: the four feature windows and the result's sit
    at block `(t, 0)`, the stacked weights and the stacked biases at block 0. -/
theorem index0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row `y` of the block window 0 holds at grid point `t` is row `2000 t + y` of its array. -/
theorem rows0_0 (c : Dev nD) (t : Fin cfg0.N) (y : Fin 2000) (q : Fin 128) (r : Fin 50000) (hr : r.val = 2000 * t.val + y.val) :
    (iblk0 V c 0 t : Vec Ideal S2000x128 .f32) (ix2 y q) = (V c main_v18 : S50000x128.Idx → EReal) (ix2 r q) := by
  obtain ⟨⟨e0, e1⟩, -⟩ := index0 t
  unfold iblk0
  rw [View.read_apply]
  show V c main_v18 _ = V c main_v18 _
  congr 1
  funext a
  apply Fin.ext
  match a with
  | ⟨0, _⟩ => show win0_0.index t (0 : Fin 2) * 2000 + 1 * y.val = r.val; omega
  | ⟨1, _⟩ => show win0_0.index t (1 : Fin 2) * 128 + 1 * q.val = q.val; omega

/-- Row `y` of the block window 1 holds at grid point `t` is row `2000 t + y` of its array. -/
theorem rows0_1 (c : Dev nD) (t : Fin cfg0.N) (y : Fin 2000) (q : Fin 128) (r : Fin 50000) (hr : r.val = 2000 * t.val + y.val) :
    (iblk0 V c 1 t : Vec Ideal S2000x128 .f32) (ix2 y q) = (V c main_v37 : S50000x128.Idx → EReal) (ix2 r q) := by
  obtain ⟨-, ⟨e0, e1⟩, -⟩ := index0 t
  unfold iblk0
  rw [View.read_apply]
  show V c main_v37 _ = V c main_v37 _
  congr 1
  funext a
  apply Fin.ext
  match a with
  | ⟨0, _⟩ => show win0_1.index t (0 : Fin 2) * 2000 + 1 * y.val = r.val; omega
  | ⟨1, _⟩ => show win0_1.index t (1 : Fin 2) * 128 + 1 * q.val = q.val; omega

/-- Row `y` of the block window 2 holds at grid point `t` is row `2000 t + y` of its array. -/
theorem rows0_2 (c : Dev nD) (t : Fin cfg0.N) (y : Fin 2000) (q : Fin 128) (r : Fin 50000) (hr : r.val = 2000 * t.val + y.val) :
    (iblk0 V c 2 t : Vec Ideal S2000x128 .f32) (ix2 y q) = (V c main_v56 : S50000x128.Idx → EReal) (ix2 r q) := by
  obtain ⟨-, -, ⟨e0, e1⟩, -⟩ := index0 t
  unfold iblk0
  rw [View.read_apply]
  show V c main_v56 _ = V c main_v56 _
  congr 1
  funext a
  apply Fin.ext
  match a with
  | ⟨0, _⟩ => show win0_2.index t (0 : Fin 2) * 2000 + 1 * y.val = r.val; omega
  | ⟨1, _⟩ => show win0_2.index t (1 : Fin 2) * 128 + 1 * q.val = q.val; omega

/-- Row `y` of the block window 3 holds at grid point `t` is row `2000 t + y` of its array. -/
theorem rows0_3 (c : Dev nD) (t : Fin cfg0.N) (y : Fin 2000) (q : Fin 128) (r : Fin 50000) (hr : r.val = 2000 * t.val + y.val) :
    (iblk0 V c 3 t : Vec Ideal S2000x128 .f32) (ix2 y q) = (V c main_v75 : S50000x128.Idx → EReal) (ix2 r q) := by
  obtain ⟨-, -, -, ⟨e0, e1⟩, -⟩ := index0 t
  unfold iblk0
  rw [View.read_apply]
  show V c main_v75 _ = V c main_v75 _
  congr 1
  funext a
  apply Fin.ext
  match a with
  | ⟨0, _⟩ => show win0_3.index t (0 : Fin 2) * 2000 + 1 * y.val = r.val; omega
  | ⟨1, _⟩ => show win0_3.index t (1 : Fin 2) * 128 + 1 * q.val = q.val; omega

/-- The weights' window holds the whole stacked weight array at every grid point. -/
theorem weights0 (c : Dev nD) (t : Fin cfg0.N) :
    (iblk0 V c 4 t : Vec Ideal S4x128x32 .f32) = (V c main_v77 : S4x128x32.Idx → EReal) := by
  obtain ⟨-, -, -, -, ⟨e0, e1, e2⟩, -⟩ := index0 t
  funext j
  unfold iblk0
  rw [View.read_apply]
  show V c main_v77 _ = V c main_v77 _
  congr 1
  funext a
  apply Fin.ext
  match a with
  | ⟨0, _⟩ => show win0_4.index t (0 : Fin 3) * 4 + 1 * (j 0).val = (j 0).val; omega
  | ⟨1, _⟩ => show win0_4.index t (1 : Fin 3) * 128 + 1 * (j 1).val = (j 1).val; omega
  | ⟨2, _⟩ => show win0_4.index t (2 : Fin 3) * 32 + 1 * (j 2).val = (j 2).val; omega

/-- The biases' window holds the whole stacked bias array at every grid point. -/
theorem biases0 (c : Dev nD) (t : Fin cfg0.N) :
    (iblk0 V c 5 t : Vec Ideal S4x32 .f32) = (V c main_v79 : S4x32.Idx → EReal) := by
  obtain ⟨-, -, -, -, -, ⟨e0, e1⟩, -⟩ := index0 t
  funext j
  unfold iblk0
  rw [View.read_apply]
  show V c main_v79 _ = V c main_v79 _
  congr 1
  funext a
  apply Fin.ext
  match a with
  | ⟨0, _⟩ => show win0_5.index t (0 : Fin 2) * 4 + 1 * (j 0).val = (j 0).val; omega
  | ⟨1, _⟩ => show win0_5.index t (1 : Fin 2) * 32 + 1 * (j 1).val = (j 1).val; omega

/-- What grid point `t` writes back is block `t` of the layer of the whole arrays: the body leaves the layer of the
    feature blocks, and a layer's rows are the layer of the same rows. -/
theorem flushed0 (c : Dev nD) (t : Fin cfg0.N) :
    (dat0 (F := Ideal) V c).flushed 6 t
      = ((cfg0.win 6).blk t).view.read (Elt Ideal)
          (Cert.HopLayer.layer ![V c main_v18, V c main_v37, V c main_v56, V c main_v75] (V c main_v77) (V c main_v79)) := by
  show (cfg0.win 6).cut (grid0.coords t) ((dat0 V c).after 6 t) = _
  rw [after0_6, BodyValue.out0_eq, weights0 V c t, biases0 V c t]
  obtain ⟨-, -, -, -, -, -, ⟨e0, e1⟩⟩ := index0 t
  funext j
  obtain ⟨y, q, rfl⟩ : ∃ (y : Fin 2000) (q : Fin 128), j = ix2 y q := ⟨j 0, j 1, eq_ix2 j⟩
  have hy : y.val < 2000 := y.isLt
  have ht : t.val < 25 := t.isLt
  rw [View.read_apply]
  show Cert.HopLayer.layer _ _ _ (ix2 y q) = Cert.HopLayer.layer _ _ _ (((cfg0.win 6).blk t).view.emb (ix2 y q))
  have hemb : ((cfg0.win 6).blk t).view.emb (ix2 y q) = ix2 (⟨2000 * t.val + y.val, by omega⟩ : Fin 50000) q := by
    funext a
    apply Fin.ext
    match a with
    | ⟨0, _⟩ => show win0_6.index t (0 : Fin 2) * 2000 + 1 * y.val = 2000 * t.val + y.val; omega
    | ⟨1, _⟩ => show win0_6.index t (1 : Fin 2) * 128 + 1 * q.val = q.val; omega
  rw [hemb]
  refine layer_row _ _ _ _ y _ (fun k q' => ?_) q
  match k with
  | ⟨0, _⟩ => exact rows0_0 V c t y q' _ rfl
  | ⟨1, _⟩ => exact rows0_1 V c t y q' _ rfl
  | ⟨2, _⟩ => exact rows0_2 V c t y q' _ rfl
  | ⟨3, _⟩ => exact rows0_3 V c t y q' _ rfl

/-- An index of the result array is in grid point `t`'s block iff each coordinate is in the block's range on its axis. -/
theorem mem_block0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v80).slice (win0_6.rect t)).set ↔ _
  rw [View.set_slice_whole, Rect.mem_set_unit]
  exact Iff.rfl

/-- The blocks tile the result: row `r` lies in the block of grid point `r / 2000`. -/
theorem cover0 (i : S50000x128.Idx) :
    ∃ t : Fin cfg0.N, (cfg0.win 6).flush t = true ∧ i ∈ ((cfg0.win 6).blk t).view.set := by
  have h0 : (i 0).val < 50000 := (i 0).isLt
  have h1 : (i 1).val < 128 := (i 1).isLt
  have ht : (i 0).val / 2000 < cfg0.N := by show _ < 25; omega
  obtain ⟨-, -, -, -, -, -, ⟨e0, e1⟩⟩ := index0 ⟨(i 0).val / 2000, ht⟩
  refine ⟨⟨(i 0).val / 2000, ht⟩, flush0_6 _, ?_⟩
  rw [mem_block0]
  intro a
  match a with
  | ⟨0, _⟩ =>
    show win0_6.index _ (0 : Fin 2) * 2000 ≤ (i 0).val ∧ (i 0).val < win0_6.index _ (0 : Fin 2) * 2000 + 2000
    rw [e0]; show (i 0).val / 2000 * 2000 ≤ (i 0).val ∧ (i 0).val < (i 0).val / 2000 * 2000 + 2000; omega
  | ⟨1, _⟩ =>
    show win0_6.index _ (1 : Fin 2) * 128 ≤ (i 1).val ∧ (i 1).val < win0_6.index _ (1 : Fin 2) * 128 + 128
    rw [e1]; omega

end

/-- The first layer's result array after its pipeline is the layer of the arrays the region finds on entry. -/
theorem region0 (V : (c : Dev nD) → (b : Ref sig .tc) → Buf (Elt Ideal) ((c : Thread nD τ).loc b)) (c : Dev nD) :
    (dat0 (F := Ideal) V c).arrAt 6 cfg0.N
      = Cert.HopLayer.layer ![V c main_v18, V c main_v37, V c main_v56, V c main_v75] (V c main_v77) (V c main_v79) :=
  (dat0 V c).arrAt_eq_of_cover 6 _ (fun t _ => flushed0 V c t) (cover0)

/-! ## The second layer's region -/

section

variable (V : (c : Dev nD) → (b : Ref sig .tc) → Buf (Elt Ideal) ((c : Thread nD τ).loc b))

/-- The block indices of the second layer's windows at grid point `t`: the four feature windows and the result's sit
    at block `(t, 0)`, the stacked weights and the stacked biases at block 0. -/
theorem index1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 3) = 0 ∧ win1_4.index t (1 : Fin 3) = 0 ∧ win1_4.index t (2 : Fin 3) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row `y` of the block window 0 holds at grid point `t` is row `2000 t + y` of its array. -/
theorem rows1_0 (c : Dev nD) (t : Fin cfg1.N) (y : Fin 2000) (q : Fin 128) (r : Fin 50000) (hr : r.val = 2000 * t.val + y.val) :
    (iblk1 V c 0 t : Vec Ideal S2000x128 .f32) (ix2 y q) = (V c main_v99 : S50000x128.Idx → EReal) (ix2 r q) := by
  obtain ⟨⟨e0, e1⟩, -⟩ := index1 t
  unfold iblk1
  rw [View.read_apply]
  show V c main_v99 _ = V c main_v99 _
  congr 1
  funext a
  apply Fin.ext
  match a with
  | ⟨0, _⟩ => show win1_0.index t (0 : Fin 2) * 2000 + 1 * y.val = r.val; omega
  | ⟨1, _⟩ => show win1_0.index t (1 : Fin 2) * 128 + 1 * q.val = q.val; omega

/-- Row `y` of the block window 1 holds at grid point `t` is row `2000 t + y` of its array. -/
theorem rows1_1 (c : Dev nD) (t : Fin cfg1.N) (y : Fin 2000) (q : Fin 128) (r : Fin 50000) (hr : r.val = 2000 * t.val + y.val) :
    (iblk1 V c 1 t : Vec Ideal S2000x128 .f32) (ix2 y q) = (V c main_v118 : S50000x128.Idx → EReal) (ix2 r q) := by
  obtain ⟨-, ⟨e0, e1⟩, -⟩ := index1 t
  unfold iblk1
  rw [View.read_apply]
  show V c main_v118 _ = V c main_v118 _
  congr 1
  funext a
  apply Fin.ext
  match a with
  | ⟨0, _⟩ => show win1_1.index t (0 : Fin 2) * 2000 + 1 * y.val = r.val; omega
  | ⟨1, _⟩ => show win1_1.index t (1 : Fin 2) * 128 + 1 * q.val = q.val; omega

/-- Row `y` of the block window 2 holds at grid point `t` is row `2000 t + y` of its array. -/
theorem rows1_2 (c : Dev nD) (t : Fin cfg1.N) (y : Fin 2000) (q : Fin 128) (r : Fin 50000) (hr : r.val = 2000 * t.val + y.val) :
    (iblk1 V c 2 t : Vec Ideal S2000x128 .f32) (ix2 y q) = (V c main_v137 : S50000x128.Idx → EReal) (ix2 r q) := by
  obtain ⟨-, -, ⟨e0, e1⟩, -⟩ := index1 t
  unfold iblk1
  rw [View.read_apply]
  show V c main_v137 _ = V c main_v137 _
  congr 1
  funext a
  apply Fin.ext
  match a with
  | ⟨0, _⟩ => show win1_2.index t (0 : Fin 2) * 2000 + 1 * y.val = r.val; omega
  | ⟨1, _⟩ => show win1_2.index t (1 : Fin 2) * 128 + 1 * q.val = q.val; omega

/-- Row `y` of the block window 3 holds at grid point `t` is row `2000 t + y` of its array. -/
theorem rows1_3 (c : Dev nD) (t : Fin cfg1.N) (y : Fin 2000) (q : Fin 128) (r : Fin 50000) (hr : r.val = 2000 * t.val + y.val) :
    (iblk1 V c 3 t : Vec Ideal S2000x128 .f32) (ix2 y q) = (V c main_v156 : S50000x128.Idx → EReal) (ix2 r q) := by
  obtain ⟨-, -, -, ⟨e0, e1⟩, -⟩ := index1 t
  unfold iblk1
  rw [View.read_apply]
  show V c main_v156 _ = V c main_v156 _
  congr 1
  funext a
  apply Fin.ext
  match a with
  | ⟨0, _⟩ => show win1_3.index t (0 : Fin 2) * 2000 + 1 * y.val = r.val; omega
  | ⟨1, _⟩ => show win1_3.index t (1 : Fin 2) * 128 + 1 * q.val = q.val; omega

/-- The weights' window holds the whole stacked weight array at every grid point. -/
theorem weights1 (c : Dev nD) (t : Fin cfg1.N) :
    (iblk1 V c 4 t : Vec Ideal S4x128x32 .f32) = (V c main_v158 : S4x128x32.Idx → EReal) := by
  obtain ⟨-, -, -, -, ⟨e0, e1, e2⟩, -⟩ := index1 t
  funext j
  unfold iblk1
  rw [View.read_apply]
  show V c main_v158 _ = V c main_v158 _
  congr 1
  funext a
  apply Fin.ext
  match a with
  | ⟨0, _⟩ => show win1_4.index t (0 : Fin 3) * 4 + 1 * (j 0).val = (j 0).val; omega
  | ⟨1, _⟩ => show win1_4.index t (1 : Fin 3) * 128 + 1 * (j 1).val = (j 1).val; omega
  | ⟨2, _⟩ => show win1_4.index t (2 : Fin 3) * 32 + 1 * (j 2).val = (j 2).val; omega

/-- The biases' window holds the whole stacked bias array at every grid point. -/
theorem biases1 (c : Dev nD) (t : Fin cfg1.N) :
    (iblk1 V c 5 t : Vec Ideal S4x32 .f32) = (V c main_v160 : S4x32.Idx → EReal) := by
  obtain ⟨-, -, -, -, -, ⟨e0, e1⟩, -⟩ := index1 t
  funext j
  unfold iblk1
  rw [View.read_apply]
  show V c main_v160 _ = V c main_v160 _
  congr 1
  funext a
  apply Fin.ext
  match a with
  | ⟨0, _⟩ => show win1_5.index t (0 : Fin 2) * 4 + 1 * (j 0).val = (j 0).val; omega
  | ⟨1, _⟩ => show win1_5.index t (1 : Fin 2) * 32 + 1 * (j 1).val = (j 1).val; omega

/-- What grid point `t` writes back is block `t` of the layer of the whole arrays: the body leaves the layer of the
    feature blocks, and a layer's rows are the layer of the same rows. -/
theorem flushed1 (c : Dev nD) (t : Fin cfg1.N) :
    (dat1 (F := Ideal) V c).flushed 6 t
      = ((cfg1.win 6).blk t).view.read (Elt Ideal)
          (Cert.HopLayer.layer ![V c main_v99, V c main_v118, V c main_v137, V c main_v156] (V c main_v158) (V c main_v160)) := by
  show (cfg1.win 6).cut (grid1.coords t) ((dat1 V c).after 6 t) = _
  rw [after1_6, BodyValue.out1_eq, weights1 V c t, biases1 V c t]
  obtain ⟨-, -, -, -, -, -, ⟨e0, e1⟩⟩ := index1 t
  funext j
  obtain ⟨y, q, rfl⟩ : ∃ (y : Fin 2000) (q : Fin 128), j = ix2 y q := ⟨j 0, j 1, eq_ix2 j⟩
  have hy : y.val < 2000 := y.isLt
  have ht : t.val < 25 := t.isLt
  rw [View.read_apply]
  show Cert.HopLayer.layer _ _ _ (ix2 y q) = Cert.HopLayer.layer _ _ _ (((cfg1.win 6).blk t).view.emb (ix2 y q))
  have hemb : ((cfg1.win 6).blk t).view.emb (ix2 y q) = ix2 (⟨2000 * t.val + y.val, by omega⟩ : Fin 50000) q := by
    funext a
    apply Fin.ext
    match a with
    | ⟨0, _⟩ => show win1_6.index t (0 : Fin 2) * 2000 + 1 * y.val = 2000 * t.val + y.val; omega
    | ⟨1, _⟩ => show win1_6.index t (1 : Fin 2) * 128 + 1 * q.val = q.val; omega
  rw [hemb]
  refine layer_row _ _ _ _ y _ (fun k q' => ?_) q
  match k with
  | ⟨0, _⟩ => exact rows1_0 V c t y q' _ rfl
  | ⟨1, _⟩ => exact rows1_1 V c t y q' _ rfl
  | ⟨2, _⟩ => exact rows1_2 V c t y q' _ rfl
  | ⟨3, _⟩ => exact rows1_3 V c t y q' _ rfl

/-- An index of the result array is in grid point `t`'s block iff each coordinate is in the block's range on its axis. -/
theorem mem_block1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v161).slice (win1_6.rect t)).set ↔ _
  rw [View.set_slice_whole, Rect.mem_set_unit]
  exact Iff.rfl

/-- The blocks tile the result: row `r` lies in the block of grid point `r / 2000`. -/
theorem cover1 (i : S50000x128.Idx) :
    ∃ t : Fin cfg1.N, (cfg1.win 6).flush t = true ∧ i ∈ ((cfg1.win 6).blk t).view.set := by
  have h0 : (i 0).val < 50000 := (i 0).isLt
  have h1 : (i 1).val < 128 := (i 1).isLt
  have ht : (i 0).val / 2000 < cfg1.N := by show _ < 25; omega
  obtain ⟨-, -, -, -, -, -, ⟨e0, e1⟩⟩ := index1 ⟨(i 0).val / 2000, ht⟩
  refine ⟨⟨(i 0).val / 2000, ht⟩, flush1_6 _, ?_⟩
  rw [mem_block1]
  intro a
  match a with
  | ⟨0, _⟩ =>
    show win1_6.index _ (0 : Fin 2) * 2000 ≤ (i 0).val ∧ (i 0).val < win1_6.index _ (0 : Fin 2) * 2000 + 2000
    rw [e0]; show (i 0).val / 2000 * 2000 ≤ (i 0).val ∧ (i 0).val < (i 0).val / 2000 * 2000 + 2000; omega
  | ⟨1, _⟩ =>
    show win1_6.index _ (1 : Fin 2) * 128 ≤ (i 1).val ∧ (i 1).val < win1_6.index _ (1 : Fin 2) * 128 + 128
    rw [e1]; omega

end

/-- The second layer's result array after its pipeline is the layer of the arrays the region finds on entry. -/
theorem region1 (V : (c : Dev nD) → (b : Ref sig .tc) → Buf (Elt Ideal) ((c : Thread nD τ).loc b)) (c : Dev nD) :
    (dat1 (F := Ideal) V c).arrAt 6 cfg1.N
      = Cert.HopLayer.layer ![V c main_v99, V c main_v118, V c main_v137, V c main_v156] (V c main_v158) (V c main_v160) :=
  (dat1 V c).arrAt_eq_of_cover 6 _ (fun t _ => flushed1 V c t) (cover1)

/-! ## The third layer's region -/

section

variable (V : (c : Dev nD) → (b : Ref sig .tc) → Buf (Elt Ideal) ((c : Thread nD τ).loc b))

/-- The block indices of the third layer's windows at grid point `t`: the four feature windows and the result's sit
    at block `(t, 0)`, the stacked weights and the stacked biases at block 0. -/
theorem index2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 3) = 0 ∧ win2_4.index t (1 : Fin 3) = 0 ∧ win2_4.index t (2 : Fin 3) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Row `y` of the block window 0 holds at grid point `t` is row `2000 t + y` of its array. -/
theorem rows2_0 (c : Dev nD) (t : Fin cfg2.N) (y : Fin 2000) (q : Fin 128) (r : Fin 50000) (hr : r.val = 2000 * t.val + y.val) :
    (iblk2 V c 0 t : Vec Ideal S2000x128 .f32) (ix2 y q) = (V c main_v180 : S50000x128.Idx → EReal) (ix2 r q) := by
  obtain ⟨⟨e0, e1⟩, -⟩ := index2 t
  unfold iblk2
  rw [View.read_apply]
  show V c main_v180 _ = V c main_v180 _
  congr 1
  funext a
  apply Fin.ext
  match a with
  | ⟨0, _⟩ => show win2_0.index t (0 : Fin 2) * 2000 + 1 * y.val = r.val; omega
  | ⟨1, _⟩ => show win2_0.index t (1 : Fin 2) * 128 + 1 * q.val = q.val; omega

/-- Row `y` of the block window 1 holds at grid point `t` is row `2000 t + y` of its array. -/
theorem rows2_1 (c : Dev nD) (t : Fin cfg2.N) (y : Fin 2000) (q : Fin 128) (r : Fin 50000) (hr : r.val = 2000 * t.val + y.val) :
    (iblk2 V c 1 t : Vec Ideal S2000x128 .f32) (ix2 y q) = (V c main_v199 : S50000x128.Idx → EReal) (ix2 r q) := by
  obtain ⟨-, ⟨e0, e1⟩, -⟩ := index2 t
  unfold iblk2
  rw [View.read_apply]
  show V c main_v199 _ = V c main_v199 _
  congr 1
  funext a
  apply Fin.ext
  match a with
  | ⟨0, _⟩ => show win2_1.index t (0 : Fin 2) * 2000 + 1 * y.val = r.val; omega
  | ⟨1, _⟩ => show win2_1.index t (1 : Fin 2) * 128 + 1 * q.val = q.val; omega

/-- Row `y` of the block window 2 holds at grid point `t` is row `2000 t + y` of its array. -/
theorem rows2_2 (c : Dev nD) (t : Fin cfg2.N) (y : Fin 2000) (q : Fin 128) (r : Fin 50000) (hr : r.val = 2000 * t.val + y.val) :
    (iblk2 V c 2 t : Vec Ideal S2000x128 .f32) (ix2 y q) = (V c main_v218 : S50000x128.Idx → EReal) (ix2 r q) := by
  obtain ⟨-, -, ⟨e0, e1⟩, -⟩ := index2 t
  unfold iblk2
  rw [View.read_apply]
  show V c main_v218 _ = V c main_v218 _
  congr 1
  funext a
  apply Fin.ext
  match a with
  | ⟨0, _⟩ => show win2_2.index t (0 : Fin 2) * 2000 + 1 * y.val = r.val; omega
  | ⟨1, _⟩ => show win2_2.index t (1 : Fin 2) * 128 + 1 * q.val = q.val; omega

/-- Row `y` of the block window 3 holds at grid point `t` is row `2000 t + y` of its array. -/
theorem rows2_3 (c : Dev nD) (t : Fin cfg2.N) (y : Fin 2000) (q : Fin 128) (r : Fin 50000) (hr : r.val = 2000 * t.val + y.val) :
    (iblk2 V c 3 t : Vec Ideal S2000x128 .f32) (ix2 y q) = (V c main_v237 : S50000x128.Idx → EReal) (ix2 r q) := by
  obtain ⟨-, -, -, ⟨e0, e1⟩, -⟩ := index2 t
  unfold iblk2
  rw [View.read_apply]
  show V c main_v237 _ = V c main_v237 _
  congr 1
  funext a
  apply Fin.ext
  match a with
  | ⟨0, _⟩ => show win2_3.index t (0 : Fin 2) * 2000 + 1 * y.val = r.val; omega
  | ⟨1, _⟩ => show win2_3.index t (1 : Fin 2) * 128 + 1 * q.val = q.val; omega

/-- The weights' window holds the whole stacked weight array at every grid point. -/
theorem weights2 (c : Dev nD) (t : Fin cfg2.N) :
    (iblk2 V c 4 t : Vec Ideal S4x128x32 .f32) = (V c main_v239 : S4x128x32.Idx → EReal) := by
  obtain ⟨-, -, -, -, ⟨e0, e1, e2⟩, -⟩ := index2 t
  funext j
  unfold iblk2
  rw [View.read_apply]
  show V c main_v239 _ = V c main_v239 _
  congr 1
  funext a
  apply Fin.ext
  match a with
  | ⟨0, _⟩ => show win2_4.index t (0 : Fin 3) * 4 + 1 * (j 0).val = (j 0).val; omega
  | ⟨1, _⟩ => show win2_4.index t (1 : Fin 3) * 128 + 1 * (j 1).val = (j 1).val; omega
  | ⟨2, _⟩ => show win2_4.index t (2 : Fin 3) * 32 + 1 * (j 2).val = (j 2).val; omega

/-- The biases' window holds the whole stacked bias array at every grid point. -/
theorem biases2 (c : Dev nD) (t : Fin cfg2.N) :
    (iblk2 V c 5 t : Vec Ideal S4x32 .f32) = (V c main_v241 : S4x32.Idx → EReal) := by
  obtain ⟨-, -, -, -, -, ⟨e0, e1⟩, -⟩ := index2 t
  funext j
  unfold iblk2
  rw [View.read_apply]
  show V c main_v241 _ = V c main_v241 _
  congr 1
  funext a
  apply Fin.ext
  match a with
  | ⟨0, _⟩ => show win2_5.index t (0 : Fin 2) * 4 + 1 * (j 0).val = (j 0).val; omega
  | ⟨1, _⟩ => show win2_5.index t (1 : Fin 2) * 32 + 1 * (j 1).val = (j 1).val; omega

/-- What grid point `t` writes back is block `t` of the layer of the whole arrays: the body leaves the layer of the
    feature blocks, and a layer's rows are the layer of the same rows. -/
theorem flushed2 (c : Dev nD) (t : Fin cfg2.N) :
    (dat2 (F := Ideal) V c).flushed 6 t
      = ((cfg2.win 6).blk t).view.read (Elt Ideal)
          (Cert.HopLayer.layer ![V c main_v180, V c main_v199, V c main_v218, V c main_v237] (V c main_v239) (V c main_v241)) := by
  show (cfg2.win 6).cut (grid2.coords t) ((dat2 V c).after 6 t) = _
  rw [after2_6, BodyValue.out2_eq, weights2 V c t, biases2 V c t]
  obtain ⟨-, -, -, -, -, -, ⟨e0, e1⟩⟩ := index2 t
  funext j
  obtain ⟨y, q, rfl⟩ : ∃ (y : Fin 2000) (q : Fin 128), j = ix2 y q := ⟨j 0, j 1, eq_ix2 j⟩
  have hy : y.val < 2000 := y.isLt
  have ht : t.val < 25 := t.isLt
  rw [View.read_apply]
  show Cert.HopLayer.layer _ _ _ (ix2 y q) = Cert.HopLayer.layer _ _ _ (((cfg2.win 6).blk t).view.emb (ix2 y q))
  have hemb : ((cfg2.win 6).blk t).view.emb (ix2 y q) = ix2 (⟨2000 * t.val + y.val, by omega⟩ : Fin 50000) q := by
    funext a
    apply Fin.ext
    match a with
    | ⟨0, _⟩ => show win2_6.index t (0 : Fin 2) * 2000 + 1 * y.val = 2000 * t.val + y.val; omega
    | ⟨1, _⟩ => show win2_6.index t (1 : Fin 2) * 128 + 1 * q.val = q.val; omega
  rw [hemb]
  refine layer_row _ _ _ _ y _ (fun k q' => ?_) q
  match k with
  | ⟨0, _⟩ => exact rows2_0 V c t y q' _ rfl
  | ⟨1, _⟩ => exact rows2_1 V c t y q' _ rfl
  | ⟨2, _⟩ => exact rows2_2 V c t y q' _ rfl
  | ⟨3, _⟩ => exact rows2_3 V c t y q' _ rfl

/-- An index of the result array is in grid point `t`'s block iff each coordinate is in the block's range on its axis. -/
theorem mem_block2 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v242).slice (win2_6.rect t)).set ↔ _
  rw [View.set_slice_whole, Rect.mem_set_unit]
  exact Iff.rfl

/-- The blocks tile the result: row `r` lies in the block of grid point `r / 2000`. -/
theorem cover2 (i : S50000x128.Idx) :
    ∃ t : Fin cfg2.N, (cfg2.win 6).flush t = true ∧ i ∈ ((cfg2.win 6).blk t).view.set := by
  have h0 : (i 0).val < 50000 := (i 0).isLt
  have h1 : (i 1).val < 128 := (i 1).isLt
  have ht : (i 0).val / 2000 < cfg2.N := by show _ < 25; omega
  obtain ⟨-, -, -, -, -, -, ⟨e0, e1⟩⟩ := index2 ⟨(i 0).val / 2000, ht⟩
  refine ⟨⟨(i 0).val / 2000, ht⟩, flush2_6 _, ?_⟩
  rw [mem_block2]
  intro a
  match a with
  | ⟨0, _⟩ =>
    show win2_6.index _ (0 : Fin 2) * 2000 ≤ (i 0).val ∧ (i 0).val < win2_6.index _ (0 : Fin 2) * 2000 + 2000
    rw [e0]; show (i 0).val / 2000 * 2000 ≤ (i 0).val ∧ (i 0).val < (i 0).val / 2000 * 2000 + 2000; omega
  | ⟨1, _⟩ =>
    show win2_6.index _ (1 : Fin 2) * 128 ≤ (i 1).val ∧ (i 1).val < win2_6.index _ (1 : Fin 2) * 128 + 128
    rw [e1]; omega

end

/-- The third layer's result array after its pipeline is the layer of the arrays the region finds on entry. -/
theorem region2 (V : (c : Dev nD) → (b : Ref sig .tc) → Buf (Elt Ideal) ((c : Thread nD τ).loc b)) (c : Dev nD) :
    (dat2 (F := Ideal) V c).arrAt 6 cfg2.N
      = Cert.HopLayer.layer ![V c main_v180, V c main_v199, V c main_v218, V c main_v237] (V c main_v239) (V c main_v241) :=
  (dat2 V c).arrAt_eq_of_cover 6 _ (fun t _ => flushed2 V c t) (cover2)

end Cert.KernelIdeal.RegionValue

end
-- ==== Proof.RegionClassify.lean ====
/-
  The classifier region's output array after its pipeline, as one function of the arrays the region finds on entry.
-/
import proofs.«127566_j19559281066123_1_alg».proof.Proof.Gen.KernelIdeal.Frame
import proofs.«127566_j19559281066123_1_alg».proof.Proof.Spec
import proofs.«127566_j19559281066123_1_alg».proof.Proof.BodyValue
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The classifier is computed row by row: if row `r'` of `x` is row `r` of `H`, and the weights and the one-row bias
    agree entry by entry, the classifier of `x` at `(r', n)` is the classifier of `H` at `(r, n)`. -/
theorem classify_row_congr {R R' : ℕ} (H : FVec Ideal ⟨2, ![R, 128]⟩ .f32) (x : FVec Ideal ⟨2, ![R', 128]⟩ .f32)
    (Wc Wc' : FVec Ideal ⟨2, ![128, 40]⟩ .f32) (bc bc' : FVec Ideal ⟨2, ![1, 40]⟩ .f32)
    (r' : Fin R') (r : Fin R) (n : Fin 40)
    (hx : ∀ k : Fin 128, x (ix2 r' k) = H (ix2 r k))
    (hW : ∀ (k : Fin 128) (n : Fin 40), Wc' (ix2 k n) = Wc (ix2 k n))
    (hb : ∀ n : Fin 40, bc' (ix2 (0 : Fin 1) n) = bc (ix2 (0 : Fin 1) n)) :
    Cert.HopLayer.classify x Wc' bc' (ix2 r' n) = Cert.HopLayer.classify H Wc bc (ix2 r n) := by
  rw [Cert.HopLayer.classify_apply, Cert.HopLayer.classify_apply]
  have e1 : Cert.DenseRows.row x r' = Cert.DenseRows.row H r := funext hx
  have e2 : Cert.DenseRows.mat Wc' = Cert.DenseRows.mat Wc := funext fun k => funext fun n => hW k n
  have e3 : Cert.DenseRows.row bc' (0 : Fin 1) = Cert.DenseRows.row bc (0 : Fin 1) := funext hb
  rw [e1, e2, e3]

/-- The printed index maps, decided over the ten grid points: the feature window and the output window are at block
    `(t, 0)`, the weight and bias windows at block `(0, 0)`. -/
theorem classify_index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature window's block at point `t` is rows `5000 t … 5000 t + 4999` of the feature array. -/
theorem classify_features_block (V : (c : Dev nD) → (b : Ref sig .tc) → Buf (Elt Ideal) ((c : Thread nD τ).loc b)) (c : Dev nD)
    (t : Fin cfg3.N) (r' : Fin 5000) (k : Fin 128) (r : Fin 50000) (hr : r.val = 5000 * t.val + r'.val) :
    (iblk3 (F := Ideal) V c 0 t : Vec Ideal S5000x128 .f32) (ix2 r' k)
      = (V c main_v242 : S50000x128.Idx → Elt Ideal .f32) (ix2 r k) := by
  obtain ⟨e0, e1, -⟩ := classify_index_facts t
  unfold iblk3
  rw [View.read_apply]
  show V c main_v242 _ = V c main_v242 _
  congr 1
  funext a
  apply Fin.ext
  match a with
  | ⟨0, _⟩ => show win3_0.index t (0 : Fin 2) * 5000 + 1 * r'.val = r.val; rw [e0, hr]; omega
  | ⟨1, _⟩ => show win3_0.index t (1 : Fin 2) * 128 + 1 * k.val = k.val; rw [e1]; omega

/-- The weight window's block at every point is the whole weight matrix. -/
theorem classify_weights_block (V : (c : Dev nD) → (b : Ref sig .tc) → Buf (Elt Ideal) ((c : Thread nD τ).loc b)) (c : Dev nD)
    (t : Fin cfg3.N) (k : Fin 128) (n : Fin 40) :
    (iblk3 (F := Ideal) V c 1 t : Vec Ideal S128x40 .f32) (ix2 k n)
      = (V c main_arg4 : S128x40.Idx → Elt Ideal .f32) (ix2 k n) := by
  obtain ⟨-, -, e0, e1, -⟩ := classify_index_facts t
  unfold iblk3
  rw [View.read_apply]
  show V c main_arg4 _ = V c main_arg4 _
  congr 1
  funext a
  apply Fin.ext
  match a with
  | ⟨0, _⟩ => show win3_1.index t (0 : Fin 2) * 128 + 1 * k.val = k.val; rw [e0]; omega
  | ⟨1, _⟩ => show win3_1.index t (1 : Fin 2) * 40 + 1 * n.val = n.val; rw [e1]; omega

/-- The bias window's block at every point is the whole one-row bias. -/
theorem classify_bias_block (V : (c : Dev nD) → (b : Ref sig .tc) → Buf (Elt Ideal) ((c : Thread nD τ).loc b)) (c : Dev nD)
    (t : Fin cfg3.N) (u : Fin 1) (n : Fin 40) :
    (iblk3 (F := Ideal) V c 2 t : Vec Ideal S1x40 .f32) (ix2 u n)
      = (V c main_v243 : S1x40.Idx → Elt Ideal .f32) (ix2 u n) := by
  obtain ⟨-, -, -, -, e0, e1, -⟩ := classify_index_facts t
  unfold iblk3
  rw [View.read_apply]
  show V c main_v243 _ = V c main_v243 _
  congr 1
  funext a
  apply Fin.ext
  match a with
  | ⟨0, _⟩ => show win3_2.index t (0 : Fin 2) * 1 + 1 * u.val = u.val; rw [e0]; omega
  | ⟨1, _⟩ => show win3_2.index t (1 : Fin 2) * 40 + 1 * n.val = n.val; rw [e1]; omega

/-- AT ONE POINT: the classifier of the three blocks at point `t`, read at `y`, is the classifier of the whole arrays read
    at any index `i` whose row is `5000 t` plus `y`'s and whose column is `y`'s. -/
theorem classify_blocks_apply (V : (c : Dev nD) → (b : Ref sig .tc) → Buf (Elt Ideal) ((c : Thread nD τ).loc b)) (c : Dev nD)
    (t : Fin cfg3.N) (y : S5000x40.Idx) (i : S50000x40.Idx)
    (h0 : (i 0).val = 5000 * t.val + (y 0).val) (h1 : (i 1).val = (y 1).val) :
    Cert.HopLayer.classify (iblk3 (F := Ideal) V c 0 t) (iblk3 (F := Ideal) V c 1 t) (iblk3 (F := Ideal) V c 2 t) y
      = Cert.HopLayer.classify (V c main_v242) (V c main_arg4) (V c main_v243) i := by
  obtain ⟨r', n, rfl⟩ : ∃ (r' : Fin 5000) (n : Fin 40), y = ix2 r' n := ⟨y 0, y 1, eq_ix2 y⟩
  obtain ⟨r, n', rfl⟩ : ∃ (r : Fin 50000) (n' : Fin 40), i = ix2 r n' := ⟨i 0, i 1, eq_ix2 i⟩
  have hn : n' = n := Fin.ext h1
  subst hn
  exact classify_row_congr (V c main_v242) (iblk3 (F := Ideal) V c 0 t) (V c main_arg4) (iblk3 (F := Ideal) V c 1 t)
    (V c main_v243) (iblk3 (F := Ideal) V c 2 t) r' r n'
    (fun k => classify_features_block V c t r' k r h0) (fun k n => classify_weights_block V c t k n) (fun n => classify_bias_block V c t 0 n)

/-- WHAT POINT `t` WRITES BACK is block `t` of the classifier of the whole arrays. -/
theorem classify_flushed (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal)
      (Cert.HopLayer.classify (V c main_v242) (V c main_arg4) (V c main_v243)) := by
  show (cfg3.win 3).cut (grid3.coords t) ((dat3 V c).after 3 t) = _
  rw [after3_3, Cert.KernelIdeal.BodyValue.out3_eq]
  obtain ⟨-, -, -, -, -, -, e0, e1⟩ := classify_index_facts t
  funext j
  rw [View.read_apply]
  show Cert.HopLayer.classify (iblk3 V c 0 t) (iblk3 V c 1 t) (iblk3 V c 2 t) j
    = Cert.HopLayer.classify (V c main_v242) (V c main_arg4) (V c main_v243) (((cfg3.win 3).blk t).view.emb j)
  refine classify_blocks_apply V c t j (((cfg3.win 3).blk t).view.emb j) ?_ ?_
  · show win3_3.index t (0 : Fin 2) * 5000 + 1 * (j 0).val = 5000 * t.val + (j 0).val
    rw [e0]; omega
  · show win3_3.index t (1 : Fin 2) * 40 + 1 * (j 1).val = (j 1).val
    rw [e1]; omega

/-- An index of the output array is in point `t`'s block iff each coordinate is in the block's range on its axis. -/
theorem mem_classify_block (t : Fin cfg3.N) (i : S50000x40.Idx) :
    i ∈ ((cfg3.win 3).blk t).view.set
      ↔ ∀ a : Fin 2, win3_3.index t a * S5000x40.size a ≤ (i a).val
          ∧ (i a).val < win3_3.index t a * S5000x40.size a + S5000x40.size a := by
  show i ∈ ((View.whole main_v244).slice (win3_3.rect t)).set ↔ _
  rw [View.set_slice_whole, Rect.mem_set_unit]
  exact Iff.rfl

/-- THE BLOCKS COVER THE ARRAY: row `r` is in the block of point `r / 5000`, which writes its block back. -/
theorem classify_cover (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, e0, e1⟩ := classify_index_facts t
  refine ⟨t, flush3_3 t, ?_⟩
  rw [mem_classify_block]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 40 ≤ (i 1).val ∧ (i 1).val < win3_3.index t (1 : Fin 2) * 40 + 40
    rw [e1]; omega

/-- THE OUTPUT ARRAY after the classifier's pipeline is the classifier of the arrays the region finds on entry. -/
theorem region3 (V : (c : Dev nD) → (b : Ref sig .tc) → Buf (Elt Ideal) ((c : Thread nD τ).loc b)) (c : Dev nD) :
    (dat3 (F := Ideal) V c).arrAt 3 cfg3.N
      = Cert.HopLayer.classify (V c main_v242) (V c main_arg4) (V c main_v243) :=
  (dat3 (F := Ideal) V c).arrAt_eq_of_cover 3 (Cert.HopLayer.classify (V c main_v242) (V c main_arg4) (V c main_v243))
    (fun t _ => classify_flushed V c t) classify_cover

end Cert.KernelIdeal.RegionValue

end
-- ==== Proof.KerSlices.lean ====
/-
  The kernel program hands each layer's kernel the slice `W[l]` reshaped to `[4, 128, 32]` and `b[l]` reshaped to
  `[4, 32]`; a layer over those is the layer over the whole arguments at `l`.
-/
import Idealize.ShloMosaic.Lib.ValueIdx
import Idealize.ShloMosaic.Lib.ValueLayout
import Idealize.ShloMosaic.Lib.Pipeline.Value
import proofs.«127566_j19559281066123_1_alg».proof.Proof.Spec

set_option maxRecDepth 16384

noncomputable section

namespace Cert.HopLayer.KerSlices

open Idealize.ShloMosaic Idealize.ShloMosaic.ValueIdx Cert.DenseRows

/-- The weights cut to layer `l` (one slab of the leading axis) and read without that unit axis give, at `(k, t, j)`,
    the whole weights at `(l, k, t, j)`. -/
theorem weights_read (l : ℕ) (l' : Fin 3) (hl : l'.val = l) (W : FVec Ideal ⟨4, ![3, 4, 128, 32]⟩ .f32)
    (hw : (⟨4, ![3, 4, 128, 32]⟩ : Shape).Slices ![l, 0, 0, 0] ⟨4, ![1, 4, 128, 32]⟩)
    (hcw : (⟨4, ![1, 4, 128, 32]⟩ : Shape).ShapeCasts ⟨3, ![4, 128, 32]⟩) (k : Fin 4) (t : Fin 128) (j : Fin 32) :
    shapeCast ⟨3, ![4, 128, 32]⟩ (extractStridedSlice ⟨4, ![1, 4, 128, 32]⟩ ![l, 0, 0, 0] W hw) hcw (ix3 k t j)
      = W (ix4 l' k t j) := by
  refine (shapeCast_1abc_abc_apply _ hcw k t j).trans ?_
  refine extractStridedSlice_apply _ W hw (ix4 (0 : Fin 1) k t j) (ix4 l' k t j) (fun ax => ?_)
  match ax with
  | ⟨0, _⟩ => show l'.val = l + 0; omega
  | ⟨1, _⟩ => exact (Nat.zero_add _).symm
  | ⟨2, _⟩ => exact (Nat.zero_add _).symm
  | ⟨3, _⟩ => exact (Nat.zero_add _).symm

/-- The biases cut to layer `l` and read without the unit axis give, at `(k, j)`, the whole biases at `(l, k, j)`. -/
theorem biases_read (l : ℕ) (l' : Fin 3) (hl : l'.val = l) (b : FVec Ideal ⟨3, ![3, 4, 32]⟩ .f32)
    (hb : (⟨3, ![3, 4, 32]⟩ : Shape).Slices ![l, 0, 0] ⟨3, ![1, 4, 32]⟩)
    (hcb : (⟨3, ![1, 4, 32]⟩ : Shape).ShapeCasts ⟨2, ![4, 32]⟩) (k : Fin 4) (j : Fin 32) :
    shapeCast ⟨2, ![4, 32]⟩ (extractStridedSlice ⟨3, ![1, 4, 32]⟩ ![l, 0, 0] b hb) hcb (ix2 k j)
      = b (ix3 l' k j) := by
  refine (shapeCast_1ab_ab_apply _ hcb k j).trans ?_
  refine extractStridedSlice_apply _ b hb (ix3 (0 : Fin 1) k j) (ix3 l' k j) (fun ax => ?_)
  match ax with
  | ⟨0, _⟩ => show l'.val = l + 0; omega
  | ⟨1, _⟩ => exact (Nat.zero_add _).symm
  | ⟨2, _⟩ => exact (Nat.zero_add _).symm

/-- A layer over the weights and biases cut to layer `l` is the layer over the whole arguments at `l`: hop `k`'s
    matrix and bias are read through the two cuts entry by entry. -/
theorem ker_slices_at {R : ℕ} (l : ℕ) (l' : Fin 3) (hl : l'.val = l) (A : Fin 4 → FVec Ideal ⟨2, ![R, 128]⟩ .f32)
    (W : FVec Ideal ⟨4, ![3, 4, 128, 32]⟩ .f32) (b : FVec Ideal ⟨3, ![3, 4, 32]⟩ .f32)
    (hw : (⟨4, ![3, 4, 128, 32]⟩ : Shape).Slices ![l, 0, 0, 0] ⟨4, ![1, 4, 128, 32]⟩)
    (hb : (⟨3, ![3, 4, 32]⟩ : Shape).Slices ![l, 0, 0] ⟨3, ![1, 4, 32]⟩)
    (hcw : (⟨4, ![1, 4, 128, 32]⟩ : Shape).ShapeCasts ⟨3, ![4, 128, 32]⟩)
    (hcb : (⟨3, ![1, 4, 32]⟩ : Shape).ShapeCasts ⟨2, ![4, 32]⟩) :
    Cert.HopLayer.layer A (shapeCast ⟨3, ![4, 128, 32]⟩ (extractStridedSlice ⟨4, ![1, 4, 128, 32]⟩ ![l, 0, 0, 0] W hw) hcw)
        (shapeCast ⟨2, ![4, 32]⟩ (extractStridedSlice ⟨3, ![1, 4, 32]⟩ ![l, 0, 0] b hb) hcb)
      = Cert.HopLayer.layerAt l' A W b := by
  refine Cert.HopLayer.ext_ix2 _ _ (fun r c => ?_)
  rw [Cert.HopLayer.layer_apply, Cert.HopLayer.layerAt_apply]
  have hW : Cert.HopLayer.slab
        (shapeCast ⟨3, ![4, 128, 32]⟩ (extractStridedSlice ⟨4, ![1, 4, 128, 32]⟩ ![l, 0, 0, 0] W hw) hcw)
        (Cert.HopLayer.colHop c)
      = fun t j => W (ix4 l' (Cert.HopLayer.colHop c) t j) :=
    funext fun t => funext fun j => weights_read l l' hl W hw hcw (Cert.HopLayer.colHop c) t j
  have hB : Cert.HopLayer.bias
        (shapeCast ⟨2, ![4, 32]⟩ (extractStridedSlice ⟨3, ![1, 4, 32]⟩ ![l, 0, 0] b hb) hcb)
        (Cert.HopLayer.colHop c)
      = fun j => b (ix3 l' (Cert.HopLayer.colHop c) j) :=
    funext fun j => biases_read l l' hl b hb hcb (Cert.HopLayer.colHop c) j
  rw [hW, hB]

theorem ker_slices0 {R : ℕ} (A : Fin 4 → FVec Ideal ⟨2, ![R, 128]⟩ .f32) (W : FVec Ideal ⟨4, ![3, 4, 128, 32]⟩ .f32) (b : FVec Ideal ⟨3, ![3, 4, 32]⟩ .f32)
    (hw : (⟨4, ![3, 4, 128, 32]⟩ : Shape).Slices ![0, 0, 0, 0] ⟨4, ![1, 4, 128, 32]⟩) (hb : (⟨3, ![3, 4, 32]⟩ : Shape).Slices ![0, 0, 0] ⟨3, ![1, 4, 32]⟩)
    (hcw : (⟨4, ![1, 4, 128, 32]⟩ : Shape).ShapeCasts ⟨3, ![4, 128, 32]⟩) (hcb : (⟨3, ![1, 4, 32]⟩ : Shape).ShapeCasts ⟨2, ![4, 32]⟩) :
    Cert.HopLayer.layer A (shapeCast ⟨3, ![4, 128, 32]⟩ (extractStridedSlice ⟨4, ![1, 4, 128, 32]⟩ ![0, 0, 0, 0] W hw) hcw)
        (shapeCast ⟨2, ![4, 32]⟩ (extractStridedSlice ⟨3, ![1, 4, 32]⟩ ![0, 0, 0] b hb) hcb)
      = Cert.HopLayer.layerAt 0 A W b :=
  ker_slices_at 0 0 rfl A W b hw hb hcw hcb

theorem ker_slices1 {R : ℕ} (A : Fin 4 → FVec Ideal ⟨2, ![R, 128]⟩ .f32) (W : FVec Ideal ⟨4, ![3, 4, 128, 32]⟩ .f32) (b : FVec Ideal ⟨3, ![3, 4, 32]⟩ .f32)
    (hw : (⟨4, ![3, 4, 128, 32]⟩ : Shape).Slices ![1, 0, 0, 0] ⟨4, ![1, 4, 128, 32]⟩) (hb : (⟨3, ![3, 4, 32]⟩ : Shape).Slices ![1, 0, 0] ⟨3, ![1, 4, 32]⟩)
    (hcw : (⟨4, ![1, 4, 128, 32]⟩ : Shape).ShapeCasts ⟨3, ![4, 128, 32]⟩) (hcb : (⟨3, ![1, 4, 32]⟩ : Shape).ShapeCasts ⟨2, ![4, 32]⟩) :
    Cert.HopLayer.layer A (shapeCast ⟨3, ![4, 128, 32]⟩ (extractStridedSlice ⟨4, ![1, 4, 128, 32]⟩ ![1, 0, 0, 0] W hw) hcw)
        (shapeCast ⟨2, ![4, 32]⟩ (extractStridedSlice ⟨3, ![1, 4, 32]⟩ ![1, 0, 0] b hb) hcb)
      = Cert.HopLayer.layerAt 1 A W b :=
  ker_slices_at 1 1 rfl A W b hw hb hcw hcb

theorem ker_slices2 {R : ℕ} (A : Fin 4 → FVec Ideal ⟨2, ![R, 128]⟩ .f32) (W : FVec Ideal ⟨4, ![3, 4, 128, 32]⟩ .f32) (b : FVec Ideal ⟨3, ![3, 4, 32]⟩ .f32)
    (hw : (⟨4, ![3, 4, 128, 32]⟩ : Shape).Slices ![2, 0, 0, 0] ⟨4, ![1, 4, 128, 32]⟩) (hb : (⟨3, ![3, 4, 32]⟩ : Shape).Slices ![2, 0, 0] ⟨3, ![1, 4, 32]⟩)
    (hcw : (⟨4, ![1, 4, 128, 32]⟩ : Shape).ShapeCasts ⟨3, ![4, 128, 32]⟩) (hcb : (⟨3, ![1, 4, 32]⟩ : Shape).ShapeCasts ⟨2, ![4, 32]⟩) :
    Cert.HopLayer.layer A (shapeCast ⟨3, ![4, 128, 32]⟩ (extractStridedSlice ⟨4, ![1, 4, 128, 32]⟩ ![2, 0, 0, 0] W hw) hcw)
        (shapeCast ⟨2, ![4, 32]⟩ (extractStridedSlice ⟨3, ![1, 4, 32]⟩ ![2, 0, 0] b hb) hcb)
      = Cert.HopLayer.layerAt 2 A W b :=
  ker_slices_at 2 2 rfl A W b hw hb hcw hcb

end Cert.HopLayer.KerSlices

end
-- ==== Proof.KernelValue.lean ====
/-
  The kernel program's result as one function of its arguments.

  The program is three layers and a classifier. Each layer's kernel leaves, in its output array, one layer
  (`HopLayer.layer`) of the four aggregated feature arrays its host stretch computed from the previous layer's
  output, with that layer's slices of the weights and biases; over the whole arguments that is `HopLayer.layerAt l`.
  The classifier's kernel leaves `HopLayer.classify` of the last layer's output. Composed along the run's
  boundaries this is `net` of the launch arguments.
-/
import proofs.«127566_j19559281066123_1_alg».proof.Proof.RunMain
import proofs.«127566_j19559281066123_1_alg».proof.Proof.HostKeep
import proofs.«127566_j19559281066123_1_alg».proof.Proof.HostReads0a
import proofs.«127566_j19559281066123_1_alg».proof.Proof.HostReads0b
import proofs.«127566_j19559281066123_1_alg».proof.Proof.HostReads1a
import proofs.«127566_j19559281066123_1_alg».proof.Proof.HostReads1b
import proofs.«127566_j19559281066123_1_alg».proof.Proof.HostReads2a
import proofs.«127566_j19559281066123_1_alg».proof.Proof.HostReads2b
import proofs.«127566_j19559281066123_1_alg».proof.Proof.Net
import proofs.«127566_j19559281066123_1_alg».proof.Proof.RegionValue
import proofs.«127566_j19559281066123_1_alg».proof.Proof.RegionClassify
import proofs.«127566_j19559281066123_1_alg».proof.Proof.KerSlices
import proofs.«127566_j19559281066123_1_alg».proof.Proof.Spec

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable (m : (ℓ : Loc nD τ sig) → Buf (Elt Ideal) ℓ) (ρ : Dev nD → PrngReg)

/-- After region 0 its output array holds layer 0 of the network on the input features. -/
theorem layer0_value (c : Dev nD) : W2 m ρ c (Proc.devRef .tc main_v80) = netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0)) := by
  refine (W2_arr m ρ c 6).trans ?_
  refine (Cert.KernelIdeal.RegionValue.region0 (V1 m ρ) c).trans ?_
  have e0 : V1 m ρ c main_v18 = agg (F := Ideal) ![0, 0] slices_S4x800000_S1x800000_0_0 (m ((c : Thread nD τ).loc main_arg1)) (m ((c : Thread nD τ).loc main_arg6)) (m ((c : Thread nD τ).loc main_arg7)) (m ((c : Thread nD τ).loc main_arg0)) :=
    read0_agg0 (W0 m ρ c)
  have e1 : V1 m ρ c main_v37 = agg (F := Ideal) ![1, 0] slices_S4x800000_S1x800000_1_0 (m ((c : Thread nD τ).loc main_arg1)) (m ((c : Thread nD τ).loc main_arg6)) (m ((c : Thread nD τ).loc main_arg7)) (m ((c : Thread nD τ).loc main_arg0)) :=
    read0_agg1 (W0 m ρ c)
  have e2 : V1 m ρ c main_v56 = agg (F := Ideal) ![2, 0] slices_S4x800000_S1x800000_2_0 (m ((c : Thread nD τ).loc main_arg1)) (m ((c : Thread nD τ).loc main_arg6)) (m ((c : Thread nD τ).loc main_arg7)) (m ((c : Thread nD τ).loc main_arg0)) :=
    read0_agg2 (W0 m ρ c)
  have e3 : V1 m ρ c main_v75 = agg (F := Ideal) ![3, 0] slices_S4x800000_S1x800000_3_0 (m ((c : Thread nD τ).loc main_arg1)) (m ((c : Thread nD τ).loc main_arg6)) (m ((c : Thread nD τ).loc main_arg7)) (m ((c : Thread nD τ).loc main_arg0)) :=
    read0_agg3 (W0 m ρ c)
  have ew : V1 m ρ c main_v77 = shapeCast S4x128x32 (extractStridedSlice S1x4x128x32 ![0, 0, 0, 0] (m ((c : Thread nD τ).loc main_arg2)) slices_S3x4x128x32_S1x4x128x32_0_0_0_0) shapeCasts_S1x4x128x32_S4x128x32 :=
    read0_w (W0 m ρ c)
  have eb : V1 m ρ c main_v79 = shapeCast S4x32 (extractStridedSlice S1x4x32 ![0, 0, 0] (m ((c : Thread nD τ).loc main_arg3)) slices_S3x4x32_S1x4x32_0_0_0) shapeCasts_S1x4x32_S4x32 :=
    read0_b (W0 m ρ c)
  rw [e0, e1, e2, e3, ew, eb]
  exact Cert.HopLayer.KerSlices.ker_slices0 _ _ _ _ _ _ _

/-- After region 1 its output array holds layer 1 of the network on layer 0's output. -/
theorem layer1_value (c : Dev nD) : W4 m ρ c (Proc.devRef .tc main_v161) = netLayer 1 (m ((c : Thread nD τ).loc main_arg1)) (m ((c : Thread nD τ).loc main_arg6)) (m ((c : Thread nD τ).loc main_arg7)) (m ((c : Thread nD τ).loc main_arg2)) (m ((c : Thread nD τ).loc main_arg3)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0))) := by
  refine (W4_arr m ρ c 6).trans ?_
  refine (Cert.KernelIdeal.RegionValue.region1 (V3 m ρ) c).trans ?_
  have e0 : V3 m ρ c main_v99 = agg (F := Ideal) ![0, 0] slices_S4x800000_S1x800000_0_0 (m ((c : Thread nD τ).loc main_arg1)) (m ((c : Thread nD τ).loc main_arg6)) (m ((c : Thread nD τ).loc main_arg7)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0))) :=
    (read1_agg0 (W2 m ρ c)).trans (by rw [W2_arg1 m ρ c, W2_arg6 m ρ c, W2_arg7 m ρ c, layer0_value m ρ c])
  have e1 : V3 m ρ c main_v118 = agg (F := Ideal) ![1, 0] slices_S4x800000_S1x800000_1_0 (m ((c : Thread nD τ).loc main_arg1)) (m ((c : Thread nD τ).loc main_arg6)) (m ((c : Thread nD τ).loc main_arg7)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0))) :=
    (read1_agg1 (W2 m ρ c)).trans (by rw [W2_arg1 m ρ c, W2_arg6 m ρ c, W2_arg7 m ρ c, layer0_value m ρ c])
  have e2 : V3 m ρ c main_v137 = agg (F := Ideal) ![2, 0] slices_S4x800000_S1x800000_2_0 (m ((c : Thread nD τ).loc main_arg1)) (m ((c : Thread nD τ).loc main_arg6)) (m ((c : Thread nD τ).loc main_arg7)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0))) :=
    (read1_agg2 (W2 m ρ c)).trans (by rw [W2_arg1 m ρ c, W2_arg6 m ρ c, W2_arg7 m ρ c, layer0_value m ρ c])
  have e3 : V3 m ρ c main_v156 = agg (F := Ideal) ![3, 0] slices_S4x800000_S1x800000_3_0 (m ((c : Thread nD τ).loc main_arg1)) (m ((c : Thread nD τ).loc main_arg6)) (m ((c : Thread nD τ).loc main_arg7)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0))) :=
    (read1_agg3 (W2 m ρ c)).trans (by rw [W2_arg1 m ρ c, W2_arg6 m ρ c, W2_arg7 m ρ c, layer0_value m ρ c])
  have ew : V3 m ρ c main_v158 = shapeCast S4x128x32 (extractStridedSlice S1x4x128x32 ![1, 0, 0, 0] (m ((c : Thread nD τ).loc main_arg2)) slices_S3x4x128x32_S1x4x128x32_1_0_0_0) shapeCasts_S1x4x128x32_S4x128x32 :=
    (read1_w (W2 m ρ c)).trans (by rw [W2_arg2 m ρ c])
  have eb : V3 m ρ c main_v160 = shapeCast S4x32 (extractStridedSlice S1x4x32 ![1, 0, 0] (m ((c : Thread nD τ).loc main_arg3)) slices_S3x4x32_S1x4x32_1_0_0) shapeCasts_S1x4x32_S4x32 :=
    (read1_b (W2 m ρ c)).trans (by rw [W2_arg3 m ρ c])
  rw [e0, e1, e2, e3, ew, eb]
  exact Cert.HopLayer.KerSlices.ker_slices1 _ _ _ _ _ _ _

/-- After region 2 its output array holds layer 2 of the network on layer 1's output. -/
theorem layer2_value (c : Dev nD) : W6 m ρ c (Proc.devRef .tc main_v242) = netLayer 2 (m ((c : Thread nD τ).loc main_arg1)) (m ((c : Thread nD τ).loc main_arg6)) (m ((c : Thread nD τ).loc main_arg7)) (m ((c : Thread nD τ).loc main_arg2)) (m ((c : Thread nD τ).loc main_arg3)) (netLayer 1 (m ((c : Thread nD τ).loc main_arg1)) (m ((c : Thread nD τ).loc main_arg6)) (m ((c : Thread nD τ).loc main_arg7)) (m ((c : Thread nD τ).loc main_arg2)) (m ((c : Thread nD τ).loc main_arg3)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0)))) := by
  refine (W6_arr m ρ c 6).trans ?_
  refine (Cert.KernelIdeal.RegionValue.region2 (V5 m ρ) c).trans ?_
  have e0 : V5 m ρ c main_v180 = agg (F := Ideal) ![0, 0] slices_S4x800000_S1x800000_0_0 (m ((c : Thread nD τ).loc main_arg1)) (m ((c : Thread nD τ).loc main_arg6)) (m ((c : Thread nD τ).loc main_arg7)) (netLayer 1 (m ((c : Thread nD τ).loc main_arg1)) (m ((c : Thread nD τ).loc main_arg6)) (m ((c : Thread nD τ).loc main_arg7)) (m ((c : Thread nD τ).loc main_arg2)) (m ((c : Thread nD τ).loc main_arg3)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0)))) :=
    (read2_agg0 (W4 m ρ c)).trans (by rw [W4_arg1 m ρ c, W4_arg6 m ρ c, W4_arg7 m ρ c, layer1_value m ρ c])
  have e1 : V5 m ρ c main_v199 = agg (F := Ideal) ![1, 0] slices_S4x800000_S1x800000_1_0 (m ((c : Thread nD τ).loc main_arg1)) (m ((c : Thread nD τ).loc main_arg6)) (m ((c : Thread nD τ).loc main_arg7)) (netLayer 1 (m ((c : Thread nD τ).loc main_arg1)) (m ((c : Thread nD τ).loc main_arg6)) (m ((c : Thread nD τ).loc main_arg7)) (m ((c : Thread nD τ).loc main_arg2)) (m ((c : Thread nD τ).loc main_arg3)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0)))) :=
    (read2_agg1 (W4 m ρ c)).trans (by rw [W4_arg1 m ρ c, W4_arg6 m ρ c, W4_arg7 m ρ c, layer1_value m ρ c])
  have e2 : V5 m ρ c main_v218 = agg (F := Ideal) ![2, 0] slices_S4x800000_S1x800000_2_0 (m ((c : Thread nD τ).loc main_arg1)) (m ((c : Thread nD τ).loc main_arg6)) (m ((c : Thread nD τ).loc main_arg7)) (netLayer 1 (m ((c : Thread nD τ).loc main_arg1)) (m ((c : Thread nD τ).loc main_arg6)) (m ((c : Thread nD τ).loc main_arg7)) (m ((c : Thread nD τ).loc main_arg2)) (m ((c : Thread nD τ).loc main_arg3)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0)))) :=
    (read2_agg2 (W4 m ρ c)).trans (by rw [W4_arg1 m ρ c, W4_arg6 m ρ c, W4_arg7 m ρ c, layer1_value m ρ c])
  have e3 : V5 m ρ c main_v237 = agg (F := Ideal) ![3, 0] slices_S4x800000_S1x800000_3_0 (m ((c : Thread nD τ).loc main_arg1)) (m ((c : Thread nD τ).loc main_arg6)) (m ((c : Thread nD τ).loc main_arg7)) (netLayer 1 (m ((c : Thread nD τ).loc main_arg1)) (m ((c : Thread nD τ).loc main_arg6)) (m ((c : Thread nD τ).loc main_arg7)) (m ((c : Thread nD τ).loc main_arg2)) (m ((c : Thread nD τ).loc main_arg3)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0)))) :=
    (read2_agg3 (W4 m ρ c)).trans (by rw [W4_arg1 m ρ c, W4_arg6 m ρ c, W4_arg7 m ρ c, layer1_value m ρ c])
  have ew : V5 m ρ c main_v239 = shapeCast S4x128x32 (extractStridedSlice S1x4x128x32 ![2, 0, 0, 0] (m ((c : Thread nD τ).loc main_arg2)) slices_S3x4x128x32_S1x4x128x32_2_0_0_0) shapeCasts_S1x4x128x32_S4x128x32 :=
    (read2_w (W4 m ρ c)).trans (by rw [W4_arg2 m ρ c])
  have eb : V5 m ρ c main_v241 = shapeCast S4x32 (extractStridedSlice S1x4x32 ![2, 0, 0] (m ((c : Thread nD τ).loc main_arg3)) slices_S3x4x32_S1x4x32_2_0_0) shapeCasts_S1x4x32_S4x32 :=
    (read2_b (W4 m ρ c)).trans (by rw [W4_arg3 m ρ c])
  rw [e0, e1, e2, e3, ew, eb]
  exact Cert.HopLayer.KerSlices.ker_slices2 _ _ _ _ _ _ _

/-- After the classifier's region the result buffer holds the network of the launch arguments. -/
theorem result_value (c : Dev nD) : W8 m ρ c (Proc.devRef .tc main_v244)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W8_arr m ρ c 3).trans ?_
  refine (Cert.KernelIdeal.RegionValue.region3 (V7 m ρ) c).trans ?_
  have eh : V7 m ρ c main_v242 = netLayer 2 (m ((c : Thread nD τ).loc main_arg1)) (m ((c : Thread nD τ).loc main_arg6)) (m ((c : Thread nD τ).loc main_arg7)) (m ((c : Thread nD τ).loc main_arg2)) (m ((c : Thread nD τ).loc main_arg3)) (netLayer 1 (m ((c : Thread nD τ).loc main_arg1)) (m ((c : Thread nD τ).loc main_arg6)) (m ((c : Thread nD τ).loc main_arg7)) (m ((c : Thread nD τ).loc main_arg2)) (m ((c : Thread nD τ).loc main_arg3)) (netLayer 0 (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg0)))) :=
    (keep3_v242 (W6 m ρ c)).trans (layer2_value m ρ c)
  have ew : V7 m ρ c main_arg4 = m ((c : Thread nD τ).loc main_arg4) := (keep3_arg4 (W6 m ρ c)).trans (W6_arg4 m ρ c)
  have eb : V7 m ρ c main_v243 = shapeCast S1x40 (m ((c : Thread nD τ).loc main_arg5)) shapeCasts_S40_S1x40 :=
    (read3_bias (W6 m ρ c)).trans (by rw [W6_arg5 m ρ c])
  rw [eh, ew, eb]
  rfl

/-- The run: every weakly fair execution of the kernel program ends with the result at the network of the launch
    arguments and the arguments unchanged. -/
theorem run : θ_run defs (onTc (τ := τ) (main (F := Ideal))) ⟨m, fun _ => 0, ρ⟩ (fun r => ∀ c : Dev nD,
      r.2.mem ((c.tc : Thread nD τ).loc main_v244)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_main m ρ)

end Cert.KernelIdeal.RunValue

end
-- ==== Proof.RefLayer.lean ====
/-
  The reference's spelling of one layer and of the classifier, read as the same functions of whole arrays.

  The reference computes hop `k` of layer `l` as a host matrix product of the aggregated features with the slice
  `W[l, k]` plus the bias `b[l, k]` broadcast over the rows, and lays the four hops side by side; column `32 k + j` of
  the result is therefore lane `j` of hop `k`: `HopLayer.layerAt l`. Its classifier is a host matrix product plus the
  bias vector broadcast over the rows: `HopLayer.classify` with the bias held as one row.
-/
import Idealize.ShloMosaic.Lib.ValueIdx
import Idealize.ShloMosaic.Lib.ValueLayout
import Idealize.ShloMosaic.Lib.Pipeline.Value
import Idealize.ShloMosaic.PureOps.Ideal.Laws
import proofs.«127566_j19559281066123_1_alg».proof.Proof.Spec
import proofs.«127566_j19559281066123_1_alg».proof.Proof.Concat4

set_option maxRecDepth 16384

noncomputable section

namespace Cert.HopLayer.RefRead

open Idealize.ShloMosaic Idealize.ShloMosaic.ValueIdx Cert.DenseRows

/-! ## Reading one hop's weight matrix and bias out of the stacked arguments -/

/-- The block `[1, 1, 128, 32]` of the stacked weights at offsets `(l, k, 0, 0)`, cast to `[128, 32]`, reads at
    `(t, j)` the weights at `(l, k, t, j)`: the two unit axes carry no position, and the block starts at `(l, k)`. -/
theorem weight_read {α : Type} (W : (⟨4, ![3, 4, 128, 32]⟩ : Shape).Idx → α) (l : Fin 3) (k : Fin 4)
    (off : Fin (⟨4, ![3, 4, 128, 32]⟩ : Shape).rank → ℕ) (hoff : off = ![l.val, k.val, 0, 0])
    (hw : (⟨4, ![3, 4, 128, 32]⟩ : Shape).Slices off ⟨4, ![1, 1, 128, 32]⟩)
    (hcw : (⟨4, ![1, 1, 128, 32]⟩ : Shape).ShapeCasts ⟨2, ![128, 32]⟩) (t : Fin 128) (j : Fin 32) :
    shapeCast ⟨2, ![128, 32]⟩ (extractStridedSlice ⟨4, ![1, 1, 128, 32]⟩ off W hw) hcw (ix2 t j) = W (ix4 l k t j) := by
  subst hoff
  refine (shapeCast_apply _ hcw (ix2 t j) (ix4 (0 : Fin 1) (0 : Fin 1) t j) ?_).trans ?_
  · rw [Shape.rowMajor_val_four, Shape.rowMajor_val_two]
    show ((0 * 1 + 0) * 128 + t.val) * 32 + j.val = t.val * 32 + j.val
    omega
  · refine extractStridedSlice_apply _ W hw _ (ix4 l k t j) fun a => ?_
    match a with
    | ⟨0, _⟩ => exact (Nat.add_zero _).symm
    | ⟨1, _⟩ => exact (Nat.add_zero _).symm
    | ⟨2, _⟩ => exact (Nat.zero_add _).symm
    | ⟨3, _⟩ => exact (Nat.zero_add _).symm

/-- The block `[1, 1, 32]` of the stacked biases at offsets `(l, k, 0)`, cast to `[32]`, reads at `j` the biases at
    `(l, k, j)`. -/
theorem bias_read {α : Type} (b : (⟨3, ![3, 4, 32]⟩ : Shape).Idx → α) (l : Fin 3) (k : Fin 4)
    (off : Fin (⟨3, ![3, 4, 32]⟩ : Shape).rank → ℕ) (hoff : off = ![l.val, k.val, 0])
    (hb : (⟨3, ![3, 4, 32]⟩ : Shape).Slices off ⟨3, ![1, 1, 32]⟩)
    (hcb : (⟨3, ![1, 1, 32]⟩ : Shape).ShapeCasts ⟨1, ![32]⟩) (j : Fin 32) :
    shapeCast ⟨1, ![32]⟩ (extractStridedSlice ⟨3, ![1, 1, 32]⟩ off b hb) hcb (ix1 j) = b (ix3 l k j) := by
  subst hoff
  refine (shapeCast_apply _ hcb (ix1 j) (ix3 (0 : Fin 1) (0 : Fin 1) j) ?_).trans ?_
  · rw [Shape.rowMajor_val_three, Shape.rowMajor_val_one]
    show (0 * 1 + 0) * 32 + j.val = j.val
    omega
  · refine extractStridedSlice_apply _ b hb _ (ix3 l k j) fun a => ?_
    match a with
    | ⟨0, _⟩ => exact (Nat.add_zero _).symm
    | ⟨1, _⟩ => exact (Nat.add_zero _).symm
    | ⟨2, _⟩ => exact (Nat.zero_add _).symm

/-! ## One hop, one row -/

/-- Row `r` of hop `k` of layer `l` as the reference spells it — the host product of the aggregated features with the
    weight block, plus the bias block broadcast over the rows — is the dense step of row `r` of the features with the
    matrix `W (l, k, ·, ·)` and the bias `b (l, k, ·)`. -/
theorem hop_row {R : ℕ} (A : FVec Ideal ⟨2, ![R, 128]⟩ .f32) (W : FVec Ideal ⟨4, ![3, 4, 128, 32]⟩ .f32)
    (b : FVec Ideal ⟨3, ![3, 4, 32]⟩ .f32) (l : Fin 3) (k : Fin 4)
    (d : DotDims ⟨2, ![R, 128]⟩ ⟨2, ![128, 32]⟩ ⟨2, ![R, 32]⟩) (hd : d = DotDims.plain R 128 32)
    (ow : Fin (⟨4, ![3, 4, 128, 32]⟩ : Shape).rank → ℕ) (how : ow = ![l.val, k.val, 0, 0])
    (ob : Fin (⟨3, ![3, 4, 32]⟩ : Shape).rank → ℕ) (hob : ob = ![l.val, k.val, 0])
    (hw : (⟨4, ![3, 4, 128, 32]⟩ : Shape).Slices ow ⟨4, ![1, 1, 128, 32]⟩)
    (hb : (⟨3, ![3, 4, 32]⟩ : Shape).Slices ob ⟨3, ![1, 1, 32]⟩)
    (hcw : (⟨4, ![1, 1, 128, 32]⟩ : Shape).ShapeCasts ⟨2, ![128, 32]⟩)
    (hcb : (⟨3, ![1, 1, 32]⟩ : Shape).ShapeCasts ⟨1, ![32]⟩)
    (h1 : (⟨1, ![32]⟩ : Shape).BroadcastsInDim ⟨2, ![1, 32]⟩ ![1])
    (h2 : (⟨2, ![1, 32]⟩ : Shape).BroadcastsInDim ⟨2, ![R, 32]⟩ ![0, 1]) (r : Fin R) :
    row (addf (Host.dotGeneral d none A (shapeCast ⟨2, ![128, 32]⟩ (extractStridedSlice ⟨4, ![1, 1, 128, 32]⟩ ow W hw) hcw))
          (broadcastInDim ⟨2, ![R, 32]⟩ ![0, 1] h2 (broadcastInDim ⟨2, ![1, 32]⟩ ![1] h1
            (shapeCast ⟨1, ![32]⟩ (extractStridedSlice ⟨3, ![1, 1, 32]⟩ ob b hb) hcb)))) r
      = affine (row A r) (fun t j => W (ix4 l k t j)) (fun j => b (ix3 l k j)) := by
  refine (row_dotGeneral_bias d hd none A _ _ h1 h2 r).trans ?_
  have hm : mat (shapeCast ⟨2, ![128, 32]⟩ (extractStridedSlice ⟨4, ![1, 1, 128, 32]⟩ ow W hw) hcw)
      = fun t j => W (ix4 l k t j) :=
    funext fun t => funext fun j => weight_read W l k ow how hw hcw t j
  have hv : vec (shapeCast ⟨1, ![32]⟩ (extractStridedSlice ⟨3, ![1, 1, 32]⟩ ob b hb) hcb)
      = fun j => b (ix3 l k j) :=
    funext fun j => bias_read b l k ob hob hb hcb j
  rw [hm, hv]

/-! ## The four hops side by side -/

/-- Four hop terms of layer `l` laid side by side along the columns are `layerAt l`: column `c` falls in hop `c / 32` at
    lane `c % 32`, and that hop's row is the dense step `layerAt` names. -/
theorem ref_layer_at {R : ℕ} (l : Fin 3) (A0 A1 A2 A3 : FVec Ideal ⟨2, ![R, 128]⟩ .f32)
    (W : FVec Ideal ⟨4, ![3, 4, 128, 32]⟩ .f32) (b : FVec Ideal ⟨3, ![3, 4, 32]⟩ .f32)
    (d : DotDims ⟨2, ![R, 128]⟩ ⟨2, ![128, 32]⟩ ⟨2, ![R, 32]⟩) (hd : d = DotDims.plain R 128 32)
    (ow0 ow1 ow2 ow3 : Fin (⟨4, ![3, 4, 128, 32]⟩ : Shape).rank → ℕ)
    (ob0 ob1 ob2 ob3 : Fin (⟨3, ![3, 4, 32]⟩ : Shape).rank → ℕ)
    (how0 : ow0 = ![l.val, 0, 0, 0]) (hob0 : ob0 = ![l.val, 0, 0])
    (how1 : ow1 = ![l.val, 1, 0, 0]) (hob1 : ob1 = ![l.val, 1, 0])
    (how2 : ow2 = ![l.val, 2, 0, 0]) (hob2 : ob2 = ![l.val, 2, 0])
    (how3 : ow3 = ![l.val, 3, 0, 0]) (hob3 : ob3 = ![l.val, 3, 0])
    (hw0 : (⟨4, ![3, 4, 128, 32]⟩ : Shape).Slices ow0 ⟨4, ![1, 1, 128, 32]⟩) (hb0 : (⟨3, ![3, 4, 32]⟩ : Shape).Slices ob0 ⟨3, ![1, 1, 32]⟩)
    (hw1 : (⟨4, ![3, 4, 128, 32]⟩ : Shape).Slices ow1 ⟨4, ![1, 1, 128, 32]⟩) (hb1 : (⟨3, ![3, 4, 32]⟩ : Shape).Slices ob1 ⟨3, ![1, 1, 32]⟩)
    (hw2 : (⟨4, ![3, 4, 128, 32]⟩ : Shape).Slices ow2 ⟨4, ![1, 1, 128, 32]⟩) (hb2 : (⟨3, ![3, 4, 32]⟩ : Shape).Slices ob2 ⟨3, ![1, 1, 32]⟩)
    (hw3 : (⟨4, ![3, 4, 128, 32]⟩ : Shape).Slices ow3 ⟨4, ![1, 1, 128, 32]⟩) (hb3 : (⟨3, ![3, 4, 32]⟩ : Shape).Slices ob3 ⟨3, ![1, 1, 32]⟩)
    (hcw : (⟨4, ![1, 1, 128, 32]⟩ : Shape).ShapeCasts ⟨2, ![128, 32]⟩) (hcb : (⟨3, ![1, 1, 32]⟩ : Shape).ShapeCasts ⟨1, ![32]⟩)
    (h1 : (⟨1, ![32]⟩ : Shape).BroadcastsInDim ⟨2, ![1, 32]⟩ ![1]) (h2 : (⟨2, ![1, 32]⟩ : Shape).BroadcastsInDim ⟨2, ![R, 32]⟩ ![0, 1])
    (hcat : Shape.Concatenates [(⟨2, ![R, 32]⟩ : Shape), ⟨2, ![R, 32]⟩, ⟨2, ![R, 32]⟩, ⟨2, ![R, 32]⟩] ⟨2, ![R, 128]⟩ 1) :
    concatenate ⟨2, ![R, 128]⟩ 1
        [⟨(⟨2, ![R, 32]⟩ : Shape), addf (Host.dotGeneral d none A0 (shapeCast ⟨2, ![128, 32]⟩ (extractStridedSlice ⟨4, ![1, 1, 128, 32]⟩ ow0 W hw0) hcw)) (broadcastInDim ⟨2, ![R, 32]⟩ ![0, 1] h2 (broadcastInDim ⟨2, ![1, 32]⟩ ![1] h1 (shapeCast ⟨1, ![32]⟩ (extractStridedSlice ⟨3, ![1, 1, 32]⟩ ob0 b hb0) hcb)))⟩,
         ⟨(⟨2, ![R, 32]⟩ : Shape), addf (Host.dotGeneral d none A1 (shapeCast ⟨2, ![128, 32]⟩ (extractStridedSlice ⟨4, ![1, 1, 128, 32]⟩ ow1 W hw1) hcw)) (broadcastInDim ⟨2, ![R, 32]⟩ ![0, 1] h2 (broadcastInDim ⟨2, ![1, 32]⟩ ![1] h1 (shapeCast ⟨1, ![32]⟩ (extractStridedSlice ⟨3, ![1, 1, 32]⟩ ob1 b hb1) hcb)))⟩,
         ⟨(⟨2, ![R, 32]⟩ : Shape), addf (Host.dotGeneral d none A2 (shapeCast ⟨2, ![128, 32]⟩ (extractStridedSlice ⟨4, ![1, 1, 128, 32]⟩ ow2 W hw2) hcw)) (broadcastInDim ⟨2, ![R, 32]⟩ ![0, 1] h2 (broadcastInDim ⟨2, ![1, 32]⟩ ![1] h1 (shapeCast ⟨1, ![32]⟩ (extractStridedSlice ⟨3, ![1, 1, 32]⟩ ob2 b hb2) hcb)))⟩,
         ⟨(⟨2, ![R, 32]⟩ : Shape), addf (Host.dotGeneral d none A3 (shapeCast ⟨2, ![128, 32]⟩ (extractStridedSlice ⟨4, ![1, 1, 128, 32]⟩ ow3 W hw3) hcw)) (broadcastInDim ⟨2, ![R, 32]⟩ ![0, 1] h2 (broadcastInDim ⟨2, ![1, 32]⟩ ![1] h1 (shapeCast ⟨1, ![32]⟩ (extractStridedSlice ⟨3, ![1, 1, 32]⟩ ob3 b hb3) hcb)))⟩] hcat
      = Cert.HopLayer.layerAt l ![A0, A1, A2, A3] W b := by
  refine Cert.HopLayer.ext_ix2 _ _ fun r c => ?_
  refine (Cert.HopLayer.concat4_apply _ _ _ _ hcat r c).trans ?_
  rw [Cert.HopLayer.layerAt_apply]
  generalize Cert.HopLayer.colLane c = j
  generalize Cert.HopLayer.colHop c = k
  match k with
  | ⟨0, _⟩ => exact congrFun (hop_row A0 W b l 0 d hd ow0 how0 ob0 hob0 hw0 hb0 hcw hcb h1 h2 r) j
  | ⟨1, _⟩ => exact congrFun (hop_row A1 W b l 1 d hd ow1 how1 ob1 hob1 hw1 hb1 hcw hcb h1 h2 r) j
  | ⟨2, _⟩ => exact congrFun (hop_row A2 W b l 2 d hd ow2 how2 ob2 hob2 hw2 hb2 hcw hcb h1 h2 r) j
  | ⟨3, _⟩ => exact congrFun (hop_row A3 W b l 3 d hd ow3 how3 ob3 hob3 hw3 hb3 hcw hcb h1 h2 r) j

/-! ## The three layers and the classifier, at the reference's literal offsets -/

theorem ref_layer0 (A0 A1 A2 A3 : FVec Ideal ⟨2, ![50000, 128]⟩ .f32) (W : FVec Ideal ⟨4, ![3, 4, 128, 32]⟩ .f32) (b : FVec Ideal ⟨3, ![3, 4, 32]⟩ .f32)
    (d : DotDims ⟨2, ![50000, 128]⟩ ⟨2, ![128, 32]⟩ ⟨2, ![50000, 32]⟩) (hd : d = DotDims.plain 50000 128 32)
    (hw0 : (⟨4, ![3, 4, 128, 32]⟩ : Shape).Slices ![0, 0, 0, 0] ⟨4, ![1, 1, 128, 32]⟩) (hb0 : (⟨3, ![3, 4, 32]⟩ : Shape).Slices ![0, 0, 0] ⟨3, ![1, 1, 32]⟩)
    (hw1 : (⟨4, ![3, 4, 128, 32]⟩ : Shape).Slices ![0, 1, 0, 0] ⟨4, ![1, 1, 128, 32]⟩) (hb1 : (⟨3, ![3, 4, 32]⟩ : Shape).Slices ![0, 1, 0] ⟨3, ![1, 1, 32]⟩)
    (hw2 : (⟨4, ![3, 4, 128, 32]⟩ : Shape).Slices ![0, 2, 0, 0] ⟨4, ![1, 1, 128, 32]⟩) (hb2 : (⟨3, ![3, 4, 32]⟩ : Shape).Slices ![0, 2, 0] ⟨3, ![1, 1, 32]⟩)
    (hw3 : (⟨4, ![3, 4, 128, 32]⟩ : Shape).Slices ![0, 3, 0, 0] ⟨4, ![1, 1, 128, 32]⟩) (hb3 : (⟨3, ![3, 4, 32]⟩ : Shape).Slices ![0, 3, 0] ⟨3, ![1, 1, 32]⟩)
    (hcw : (⟨4, ![1, 1, 128, 32]⟩ : Shape).ShapeCasts ⟨2, ![128, 32]⟩) (hcb : (⟨3, ![1, 1, 32]⟩ : Shape).ShapeCasts ⟨1, ![32]⟩)
    (h1 : (⟨1, ![32]⟩ : Shape).BroadcastsInDim ⟨2, ![1, 32]⟩ ![1]) (h2 : (⟨2, ![1, 32]⟩ : Shape).BroadcastsInDim ⟨2, ![50000, 32]⟩ ![0, 1])
    (hcat : Shape.Concatenates [(⟨2, ![50000, 32]⟩ : Shape), ⟨2, ![50000, 32]⟩, ⟨2, ![50000, 32]⟩, ⟨2, ![50000, 32]⟩] ⟨2, ![50000, 128]⟩ 1) :
    concatenate ⟨2, ![50000, 128]⟩ 1
        [⟨(⟨2, ![50000, 32]⟩ : Shape), addf (Host.dotGeneral d none A0 (shapeCast ⟨2, ![128, 32]⟩ (extractStridedSlice ⟨4, ![1, 1, 128, 32]⟩ ![0, 0, 0, 0] W hw0) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![0, 0, 0] b hb0) hcb)))⟩,
         ⟨(⟨2, ![50000, 32]⟩ : Shape), addf (Host.dotGeneral d none A1 (shapeCast ⟨2, ![128, 32]⟩ (extractStridedSlice ⟨4, ![1, 1, 128, 32]⟩ ![0, 1, 0, 0] W hw1) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![0, 1, 0] b hb1) hcb)))⟩,
         ⟨(⟨2, ![50000, 32]⟩ : Shape), addf (Host.dotGeneral d none A2 (shapeCast ⟨2, ![128, 32]⟩ (extractStridedSlice ⟨4, ![1, 1, 128, 32]⟩ ![0, 2, 0, 0] W hw2) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![0, 2, 0] b hb2) hcb)))⟩,
         ⟨(⟨2, ![50000, 32]⟩ : Shape), addf (Host.dotGeneral d none A3 (shapeCast ⟨2, ![128, 32]⟩ (extractStridedSlice ⟨4, ![1, 1, 128, 32]⟩ ![0, 3, 0, 0] W hw3) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![0, 3, 0] b hb3) hcb)))⟩] hcat
      = Cert.HopLayer.layerAt 0 ![A0, A1, A2, A3] W b := by
  exact ref_layer_at 0 A0 A1 A2 A3 W b d hd ![0, 0, 0, 0] ![0, 1, 0, 0] ![0, 2, 0, 0] ![0, 3, 0, 0]
    ![0, 0, 0] ![0, 1, 0] ![0, 2, 0] ![0, 3, 0] rfl rfl rfl rfl rfl rfl rfl rfl
    hw0 hb0 hw1 hb1 hw2 hb2 hw3 hb3 hcw hcb h1 h2 hcat

theorem ref_layer1 (A0 A1 A2 A3 : FVec Ideal ⟨2, ![50000, 128]⟩ .f32) (W : FVec Ideal ⟨4, ![3, 4, 128, 32]⟩ .f32) (b : FVec Ideal ⟨3, ![3, 4, 32]⟩ .f32)
    (d : DotDims ⟨2, ![50000, 128]⟩ ⟨2, ![128, 32]⟩ ⟨2, ![50000, 32]⟩) (hd : d = DotDims.plain 50000 128 32)
    (hw0 : (⟨4, ![3, 4, 128, 32]⟩ : Shape).Slices ![1, 0, 0, 0] ⟨4, ![1, 1, 128, 32]⟩) (hb0 : (⟨3, ![3, 4, 32]⟩ : Shape).Slices ![1, 0, 0] ⟨3, ![1, 1, 32]⟩)
    (hw1 : (⟨4, ![3, 4, 128, 32]⟩ : Shape).Slices ![1, 1, 0, 0] ⟨4, ![1, 1, 128, 32]⟩) (hb1 : (⟨3, ![3, 4, 32]⟩ : Shape).Slices ![1, 1, 0] ⟨3, ![1, 1, 32]⟩)
    (hw2 : (⟨4, ![3, 4, 128, 32]⟩ : Shape).Slices ![1, 2, 0, 0] ⟨4, ![1, 1, 128, 32]⟩) (hb2 : (⟨3, ![3, 4, 32]⟩ : Shape).Slices ![1, 2, 0] ⟨3, ![1, 1, 32]⟩)
    (hw3 : (⟨4, ![3, 4, 128, 32]⟩ : Shape).Slices ![1, 3, 0, 0] ⟨4, ![1, 1, 128, 32]⟩) (hb3 : (⟨3, ![3, 4, 32]⟩ : Shape).Slices ![1, 3, 0] ⟨3, ![1, 1, 32]⟩)
    (hcw : (⟨4, ![1, 1, 128, 32]⟩ : Shape).ShapeCasts ⟨2, ![128, 32]⟩) (hcb : (⟨3, ![1, 1, 32]⟩ : Shape).ShapeCasts ⟨1, ![32]⟩)
    (h1 : (⟨1, ![32]⟩ : Shape).BroadcastsInDim ⟨2, ![1, 32]⟩ ![1]) (h2 : (⟨2, ![1, 32]⟩ : Shape).BroadcastsInDim ⟨2, ![50000, 32]⟩ ![0, 1])
    (hcat : Shape.Concatenates [(⟨2, ![50000, 32]⟩ : Shape), ⟨2, ![50000, 32]⟩, ⟨2, ![50000, 32]⟩, ⟨2, ![50000, 32]⟩] ⟨2, ![50000, 128]⟩ 1) :
    concatenate ⟨2, ![50000, 128]⟩ 1
        [⟨(⟨2, ![50000, 32]⟩ : Shape), addf (Host.dotGeneral d none A0 (shapeCast ⟨2, ![128, 32]⟩ (extractStridedSlice ⟨4, ![1, 1, 128, 32]⟩ ![1, 0, 0, 0] W hw0) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![1, 0, 0] b hb0) hcb)))⟩,
         ⟨(⟨2, ![50000, 32]⟩ : Shape), addf (Host.dotGeneral d none A1 (shapeCast ⟨2, ![128, 32]⟩ (extractStridedSlice ⟨4, ![1, 1, 128, 32]⟩ ![1, 1, 0, 0] W hw1) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![1, 1, 0] b hb1) hcb)))⟩,
         ⟨(⟨2, ![50000, 32]⟩ : Shape), addf (Host.dotGeneral d none A2 (shapeCast ⟨2, ![128, 32]⟩ (extractStridedSlice ⟨4, ![1, 1, 128, 32]⟩ ![1, 2, 0, 0] W hw2) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![1, 2, 0] b hb2) hcb)))⟩,
         ⟨(⟨2, ![50000, 32]⟩ : Shape), addf (Host.dotGeneral d none A3 (shapeCast ⟨2, ![128, 32]⟩ (extractStridedSlice ⟨4, ![1, 1, 128, 32]⟩ ![1, 3, 0, 0] W hw3) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![1, 3, 0] b hb3) hcb)))⟩] hcat
      = Cert.HopLayer.layerAt 1 ![A0, A1, A2, A3] W b := by
  exact ref_layer_at 1 A0 A1 A2 A3 W b d hd ![1, 0, 0, 0] ![1, 1, 0, 0] ![1, 2, 0, 0] ![1, 3, 0, 0]
    ![1, 0, 0] ![1, 1, 0] ![1, 2, 0] ![1, 3, 0] rfl rfl rfl rfl rfl rfl rfl rfl
    hw0 hb0 hw1 hb1 hw2 hb2 hw3 hb3 hcw hcb h1 h2 hcat

theorem ref_layer2 (A0 A1 A2 A3 : FVec Ideal ⟨2, ![50000, 128]⟩ .f32) (W : FVec Ideal ⟨4, ![3, 4, 128, 32]⟩ .f32) (b : FVec Ideal ⟨3, ![3, 4, 32]⟩ .f32)
    (d : DotDims ⟨2, ![50000, 128]⟩ ⟨2, ![128, 32]⟩ ⟨2, ![50000, 32]⟩) (hd : d = DotDims.plain 50000 128 32)
    (hw0 : (⟨4, ![3, 4, 128, 32]⟩ : Shape).Slices ![2, 0, 0, 0] ⟨4, ![1, 1, 128, 32]⟩) (hb0 : (⟨3, ![3, 4, 32]⟩ : Shape).Slices ![2, 0, 0] ⟨3, ![1, 1, 32]⟩)
    (hw1 : (⟨4, ![3, 4, 128, 32]⟩ : Shape).Slices ![2, 1, 0, 0] ⟨4, ![1, 1, 128, 32]⟩) (hb1 : (⟨3, ![3, 4, 32]⟩ : Shape).Slices ![2, 1, 0] ⟨3, ![1, 1, 32]⟩)
    (hw2 : (⟨4, ![3, 4, 128, 32]⟩ : Shape).Slices ![2, 2, 0, 0] ⟨4, ![1, 1, 128, 32]⟩) (hb2 : (⟨3, ![3, 4, 32]⟩ : Shape).Slices ![2, 2, 0] ⟨3, ![1, 1, 32]⟩)
    (hw3 : (⟨4, ![3, 4, 128, 32]⟩ : Shape).Slices ![2, 3, 0, 0] ⟨4, ![1, 1, 128, 32]⟩) (hb3 : (⟨3, ![3, 4, 32]⟩ : Shape).Slices ![2, 3, 0] ⟨3, ![1, 1, 32]⟩)
    (hcw : (⟨4, ![1, 1, 128, 32]⟩ : Shape).ShapeCasts ⟨2, ![128, 32]⟩) (hcb : (⟨3, ![1, 1, 32]⟩ : Shape).ShapeCasts ⟨1, ![32]⟩)
    (h1 : (⟨1, ![32]⟩ : Shape).BroadcastsInDim ⟨2, ![1, 32]⟩ ![1]) (h2 : (⟨2, ![1, 32]⟩ : Shape).BroadcastsInDim ⟨2, ![50000, 32]⟩ ![0, 1])
    (hcat : Shape.Concatenates [(⟨2, ![50000, 32]⟩ : Shape), ⟨2, ![50000, 32]⟩, ⟨2, ![50000, 32]⟩, ⟨2, ![50000, 32]⟩] ⟨2, ![50000, 128]⟩ 1) :
    concatenate ⟨2, ![50000, 128]⟩ 1
        [⟨(⟨2, ![50000, 32]⟩ : Shape), addf (Host.dotGeneral d none A0 (shapeCast ⟨2, ![128, 32]⟩ (extractStridedSlice ⟨4, ![1, 1, 128, 32]⟩ ![2, 0, 0, 0] W hw0) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![2, 0, 0] b hb0) hcb)))⟩,
         ⟨(⟨2, ![50000, 32]⟩ : Shape), addf (Host.dotGeneral d none A1 (shapeCast ⟨2, ![128, 32]⟩ (extractStridedSlice ⟨4, ![1, 1, 128, 32]⟩ ![2, 1, 0, 0] W hw1) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![2, 1, 0] b hb1) hcb)))⟩,
         ⟨(⟨2, ![50000, 32]⟩ : Shape), addf (Host.dotGeneral d none A2 (shapeCast ⟨2, ![128, 32]⟩ (extractStridedSlice ⟨4, ![1, 1, 128, 32]⟩ ![2, 2, 0, 0] W hw2) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![2, 2, 0] b hb2) hcb)))⟩,
         ⟨(⟨2, ![50000, 32]⟩ : Shape), addf (Host.dotGeneral d none A3 (shapeCast ⟨2, ![128, 32]⟩ (extractStridedSlice ⟨4, ![1, 1, 128, 32]⟩ ![2, 3, 0, 0] W hw3) hcw)) (broadcastInDim ⟨2, ![50000, 32]⟩ ![0, 1] h2 (broadcastInDim ⟨2, ![1, 32]⟩ ![1] h1 (shapeCast ⟨1, ![32]⟩ (extractStridedSlice ⟨3, ![1, 1, 32]⟩ ![2, 3, 0] b hb3) hcb)))⟩] hcat
      = Cert.HopLayer.layerAt 2 ![A0, A1, A2, A3] W b := by
  exact ref_layer_at 2 A0 A1 A2 A3 W b d hd ![2, 0, 0, 0] ![2, 1, 0, 0] ![2, 2, 0, 0] ![2, 3, 0, 0]
    ![2, 0, 0] ![2, 1, 0] ![2, 2, 0] ![2, 3, 0] rfl rfl rfl rfl rfl rfl rfl rfl
    hw0 hb0 hw1 hb1 hw2 hb2 hw3 hb3 hcw hcb h1 h2 hcat

theorem ref_classify (H : FVec Ideal ⟨2, ![50000, 128]⟩ .f32) (Wc : FVec Ideal ⟨2, ![128, 40]⟩ .f32) (bc : FVec Ideal ⟨1, ![40]⟩ .f32)
    (d : DotDims ⟨2, ![50000, 128]⟩ ⟨2, ![128, 40]⟩ ⟨2, ![50000, 40]⟩) (hd : d = DotDims.plain 50000 128 40)
    (h1 : (⟨1, ![40]⟩ : Shape).BroadcastsInDim ⟨2, ![1, 40]⟩ ![1]) (h2 : (⟨2, ![1, 40]⟩ : Shape).BroadcastsInDim ⟨2, ![50000, 40]⟩ ![0, 1])
    (hc : (⟨1, ![40]⟩ : Shape).ShapeCasts ⟨2, ![1, 40]⟩) :
    addf (Host.dotGeneral d none H Wc) (broadcastInDim ⟨2, ![50000, 40]⟩ ![0, 1] h2 (broadcastInDim ⟨2, ![1, 40]⟩ ![1] h1 bc))
      = Cert.HopLayer.classify H Wc (shapeCast ⟨2, ![1, 40]⟩ bc hc) := by
  refine Cert.HopLayer.ext_ix2 _ _ fun r n => ?_
  rw [Cert.HopLayer.classify_apply]
  have hv : row (shapeCast ⟨2, ![1, 40]⟩ bc hc) (0 : Fin 1) = vec bc :=
    funext fun j => shapeCast_a_1a_apply bc hc 0 j
  rw [hv]
  exact congrFun (row_dotGeneral_bias d hd none H Wc bc h1 h2 r) n

end Cert.HopLayer.RefRead

end
-- ==== Proof.RefValue.lean ====
/-
  The reference's run, read as the network.

  The generated run of the reference names the three layers' outputs (the concatenations of the four hops' dense
  steps) and ends with the classifier's term. Each layer's term is the reference's spelling of `HopLayer.layerAt l`
  of the four aggregations of the previous layer's output — the aggregations the very chain of host operations the
  kernel program runs, so `agg` —, and the last term its spelling of `HopLayer.classify`: the result is `net` of the
  launch contents of the arguments.
-/
import proofs.«127566_j19559281066123_1_alg».proof.Proof.Gen.ReferenceIdeal.Run
import proofs.«127566_j19559281066123_1_alg».proof.Proof.Net
import proofs.«127566_j19559281066123_1_alg».proof.Proof.RefLayer

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Cert.KernelIdeal.RunValue (agg aggs netLayer net)

variable (V0 : Valuation τ sig (Elt Ideal))

/-- The first layer's named output is layer 0 of the network on the input features. -/
theorem layer0_eq : res_main_v108 (F := Ideal) V0 = netLayer 0 (V0 (Proc.devRef .tc main_arg1)) (V0 (Proc.devRef .tc main_arg6)) (V0 (Proc.devRef .tc main_arg7)) (V0 (Proc.devRef .tc main_arg2)) (V0 (Proc.devRef .tc main_arg3)) (V0 (Proc.devRef .tc main_arg0)) := by
  unfold res_main_v108
  refine (Cert.HopLayer.RefRead.ref_layer0 _ _ _ _ _ _ dot_S50000x128_S128x32_S50000x32_1_0_0_1_n_n rfl
    _ _ _ _ _ _ _ _ _ _ _ _ _).trans ?_
  rfl

/-- The second layer's named output is layer 1 on layer 0's output. -/
theorem layer1_eq : res_main_v217 (F := Ideal) V0 = netLayer 1 (V0 (Proc.devRef .tc main_arg1)) (V0 (Proc.devRef .tc main_arg6)) (V0 (Proc.devRef .tc main_arg7)) (V0 (Proc.devRef .tc main_arg2)) (V0 (Proc.devRef .tc main_arg3)) (netLayer 0 (V0 (Proc.devRef .tc main_arg1)) (V0 (Proc.devRef .tc main_arg6)) (V0 (Proc.devRef .tc main_arg7)) (V0 (Proc.devRef .tc main_arg2)) (V0 (Proc.devRef .tc main_arg3)) (V0 (Proc.devRef .tc main_arg0))) := by
  unfold res_main_v217
  rw [layer0_eq V0]
  refine (Cert.HopLayer.RefRead.ref_layer1 _ _ _ _ _ _ dot_S50000x128_S128x32_S50000x32_1_0_0_1_n_n rfl
    _ _ _ _ _ _ _ _ _ _ _ _ _).trans ?_
  rfl

/-- The third layer's named output is layer 2 on layer 1's output. -/
theorem layer2_eq : res_main_v326 (F := Ideal) V0 = netLayer 2 (V0 (Proc.devRef .tc main_arg1)) (V0 (Proc.devRef .tc main_arg6)) (V0 (Proc.devRef .tc main_arg7)) (V0 (Proc.devRef .tc main_arg2)) (V0 (Proc.devRef .tc main_arg3)) (netLayer 1 (V0 (Proc.devRef .tc main_arg1)) (V0 (Proc.devRef .tc main_arg6)) (V0 (Proc.devRef .tc main_arg7)) (V0 (Proc.devRef .tc main_arg2)) (V0 (Proc.devRef .tc main_arg3)) (netLayer 0 (V0 (Proc.devRef .tc main_arg1)) (V0 (Proc.devRef .tc main_arg6)) (V0 (Proc.devRef .tc main_arg7)) (V0 (Proc.devRef .tc main_arg2)) (V0 (Proc.devRef .tc main_arg3)) (V0 (Proc.devRef .tc main_arg0)))) := by
  unfold res_main_v326
  rw [layer1_eq V0]
  refine (Cert.HopLayer.RefRead.ref_layer2 _ _ _ _ _ _ dot_S50000x128_S128x32_S50000x32_1_0_0_1_n_n rfl
    _ _ _ _ _ _ _ _ _ _ _ _ _).trans ?_
  rfl

/-- The run's result term is the network of the launch contents. -/
theorem result_eq :
    addf (Host.dotGeneral (φ₁ := .f32) (φ₂ := .f32) dot_S50000x128_S128x40_S50000x40_1_0_0_1_n_n none (res_main_v326 (F := Ideal) V0) (V0 (Proc.devRef .tc main_arg4)))
        (broadcastInDim S50000x40 ![0, 1] bcast_S1x40_S50000x40_0_1 (broadcastInDim S1x40 ![1] bcast_S40_S1x40_1 (V0 (Proc.devRef .tc main_arg5))))
      = net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [layer2_eq V0]
  refine (Cert.HopLayer.RefRead.ref_classify _ _ _ dot_S50000x128_S128x40_S50000x40_1_0_0_1_n_n rfl _ _
    (Cert.KernelIdeal.Facts₀.shapeCasts_S40_S1x40)).trans ?_
  rfl

end Cert.ReferenceIdeal.RefValue

end
-- ==== Proof.lean ====
/-
  The kernel program and its reference compute one network.

  The network is three layers and a classifier. In each layer the node features are aggregated four times, once per
  hop, along that hop's weighted edges (gather the source rows, scale by the edge value, add into the destination
  rows), each aggregation goes through its own dense step `a ↦ a · W[l, k] + b[l, k]` of 128 inputs and 32 outputs, and
  the four results are laid side by side as the next 128 features; the classifier is one more dense step to 40
  classes. The reference spells every dense step as a host matrix product plus a broadcast bias and concatenates; the
  kernel program runs one kernel per layer, which takes blocks of 2000 rows of the four aggregations, multiplies each by
  its hop's matrix (the operands narrowed to a shorter float format first, which over the extended reals is the
  identity), adds the bias, concatenates, and writes the block of rows back; a last kernel does the classifier on
  blocks of 5000 rows. The aggregations are the same host operations in both programs.

  Over the extended reals both are therefore the same function `net` of the eight arguments: a block of rows of a
  layer is the layer of the blocks, the blocks tile the rows, a matrix product into a zero accumulator is the host's
  contraction, and the aggregation is carried as one function never opened. No law that needs finite operands is
  used, so the precondition is not opened. The idealized kernel is the kernel's own text read over the extended
  reals: nothing was rewritten, and `preserves` asks nothing.

  The frames are the generated ones (the reference's is its generated run with the result dropped).
-/
import proofs.«127566_j19559281066123_1_alg».proof.Defs
import proofs.«127566_j19559281066123_1_alg».proof.Proof.Gen.Kernel
import proofs.«127566_j19559281066123_1_alg».proof.Proof.Gen.Kernel.Skeleton
import proofs.«127566_j19559281066123_1_alg».proof.Proof.Gen.Kernel.Launch
import proofs.«127566_j19559281066123_1_alg».proof.Proof.Gen.Kernel.Points
import proofs.«127566_j19559281066123_1_alg».proof.Proof.Gen.Kernel.Frame
import proofs.«127566_j19559281066123_1_alg».proof.Proof.Gen.KernelIdeal
import proofs.«127566_j19559281066123_1_alg».proof.Proof.Gen.KernelIdeal.Skeleton
import proofs.«127566_j19559281066123_1_alg».proof.Proof.Gen.KernelIdeal.Launch
import proofs.«127566_j19559281066123_1_alg».proof.Proof.Gen.KernelIdeal.Points
import proofs.«127566_j19559281066123_1_alg».proof.Proof.Gen.KernelIdeal.Frame
import proofs.«127566_j19559281066123_1_alg».proof.Proof.Gen.ReferenceIdeal
import proofs.«127566_j19559281066123_1_alg».proof.Proof.Gen.ReferenceIdeal.Run
import proofs.«127566_j19559281066123_1_alg».proof.Proof.Gen.Pre_finite_inputs
import proofs.«127566_j19559281066123_1_alg».proof.Proof.KernelValue
import proofs.«127566_j19559281066123_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at `net` of the arguments: the kernel program by its run read region by
    region, the reference by its generated run read layer by layer; the two memories agree on the arguments. -/
theorem algebraic : Cert.algebraic_KernelIdeal_ReferenceIdeal := by
  intro m ρ m' ρ' _ hagree
  refine ⟨fun c => Cert.KernelIdeal.RunValue.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq (Idealize.ShloMosaic.StableHlo.launchContents m' c)).trans ?_
  obtain ⟨h0, h1, h2, h3, h4, h5, h6, h7⟩ := hagree c
  show Cert.KernelIdeal.RunValue.net
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
